-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S256x256x3x3 : Shape := ⟨4, ![256, 256, 3, 3]⟩
abbrev S256 : Shape := ⟨1, ![256]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x256x64x64 .f32) (main_arg1 : FVec F S256x256x3x3 .f32) (main_arg2 : FVec F S256 .f32) (main_arg3 : FVec F S256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S256x256x3x3 .f32 := Host.absf main_arg1
  let main_cst_0 : FVec F S_ .f32 := constant S_ .f32 0x7F800000#32
  let main_v5 : FVec F S256x256x3x3 .f32 := broadcastInDim S256x256x3x3 ![] bcast_S_S256x256x3x3 main_cst_0
  let main_v6 : IVec S256x256x3x3 1 := cmpf .olt main_v4 main_v5
  let main_c_1 : IVec S_ 1 := constantI S_ 1 1#1
  let main_v7 : IVec S_ 1 := (fun x v => Host.reduce IntOp.andi x v reducesTo_S256x256x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x256x64x64 : Shape := ⟨4, ![8, 256, 64, 64]⟩
abbrev S256x256x3x3 : Shape := ⟨4, ![256, 256, 3, 3]⟩
abbrev S256 : Shape := ⟨1, ![256]⟩
abbrev S8x64x64x256 : Shape := ⟨4, ![8, 64, 64, 256]⟩
abbrev S3x3x256x256 : Shape := ⟨4, ![3, 3, 256, 256]⟩
abbrev S_ : Shape := ⟨0, ![]⟩
abbrev S2304x256 : Shape := ⟨2, ![2304, 256]⟩
abbrev S8x4096x256 : Shape := ⟨3, ![8, 4096, 256]⟩
abbrev S8x2x256 : Shape := ⟨3, ![8, 2, 256]⟩
abbrev S1x64x64x256 : Shape := ⟨4, ![1, 64, 64, 256]⟩
abbrev S1x4096x256 : Shape := ⟨3, ![1, 4096, 256]⟩
abbrev S1x2x256 : Shape := ⟨3, ![1, 2, 256]⟩
abbrev S68x64x768 : Shape := ⟨3, ![68, 64, 768]⟩
abbrev S64x64x256 : Shape := ⟨3, ![64, 64, 256]⟩
abbrev S2x64x768 : Shape := ⟨3, ![2, 64, 768]⟩
abbrev S64x62x256 : Shape := ⟨3, ![64, 62, 256]⟩
abbrev S64x2x256 : Shape := ⟨3, ![64, 2, 256]⟩
abbrev S1x256 : Shape := ⟨2, ![1, 256]⟩
abbrev S12x64x768 : Shape := ⟨3, ![12, 64, 768]⟩
abbrev S512x256 : Shape := ⟨2, ![512, 256]⟩
abbrev S8x64x768 : Shape := ⟨3, ![8, 64, 768]⟩
abbrev S512x768 : Shape := ⟨2, ![512, 768]⟩
abbrev S768x256 : Shape := ⟨2, ![768, 256]⟩
abbrev S1x512x256 : Shape := ⟨3, ![1, 512, 256]⟩
abbrev S2x256 : Shape := ⟨2, ![2, 256]⟩
abbrev S4096x256 : Shape := ⟨2, ![4096, 256]⟩

abbrev nBuf : Space → Nat
  | .hbm => 24
  | .vmem => 15
  | .smem => 0
  | _ => 0

abbrev bufTy : (tb : Table) → Fin (tcTables nBuf tb) → BufTy
  | .hbm, ⟨0, _⟩ => ⟨S8x256x64x64, .f32⟩
  | .hbm, ⟨1, _⟩ => ⟨S256x256x3x3, .f32⟩
  | .hbm, ⟨2, _⟩ => ⟨S256, .f32⟩
  | .hbm, ⟨3, _⟩ => ⟨S256, .f32⟩
  | .hbm, ⟨4, _⟩ => ⟨S8x64x64x256, .f32⟩
  | .hbm, ⟨5, _⟩ => ⟨S3x3x256x256, .f32⟩
  | .hbm, ⟨6, _⟩ => ⟨S_, .i32⟩
  | .hbm, ⟨7, _⟩ => ⟨S_, .f32⟩
  | .hbm, ⟨8, _⟩ => ⟨S3x3x256x256, .f32⟩
  | .hbm, ⟨9, _⟩ => ⟨S2304x256, .f32⟩
  | .hbm, ⟨10, _⟩ => ⟨S2304x256, .bf16⟩
  | .hbm, ⟨11, _⟩ => ⟨S8x4096x256, .bf16⟩
  | .hbm, ⟨12, _⟩ => ⟨S8x2x256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S_, .i32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S1x256, .f32⟩
  | .hbm, ⟨21, _⟩ => ⟨S8x4096x256, .f32⟩
  | .hbm, ⟨22, _⟩ => ⟨S8x64x64x256, .f32⟩
  | .hbm, ⟨23, _⟩ => ⟨S8x256x64x64, .f32⟩
  | .local _ .vmem, ⟨0, _⟩ => ⟨S1x64x64x256, .f32⟩
  | .local _ .vmem, ⟨1, _⟩ => ⟨S1x64x64x256, .f32⟩
  | .local _ .vmem, ⟨2, _⟩ => ⟨S2304x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x2x256, .f32⟩
  | .local _ .vmem, ⟨6, _⟩ => ⟨S1x2x256, .f32⟩
  | .local _ .vmem, ⟨7, _⟩ => ⟨S68x64x768, .bf16⟩
  | .local _ .vmem, ⟨8, _⟩ => ⟨S8x2x256, .f32⟩
  | .local _ .vmem, ⟨9, _⟩ => ⟨S1x256, .f32⟩
  | .local _ .vmem, ⟨10, _⟩ => ⟨S1x256, .f32⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .f32⟩
  | .local _ .vmem, ⟨14, _⟩ => ⟨S1x4096x256, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S8x2x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S8x256x64x64_S8x64x64x256_0_2_3_1 : S8x256x64x64.Transposes [0, 2, 3, 1] S8x64x64x256
  transposes_S256x256x3x3_S3x3x256x256_2_3_1_0 : S256x256x3x3.Transposes [2, 3, 1, 0] S3x3x256x256
  pads_S3x3x256x256_S3x3x256x256_000_000_000_000 : S3x3x256x256.Pads (![0, 0, 0, 0] : Fin 4 → Nat) ![0, 0, 0, 0] ![0, 0, 0, 0] S3x3x256x256
  h_S_ : 0 < S_.numel
  shapeCasts_S3x3x256x256_S2304x256 : S3x3x256x256.ShapeCasts S2304x256
  bitsLt_bf16_f32 : FTy.bits .bf16 < FTy.bits .f32
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  inb_S68x64x768_S2x64x768_0_0_0 : ∀ a, (![0, 0, 0] : Fin 3 → Nat) a + S2x64x768.size a ≤ S68x64x768.size a
  h_S2x64x768 : 0 < S2x64x768.numel
  shapeCasts_S2x64x768_S2x64x768 : S2x64x768.ShapeCasts S2x64x768
  packedbf16_S68x64x768_S2x64x768_0_0_0 : (Rect.unit (s := S68x64x768) ![0, 0, 0] S2x64x768.size inb_S68x64x768_S2x64x768_0_0_0).PackedRows (EltTy.packing .bf16)
  inb_S68x64x768_S2x64x768_66_0_0 : ∀ a, (![66, 0, 0] : Fin 3 → Nat) a + S2x64x768.size a ≤ S68x64x768.size a
  packedbf16_S68x64x768_S2x64x768_66_0_0 : (Rect.unit (s := S68x64x768) ![66, 0, 0] S2x64x768.size inb_S68x64x768_S2x64x768_66_0_0).PackedRows (EltTy.packing .bf16)
  slices_S64x64x256_o0_0_0_S64x62x256 : S64x64x256.Slices ![0, 0, 0] S64x62x256
  inb_S68x64x768_S64x62x256_2_2_0 : ∀ a, (![2, 2, 0] : Fin 3 → Nat) a + S64x62x256.size a ≤ S68x64x768.size a
  h_S64x62x256 : 0 < S64x62x256.numel
  shapeCasts_S64x62x256_S64x62x256 : S64x62x256.ShapeCasts S64x62x256
  packedbf16_S68x64x768_S64x62x256_2_2_0 : (Rect.unit (s := S68x64x768) ![2, 2, 0] S64x62x256.size inb_S68x64x768_S64x62x256_2_2_0).PackedRows (EltTy.packing .bf16)
  inb_S68x64x768_S64x2x256_2_0_0 : ∀ a, (![2, 0, 0] : Fin 3 → Nat) a + S64x2x256.size a ≤ S68x64x768.size a
  h_S64x2x256 : 0 < S64x2x256.numel
  shapeCasts_S64x2x256_S64x2x256 : S64x2x256.ShapeCasts S64x2x256
  packedbf16_S68x64x768_S64x2x256_2_0_0 : (Rect.unit (s := S68x64x768) ![2, 0, 0] S64x2x256.size inb_S68x64x768_S64x2x256_2_0_0).PackedRows (EltTy.packing .bf16)
  inb_S68x64x768_S64x64x256_2_0_256 : ∀ a, (![2, 0, 256] : Fin 3 → Nat) a + S64x64x256.size a ≤ S68x64x768.size a
  h_S64x64x256 : 0 < S64x64x256.numel
  shapeCasts_S64x64x256_S64x64x256 : S64x64x256.ShapeCasts S64x64x256
  packedbf16_S68x64x768_S64x64x256_2_0_256 : (Rect.unit (s := S68x64x768) ![2, 0, 256] S64x64x256.size inb_S68x64x768_S64x64x256_2_0_256).PackedRows (EltTy.packing .bf16)
  slices_S64x64x256_o0_2_0_S64x62x256 : S64x64x256.Slices ![0, 2, 0] S64x62x256
  inb_S68x64x768_S64x62x256_2_0_512 : ∀ a, (![2, 0, 512] : Fin 3 → Nat) a + S64x62x256.size a ≤ S68x64x768.size a
  packedbf16_S68x64x768_S64x62x256_2_0_512 : (Rect.unit (s := S68x64x768) ![2, 0, 512] S64x62x256.size inb_S68x64x768_S64x62x256_2_0_512).PackedRows (EltTy.packing .bf16)
  inb_S68x64x768_S64x2x256_2_62_512 : ∀ a, (![2, 62, 512] : Fin 3 → Nat) a + S64x2x256.size a ≤ S68x64x768.size a
  packedbf16_S68x64x768_S64x2x256_2_62_512 : (Rect.unit (s := S68x64x768) ![2, 62, 512] S64x2x256.size inb_S68x64x768_S64x2x256_2_62_512).PackedRows (EltTy.packing .bf16)
  inb_S68x64x768_S12x64x768_0_0_0 : ∀ a, (![0, 0, 0] : Fin 3 → Nat) a + S12x64x768.size a ≤ S68x64x768.size a
  h_S12x64x768 : 0 < S12x64x768.numel
  slices_S12x64x768_o0_0_0_S8x64x768 : S12x64x768.Slices ![0, 0, 0] S8x64x768
  shapeCasts_S8x64x768_S512x768 : S8x64x768.ShapeCasts S512x768
  inb_S2304x256_S768x256_0_0 : ∀ a, (![0, 0] : Fin 2 → Nat) a + S768x256.size a ≤ S2304x256.size a
  h_S768x256 : 0 < S768x256.numel
  shapeCasts_S768x256_S768x256 : S768x256.ShapeCasts S768x256
  slices_S12x64x768_o2_0_0_S8x64x768 : S12x64x768.Slices ![2, 0, 0] S8x64x768
  inb_S2304x256_S768x256_768_0 : ∀ a, (![768, 0] : Fin 2 → Nat) a + S768x256.size a ≤ S2304x256.size a
  slices_S12x64x768_o4_0_0_S8x64x768 : S12x64x768.Slices ![4, 0, 0] S8x64x768
  inb_S2304x256_S768x256_1536_0 : ∀ a, (![1536, 0] : Fin 2 → Nat) a + S768x256.size a ≤ S2304x256.size a
  reduces_S512x256_S256 : S512x256.Reduces [0] S256
  shapeCasts_S256_S1x256 : S256.ShapeCasts S1x256
  inb_S1x4096x256_S1x512x256_0_0_0 : ∀ a, (![0, 0, 0] : Fin 3 → Nat) a + S1x512x256.size a ≤ S1x4096x256.size a
  h_S1x512x256 : 0 < S1x512x256.numel
  shapeCasts_S1x512x256_S512x256 : S1x512x256.ShapeCasts S512x256
  shapeCasts_S512x256_S1x512x256 : S512x256.ShapeCasts S1x512x256
  packedbf16_S1x4096x256_S1x512x256_0_0_0 : (Rect.unit (s := S1x4096x256) ![0, 0, 0] S1x512x256.size inb_S1x4096x256_S1x512x256_0_0_0).PackedRows (EltTy.packing .bf16)
  inb_S68x64x768_S12x64x768_8_0_0 : ∀ a, (![8, 0, 0] : Fin 3 → Nat) a + S12x64x768.size a ≤ S68x64x768.size a
  inb_S1x4096x256_S1x512x256_0_512_0 : ∀ a, (![0, 512, 0] : Fin 3 → Nat) a + S1x512x256.size a ≤ S1x4096x256.size a
  packedbf16_S1x4096x256_S1x512x256_0_512_0 : (Rect.unit (s := S1x4096x256) ![0, 512, 0] S1x512x256.size inb_S1x4096x256_S1x512x256_0_512_0).PackedRows (EltTy.packing .bf16)
  inb_S68x64x768_S12x64x768_16_0_0 : ∀ a, (![16, 0, 0] : Fin 3 → Nat) a + S12x64x768.size a ≤ S68x64x768.size a
  inb_S1x4096x256_S1x512x256_0_1024_0 : ∀ a, (![0, 1024, 0] : Fin 3 → Nat) a + S1x512x256.size a ≤ S1x4096x256.size a
  packedbf16_S1x4096x256_S1x512x256_0_1024_0 : (Rect.unit (s := S1x4096x256) ![0, 1024, 0] S1x512x256.size inb_S1x4096x256_S1x512x256_0_1024_0).PackedRows (EltTy.packing .bf16)
  inb_S68x64x768_S12x64x768_24_0_0 : ∀ a, (![24, 0, 0] : Fin 3 → Nat) a + S12x64x768.size a ≤ S68x64x768.size a
  inb_S1x4096x256_S1x512x256_0_1536_0 : ∀ a, (![0, 1536, 0] : Fin 3 → Nat) a + S1x512x256.size a ≤ S1x4096x256.size a
  packedbf16_S1x4096x256_S1x512x256_0_1536_0 : (Rect.unit (s := S1x4096x256) ![0, 1536, 0] S1x512x256.size inb_S1x4096x256_S1x512x256_0_1536_0).PackedRows (EltTy.packing .bf16)
  inb_S68x64x768_S12x64x768_32_0_0 : ∀ a, (![32, 0, 0] : Fin 3 → Nat) a + S12x64x768.size a ≤ S68x64x768.size a
  inb_S1x4096x256_S1x512x256_0_2048_0 : ∀ a, (![0, 2048, 0] : Fin 3 → Nat) a + S1x512x256.size a ≤ S1x4096x256.size a
  packedbf16_S1x4096x256_S1x512x256_0_2048_0 : (Rect.unit (s := S1x4096x256) ![0, 2048, 0] S1x512x256.size inb_S1x4096x256_S1x512x256_0_2048_0).PackedRows (EltTy.packing .bf16)
  inb_S68x64x768_S12x64x768_40_0_0 : ∀ a, (![40, 0, 0] : Fin 3 → Nat) a + S12x64x768.size a ≤ S68x64x768.size a
  inb_S1x4096x256_S1x512x256_0_2560_0 : ∀ a, (![0, 2560, 0] : Fin 3 → Nat) a + S1x512x256.size a ≤ S1x4096x256.size a
  packedbf16_S1x4096x256_S1x512x256_0_2560_0 : (Rect.unit (s := S1x4096x256) ![0, 2560, 0] S1x512x256.size inb_S1x4096x256_S1x512x256_0_2560_0).PackedRows (EltTy.packing .bf16)
  inb_S68x64x768_S12x64x768_48_0_0 : ∀ a, (![48, 0, 0] : Fin 3 → Nat) a + S12x64x768.size a ≤ S68x64x768.size a
  inb_S1x4096x256_S1x512x256_0_3072_0 : ∀ a, (![0, 3072, 0] : Fin 3 → Nat) a + S1x512x256.size a ≤ S1x4096x256.size a
  packedbf16_S1x4096x256_S1x512x256_0_3072_0 : (Rect.unit (s := S1x4096x256) ![0, 3072, 0] S1x512x256.size inb_S1x4096x256_S1x512x256_0_3072_0).PackedRows (EltTy.packing .bf16)
  inb_S68x64x768_S12x64x768_56_0_0 : ∀ a, (![56, 0, 0] : Fin 3 → Nat) a + S12x64x768.size a ≤ S68x64x768.size a
  inb_S1x4096x256_S1x512x256_0_3584_0 : ∀ a, (![0, 3584, 0] : Fin 3 → Nat) a + S1x512x256.size a ≤ S1x4096x256.size a
  packedbf16_S1x4096x256_S1x512x256_0_3584_0 : (Rect.unit (s := S1x4096x256) ![0, 3584, 0] S1x512x256.size inb_S1x4096x256_S1x512x256_0_3584_0).PackedRows (EltTy.packing .bf16)
  concatenates_S1x256_S1x256_S2x256_d0 : Shape.Concatenates [S1x256, S1x256] S2x256 0
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  pads_S256_S256_000 : S256.Pads (![0] : Fin 1 → Nat) ![0] ![0] S256
  inb_S8x2x256_S8x2x256_0_0_0 : ∀ a, (![0, 0, 0] : Fin 3 → Nat) a + S8x2x256.size a ≤ S8x2x256.size a
  h_S8x2x256 : 0 < S8x2x256.numel
  shapeCasts_S8x2x256_S8x2x256 : S8x2x256.ShapeCasts S8x2x256
  reduces_S8x2x256_S2x256 : S8x2x256.Reduces [0] S2x256
  slices_S2x256_o0_0_S1x256 : S2x256.Slices ![0, 0] S1x256
  slices_S2x256_o1_0_S1x256 : S2x256.Slices ![1, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  broadcasts_S1x256_S4096x256 : S1x256.Broadcasts S4096x256
  shapeCasts_S4096x256_S1x4096x256 : S4096x256.ShapeCasts S1x4096x256
  shapeCasts_S8x4096x256_S8x64x64x256 : S8x4096x256.ShapeCasts S8x64x64x256
  transposes_S8x64x64x256_S8x256x64x64_0_3_1_2 : S8x64x64x256.Transposes [0, 3, 1, 2] S8x256x64x64
  dot_S512x768_S768x256_S512x256_1_0_0_1_n_n_wf : DotDims.WF S512x768 S768x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S8x64x64x256.size a
  hwx0_0 : ∀ i : grid0.Coords, EltTy.bits .f32 = 32 ∨ (Rect.block (s := S8x64x64x256) S1x64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x256.size a ≤ S2304x256.size a
  hwx0_1 : ∀ i : grid0.Coords, EltTy.bits .bf16 = 32 ∨ (Rect.block (s := S2304x256) S2304x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x4096x256.size a
  hwx0_2 : ∀ i : grid0.Coords, EltTy.bits .bf16 = 32 ∨ (Rect.block (s := S8x4096x256) S1x4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S8x2x256.size a
  hwx0_3 : ∀ i : grid0.Coords, EltTy.bits .f32 = 32 ∨ (Rect.block (s := S8x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x2x256.size a ≤ S8x2x256.size a
  hwx1_0 : ∀ i : grid1.Coords, EltTy.bits .f32 = 32 ∨ (Rect.block (s := S8x2x256) S8x2x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x256.size a ≤ S8x4096x256.size a
  hwx1_3 : ∀ i : grid1.Coords, EltTy.bits .bf16 = 32 ∨ (Rect.block (s := S8x4096x256) S1x4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x256.size a ≤ S8x4096x256.size a
  hwx1_4 : ∀ i : grid1.Coords, EltTy.bits .f32 = 32 ∨ (Rect.block (s := S8x4096x256) S1x4096x256.size (cc1_transform_4 i) (hinb1_4 i)).WholeWords (EltTy.packing .f32)

variable [Facts₀]

def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf

abbrev win0_0 : Pipeline.Window sig grid0 :=
  Pipeline.Window.ofSpec (Memref.whole main_v0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2304x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x4096x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5_1) S8x2x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x4096x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x256x64x64 : Shape := ⟨4, ![8, 256, 64, 64]⟩
abbrev S256x256x3x3 : Shape := ⟨4, ![256, 256, 3, 3]⟩
abbrev S256 : Shape := ⟨1, ![256]⟩
abbrev S8x64x64x256 : Shape := ⟨4, ![8, 64, 64, 256]⟩
abbrev S_ : Shape := ⟨0, ![]⟩
abbrev S8x68x68x256 : Shape := ⟨4, ![8, 68, 68, 256]⟩
abbrev S3x3x256x256 : Shape := ⟨4, ![3, 3, 256, 256]⟩
abbrev S2304x256 : Shape := ⟨2, ![2304, 256]⟩
abbrev S8x8x2x256 : Shape := ⟨4, ![8, 8, 2, 256]⟩
abbrev S1x68x68x256 : Shape := ⟨4, ![1, 68, 68, 256]⟩
abbrev S1x8x64x256 : Shape := ⟨4, ![1, 8, 64, 256]⟩
abbrev S1x1x2x256 : Shape := ⟨4, ![1, 1, 2, 256]⟩
abbrev S8x64x256 : Shape := ⟨3, ![8, 64, 256]⟩
abbrev S512x256 : Shape := ⟨2, ![512, 256]⟩
abbrev S512x2304 : Shape := ⟨2, ![512, 2304]⟩
abbrev S1x256 : Shape := ⟨2, ![1, 256]⟩
abbrev S2x256 : Shape := ⟨2, ![2, 256]⟩
abbrev S1x1x256 : Shape := ⟨3, ![1, 1, 256]⟩

abbrev nBuf : Space → Nat
  | .hbm => 50
  | .vmem => 13
  | .smem => 0
  | _ => 0

abbrev bufTy : (tb : Table) → Fin (tcTables nBuf tb) → BufTy
  | .hbm, ⟨0, _⟩ => ⟨S8x256x64x64, .f32⟩
  | .hbm, ⟨1, _⟩ => ⟨S256x256x3x3, .f32⟩
  | .hbm, ⟨2, _⟩ => ⟨S256, .f32⟩
  | .hbm, ⟨3, _⟩ => ⟨S256, .f32⟩
  | .hbm, ⟨4, _⟩ => ⟨S8x64x64x256, .f32⟩
  | .hbm, ⟨5, _⟩ => ⟨S_, .i32⟩
  | .hbm, ⟨6, _⟩ => ⟨S_, .f32⟩
  | .hbm, ⟨7, _⟩ => ⟨S8x68x68x256, .f32⟩
  | .hbm, ⟨8, _⟩ => ⟨S3x3x256x256, .f32⟩
  | .hbm, ⟨9, _⟩ => ⟨S_, .i32⟩
  | .hbm, ⟨10, _⟩ => ⟨S_, .f32⟩
  | .hbm, ⟨11, _⟩ => ⟨S3x3x256x256, .f32⟩
  | .hbm, ⟨12, _⟩ => ⟨S2304x256, .f32⟩
  | .hbm, ⟨13, _⟩ => ⟨S8x64x64x256, .f32⟩
  | .hbm, ⟨14, _⟩ => ⟨S8x8x2x256, .f32⟩
  | .hbm, ⟨15, _⟩ => ⟨S_, .f32⟩
  | .hbm, ⟨16, _⟩ => ⟨S2x256, .f32⟩
  | .hbm, ⟨17, _⟩ => ⟨S1x256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .i32⟩
  | .hbm, ⟨37, _⟩ => ⟨S_, .f32⟩
  | .hbm, ⟨38, _⟩ => ⟨S256, .f32⟩
  | .hbm, ⟨39, _⟩ => ⟨S_, .i32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S8x64x64x256, .f32⟩
  | .hbm, ⟨49, _⟩ => ⟨S8x256x64x64, .f32⟩
  | .local _ .vmem, ⟨0, _⟩ => ⟨S1x68x68x256, .f32⟩
  | .local _ .vmem, ⟨1, _⟩ => ⟨S1x68x68x256, .f32⟩
  | .local _ .vmem, ⟨2, _⟩ => ⟨S2304x256, .f32⟩
  | .local _ .vmem, ⟨3, _⟩ => ⟨S1x8x64x256, .f32⟩
  | .local _ .vmem, ⟨4, _⟩ => ⟨S1x8x64x256, .f32⟩
  | .local _ .vmem, ⟨5, _⟩ => ⟨S1x1x2x256, .f32⟩
  | .local _ .vmem, ⟨6, _⟩ => ⟨S1x1x2x256, .f32⟩
  | .local _ .vmem, ⟨7, _⟩ => ⟨S1x8x64x256, .f32⟩
  | .local _ .vmem, ⟨8, _⟩ => ⟨S1x8x64x256, .f32⟩
  | .local _ .vmem, ⟨9, _⟩ => ⟨S1x256, .f32⟩
  | .local _ .vmem, ⟨10, _⟩ => ⟨S1x256, .f32⟩
  | .local _ .vmem, ⟨11, _⟩ => ⟨S1x8x64x256, .f32⟩
  | .local _ .vmem, ⟨12, _⟩ => ⟨S1x8x64x256, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call2_v0 : Ref sig .tc := ⟨.hbm, 37, rfl⟩
abbrev main_v22 : Ref sig .tc := ⟨.hbm, 38, rfl⟩
abbrev main_c_6 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) (c0_i32 : BitVec 32) : Fin 4 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v3 : Index := Scalar.indexCast v2
  let c0_0 : Index := 0#32
  let c0_1 : Index := 0#32
  ![0, v3.toNat, 0, 0]
def k0_off2 (i : grid0.Coords) (c0_i32 : BitVec 32) : Fin 4 → Nat :=
  let c0_2 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v7 : Index := Scalar.indexCast v2
  let c2 : Index := 2#32
  let c0_3 : Index := 0#32
  ![0, v7.toNat, 2, 0]
def k0_off3 (i : grid0.Coords) (c0_i32 : BitVec 32) : Fin 4 → Nat :=
  let c0_4 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v11 : Index := Scalar.indexCast v2
  let c4 : Index := 4#32
  let c0_5 : Index := 0#32
  ![0, v11.toNat, 4, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x68x68x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S8x256x64x64_S8x64x64x256_0_2_3_1 : S8x256x64x64.Transposes [0, 2, 3, 1] S8x64x64x256
  pads_S8x64x64x256_S8x68x68x256_000_220_220_000 : S8x64x64x256.Pads (![0, 2, 2, 0] : Fin 4 → Nat) ![0, 2, 2, 0] ![0, 0, 0, 0] S8x68x68x256
  h_S_ : 0 < S_.numel
  transposes_S256x256x3x3_S3x3x256x256_2_3_1_0 : S256x256x3x3.Transposes [2, 3, 1, 0] S3x3x256x256
  pads_S3x3x256x256_S3x3x256x256_000_000_000_000 : S3x3x256x256.Pads (![0, 0, 0, 0] : Fin 4 → Nat) ![0, 0, 0, 0] ![0, 0, 0, 0] S3x3x256x256
  shapeCasts_S3x3x256x256_S2304x256 : S3x3x256x256.ShapeCasts S2304x256
  h_S1x8x64x256 : 0 < S1x8x64x256.numel
  shapeCasts_S1x8x64x256_S8x64x256 : S1x8x64x256.ShapeCasts S8x64x256
  shapeCasts_S8x64x256_S512x256 : S8x64x256.ShapeCasts S512x256
  concatenates_S512x256_S512x256_S512x256_S512x256_S512x256_S512x256_S512x256_S512x256_S512x256_S512x2304_d1 : Shape.Concatenates [S512x256, S512x256, S512x256, S512x256, S512x256, S512x256, S512x256, S512x256, S512x256] S512x2304 1
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  shapeCasts_S512x256_S8x64x256 : S512x256.ShapeCasts S8x64x256
  inb_S1x8x64x256_S1x8x64x256_0_0_0_0 : ∀ a, (![0, 0, 0, 0] : Fin 4 → Nat) a + S1x8x64x256.size a ≤ S1x8x64x256.size a
  shapeCasts_S8x64x256_S1x8x64x256 : S8x64x256.ShapeCasts S1x8x64x256
  reduces_S512x256_S256 : S512x256.Reduces [0] S256
  shapeCasts_S256_S1x256 : S256.ShapeCasts S1x256
  concatenates_S1x256_S1x256_S2x256_d0 : Shape.Concatenates [S1x256, S1x256] S2x256 0
  inb_S1x1x2x256_S1x1x2x256_0_0_0_0 : ∀ a, (![0, 0, 0, 0] : Fin 4 → Nat) a + S1x1x2x256.size a ≤ S1x1x2x256.size a
  h_S1x1x2x256 : 0 < S1x1x2x256.numel
  shapeCasts_S1x1x2x256_S2x256 : S1x1x2x256.ShapeCasts S2x256
  shapeCasts_S2x256_S1x1x2x256 : S2x256.ShapeCasts S1x1x2x256
  reducesTo_S8x8x2x256_S2x256_d0_1 : S8x8x2x256.ReducesTo [0, 1] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  pads_S256_S256_000 : S256.Pads (![0] : Fin 1 → Nat) ![0] ![0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S8x64x256 : S1x1x256.Broadcasts S8x64x256
  transposes_S8x64x64x256_S8x256x64x64_0_3_1_2 : S8x64x64x256.Transposes [0, 3, 1, 2] S8x256x64x64
  dot_S512x2304_S2304x256_S512x256_1_0_0_1_n_n_wf : DotDims.WF S512x2304 S2304x256 S512x256 [1] [0] [0] [1] [] []
  hrank0 : 0 < grid0.rank
  k0_mult1_dvd : ∀ i : grid0.Coords, 8 ∣ (k0_mult1 i).toNat
  k0_off1_inb : ∀ i : grid0.Coords, ∀ (r : Fin 3), ∀ a, (k0_off1 i (BitVec.ofNat 32 (2 * r.val))) a + S1x8x64x256.size a ≤ S1x68x68x256.size a
  k0_off2_inb : ∀ i : grid0.Coords, ∀ (r : Fin 3), ∀ a, (k0_off2 i (BitVec.ofNat 32 (2 * r.val))) a + S1x8x64x256.size a ≤ S1x68x68x256.size a
  k0_off3_inb : ∀ i : grid0.Coords, ∀ (r : Fin 3), ∀ a, (k0_off3 i (BitVec.ofNat 32 (2 * r.val))) a + S1x8x64x256.size a ≤ S1x68x68x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x256.size a ≤ S8x68x68x256.size a
  hwx0_0 : ∀ i : grid0.Coords, EltTy.bits .f32 = 32 ∨ (Rect.block (s := S8x68x68x256) S1x68x68x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x256.size a ≤ S2304x256.size a
  hwx0_1 : ∀ i : grid0.Coords, EltTy.bits .f32 = 32 ∨ (Rect.block (s := S2304x256) S2304x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x256.size a ≤ S8x64x64x256.size a
  hwx0_2 : ∀ i : grid0.Coords, EltTy.bits .f32 = 32 ∨ (Rect.block (s := S8x64x64x256) S1x8x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2x256.size a ≤ S8x8x2x256.size a
  hwx0_3 : ∀ i : grid0.Coords, EltTy.bits .f32 = 32 ∨ (Rect.block (s := S8x8x2x256) S1x1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x64x256.size a ≤ S8x64x64x256.size a
  hwx1_0 : ∀ i : grid1.Coords, EltTy.bits .f32 = 32 ∨ (Rect.block (s := S8x64x64x256) S1x8x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x64x256.size a ≤ S8x64x64x256.size a
  hwx1_3 : ∀ i : grid1.Coords, EltTy.bits .f32 = 32 ∨ (Rect.block (s := S8x64x64x256) S1x8x64x256.size (cc1_transform_3 i) (hinb1_3 i)).WholeWords (EltTy.packing .f32)

variable [Facts₀]

def dot_S512x2304_S2304x256_S512x256_1_0_0_1_n_n : DotDims S512x2304 S2304x256 S512x256 where
  lhsContracting := [1]
  rhsContracting := [0]
  lhsNonContracting := [0]
  rhsNonContracting := [1]
  lhsBatch := []
  rhsBatch := []
  wf := dot_S512x2304_S2304x256_S512x256_1_0_0_1_n_n_wf

abbrev win0_0 : Pipeline.Window sig grid0 :=
  Pipeline.Window.ofSpec (Memref.whole main_v1) S1x68x68x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2304x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x8x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5_0) S1x8x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x8x64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelRun.lean ====
/-
  The idealized kernel program's run with its RESULT named.

  @main is eleven segments: host operations, the convolution-and-statistics region, host operations, the
  normalisation region, and the closing reshape and transpose. The buffer contents at each boundary are a fold
  from the launch memory (the generated `Gen.W0 … Gen.W11`); every weakly fair execution ends with every
  unscoped buffer at the last fold `Gen.W11`. The frame claim keeps of this only the four argument arrays;
  here the result buffer `main_v12` is kept as well, which is what a value claim needs.
-/
import proofs.«131269_g2000402634760427_pallasbulk_1319_18_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents `Gen.W11` and the four argument arrays as launched. -/
theorem run_value : θ_run defs (onTc (τ := τ) (main (F := F))) ⟨m, fun _ => 0, ρ⟩ (fun r => ∀ c : Dev nD,
      r.2.mem ((c.tc : Thread nD τ).loc main_v12) = W11 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      -- each segment's post is the next one's pre; the last leaves the buffers, the register and nothing owed
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch every unscoped buffer is held at the launch memory
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      -- the held buffers are read against the final state
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v12 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.Run

end
-- ==== Proof.RefRun.lean ====
/-
  The idealized reference program's run with its RESULT named.

  The reference is itself a program of two kernel regions (the im2col convolution with per-slab statistics, and
  the affine-and-ReLU pass) among host operations: padding, the statistics' reduction and the fold of the
  normalisation into a scale and a shift. The buffer contents at each boundary are the generated fold
  `Gen.W0 … Gen.W13`; every weakly fair execution ends with every unscoped buffer at `Gen.W13`. Beside the
  four argument arrays the result buffer `main_v31` is kept here.
-/
import proofs.«131269_g2000402634760427_pallasbulk_1319_18_alg».proof.Proof.Gen.ReferenceIdeal.Frame

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents `Gen.W13` and the four argument arrays as launched. -/
theorem run_value : θ_run defs (onTc (τ := τ) (main (F := F))) ⟨m, fun _ => 0, ρ⟩ (fun r => ∀ c : Dev nD,
      r.2.mem ((c.tc : Thread nD τ).loc main_v31) = W13 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      -- each segment's post is the next one's pre; the last leaves the buffers, the register and nothing owed
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch every unscoped buffer is held at the launch memory
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      -- the held buffers are read against the final state
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v31 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.ReferenceIdeal.Run

end
-- ==== Proof.Spec.lean ====
/-
  The normalisation step, as one function of a convolution value and its channel's statistics.

  From the channel's sum s1 and sum of squares s2 over the 32768 = 8·64·64 positions: mean = s1 / 32768,
  var = max(s2 / 32768 − mean², 0), inv = rsqrt(var + ε) with ε the f32 nearest 1e-5, and the result is
  max(v · scale + shift, 0) for a convolution value v. The kernel folds scale = γ · inv and
  shift = β − mean · scale; the reference folds the same scale and shift = β − (mean · γ) · inv. The two are one
  function because the product of extended reals is associative.
-/
import Idealize.ShloMosaic.PureOps.Ideal
import Idealize.ShloMosaic.PureOps.Ideal.Laws

noncomputable section

namespace Cert.Spec

open Idealize.ShloMosaic

/-- The number of positions a channel's statistics run over, 8 · 64 · 64 = 32768, as both programs' literal. -/
abbrev cnt : EReal := Ideal.ofBits .f32 0x47000000#32
/-- The variance's guard, the f32 nearest 1e-5, as both programs' literal. -/
abbrev eps : EReal := Ideal.ofBits .f32 0x3727C5AC#32
/-- The zero both programs compare against. -/
abbrev zero : EReal := Ideal.ofBits .f32 0x00000000#32

/-- A channel's mean from its sum. -/
def mean (s1 : EReal) : EReal := Ideal.div s1 cnt
/-- The reciprocal standard deviation from the channel's sum and sum of squares. -/
def inv (s1 s2 : EReal) : EReal := Ideal.rsqrt (max (Ideal.div s2 cnt - mean s1 * mean s1) zero + eps)

/-- The kernel's grouping: shift = β − mean · (γ · inv). -/
def bnK (v s1 s2 g b : EReal) : EReal :=
  max (v * (g * inv s1 s2) + (b - mean s1 * (g * inv s1 s2))) zero

/-- The reference's grouping: shift = β − (mean · γ) · inv. -/
def bnR (v s1 s2 g b : EReal) : EReal :=
  max (v * (g * inv s1 s2) + (b - mean s1 * g * inv s1 s2)) zero

/-- The two groupings agree: the product of extended reals is associative. -/
theorem bnK_eq_bnR (v s1 s2 g b : EReal) : bnK v s1 s2 g b = bnR v s1 s2 g b := by
  unfold bnK bnR
  rw [mul_assoc]

end Cert.Spec

end
-- ==== Proof.Conv.lean ====
/-
  The dilated 3×3 convolution both programs compute, over channel-last arrays.

  From an input Xn [8,64,64,256] (image, row, column, channel) and a weight matrix W2 [2304,256] whose row
  (kh·3 + kw)·256 + ci holds the weight of tap (kh, kw) and input channel ci for each output channel: the input is
  padded by two zero rows and columns on every side, and the output at (n, h, w, q) is the sum over the nine taps
  and the 256 input channels of the padded input at (n, h + 2·kh, w + 2·kw, ci) times the weight. The batch
  statistics of a channel are the sums of the outputs and of their squares over an image's 64 × 64 positions.
-/
import Idealize.ShloMosaic.PureOps.Ideal
import Idealize.ShloMosaic.Lib.ValueIdx

noncomputable section

namespace Cert.Conv

open Idealize.ShloMosaic Idealize.ShloMosaic.ValueIdx

abbrev SX : Shape := ⟨4, ![8, 64, 64, 256]⟩
abbrev SP : Shape := ⟨4, ![8, 68, 68, 256]⟩
abbrev SW : Shape := ⟨2, ![2304, 256]⟩

/-- The input padded by two zero rows and columns on every side, read at padded coordinates (r, s) < 68. -/
def padded (Xn : SX.Idx → EReal) (n : Fin 8) (r s : ℕ) (ci : Fin 256) : EReal :=
  if h : (2 ≤ r ∧ r < 66) ∧ (2 ≤ s ∧ s < 66) then Xn (ix4 n (⟨r - 2, by omega⟩ : Fin 64) (⟨s - 2, by omega⟩ : Fin 64) ci) else 0

/-- The weight of tap (kh, kw) and input channel ci for output channel q. -/
def weight (W2 : SW.Idx → EReal) (kh kw : Fin 3) (ci q : Fin 256) : EReal :=
  W2 (ix2 (⟨(kh.val * 3 + kw.val) * 256 + ci.val, by omega⟩ : Fin 2304) q)

/-- The convolution from any padded-input function P (n, r, s, ci). -/
def convOf (P : Fin 8 → ℕ → ℕ → Fin 256 → EReal) (W2 : SW.Idx → EReal) (n : Fin 8) (h w : Fin 64) (q : Fin 256) : EReal :=
  ∑ kh : Fin 3, ∑ kw : Fin 3, ∑ ci : Fin 256, P n (h.val + 2 * kh.val) (w.val + 2 * kw.val) ci * weight W2 kh kw ci q

/-- The convolution of the unpadded input (the kernel program pads inside its kernel). -/
def conv (Xn : SX.Idx → EReal) (W2 : SW.Idx → EReal) : Fin 8 → Fin 64 → Fin 64 → Fin 256 → EReal :=
  convOf (padded Xn) W2

/-- A padded array [8,68,68,256] read at padded coordinates, 0 outside (never reached by the convolution). -/
def ofPadded (Xp : SP.Idx → EReal) (n : Fin 8) (r s : ℕ) (ci : Fin 256) : EReal :=
  if h : r < 68 ∧ s < 68 then Xp (ix4 n (⟨r, h.1⟩ : Fin 68) (⟨s, h.2⟩ : Fin 68) ci) else 0

/-- An image's sum of the outputs of channel q, and of their squares. -/
def sum1 (C : Fin 8 → Fin 64 → Fin 64 → Fin 256 → EReal) (n : Fin 8) (q : Fin 256) : EReal :=
  ∑ h : Fin 64, ∑ w : Fin 64, C n h w q
def sum2 (C : Fin 8 → Fin 64 → Fin 64 → Fin 256 → EReal) (n : Fin 8) (q : Fin 256) : EReal :=
  ∑ h : Fin 64, ∑ w : Fin 64, C n h w q * C n h w q

end Cert.Conv

end
-- ==== Proof.KReg1.lean ====
/-
  The kernel program's second pass (one grid point per image), as one function of the arrays it reads.

  At image t the body loads the whole statistics array [8,2,256] (row 0: per-image sums, row 1: per-image sums of
  squares), γ and β as rows [1,256], and image t's convolution block [1,4096,256]; it sums the statistics over the
  eight images, forms mean, variance, the reciprocal standard deviation, scale = γ · inv and
  shift = β − mean · scale, and stores max(conv · scale + shift, 0) over the whole block. Read at an index this is
  the normalisation `Spec.bnK` of the convolution value by its channel's summed statistics; the eight blocks are
  the eight images of the output array, so the array after the region is that function of the four arrays.
-/
import proofs.«131269_g2000402634760427_pallasbulk_1319_18_alg».proof.Proof.Gen.KernelIdeal.Frame
import proofs.«131269_g2000402634760427_pallasbulk_1319_18_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.KernelIdeal.Reg1
open Cert.KernelIdeal Cert.KernelIdeal.Gen Cert.Spec

/-- The reciprocal square root acts entry by entry. -/
theorem rsqrt_apply {s : Shape} {φ : FTy} (a : FVec Ideal s φ) (i : s.Idx) : rsqrt a i = Ideal.rsqrt (a i) := rfl

/-- The sum over the eight images of the per-image statistics, read at a row (0: sums, 1: sums of squares) and a channel. -/
theorem imageSum_apply (x : FVec Ideal S8x2x256 .f32) (hφ : FKind.Formats .f32)
    (hacc : (0x00000000#32 : BitVec 32) = FKind.add.neutral .f32 hφ) (j : Fin 2) (q : Fin 256) :
    multiReduction .add [0] S2x256 x 0x00000000#32 Gen.reduces_S8x2x256_S2x256 hφ hacc (ix2 j q) = ∑ n : Fin 8, x (ix3 n j q) := by
  refine (Ideal.multiReduction_add_single x 0x00000000#32 Gen.reduces_S8x2x256_S2x256 hφ hacc (ix2 j q)).trans ?_
  refine Finset.sum_congr rfl fun n _ => congrArg x (funext fun a => ?_)
  match a with
  | ⟨0, _⟩ => rfl
  | ⟨1, _⟩ => rfl
  | ⟨2, _⟩ => rfl

/-- The second pass's stored value at position p and channel q of its block: the normalisation of the
    convolution value there by the channel's statistics summed over the images. -/
theorem pay_apply (x0 : FVec Ideal S8x2x256 .f32) (x1 x2 : FVec Ideal S1x256 .f32) (x3 : FVec Ideal S1x4096x256 .bf16)
    (p : Fin 4096) (q : Fin 256) :
    k1_pay1 (F := Ideal) x0 x1 x2 x3 (ix3 (0 : Fin 1) p q)
      = bnK (x3 (ix3 (0 : Fin 1) p q)) (∑ n : Fin 8, x0 (ix3 n (0 : Fin 2) q)) (∑ n : Fin 8, x0 (ix3 n (1 : Fin 2) q))
          (x1 (ix2 (0 : Fin 1) q)) (x2 (ix2 (0 : Fin 1) q)) := by
  unfold k1_pay1
  dsimp only
  simp only [shapeCast_ab_1ab_apply, maximumf_apply, addf_apply, mulf_apply, subf_apply, divf_apply, extf_apply,
    shapeCast_1ab_ab_apply, broadcastTo_1b_ab_apply, shapeCast_self, broadcast_apply, rsqrt_apply,
    slice2_axis0_apply 0 _ _ (0 : Fin 1) q (0 : Fin 2) rfl, slice2_axis0_apply 1 _ _ (0 : Fin 1) q (1 : Fin 2) rfl,
    Ideal.ofBits_def]
  have h0 := imageSum_apply x0 (.inl rfl) rfl (0 : Fin 2) q
  have h1 := imageSum_apply x0 (.inl rfl) rfl (1 : Fin 2) q
  unfold Spec.bnK Spec.inv Spec.mean
  rw [← h0, ← h1]

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The second pass's output array as one function of the four arrays it reads: the statistics [8,2,256], γ and β
    as rows [1,256], and the convolution [8,4096,256]. -/
def G (St : S8x2x256.Idx → EReal) (g b : S1x256.Idx → EReal) (Cv : S8x4096x256.Idx → EReal) (n : Fin 8) (p : Fin 4096) (q : Fin 256) : EReal :=
  bnK (Cv (ix3 n p q)) (∑ k : Fin 8, St (ix3 k (0 : Fin 2) q)) (∑ k : Fin 8, St (ix3 k (1 : Fin 2) q))
    (g (ix2 (0 : Fin 1) q)) (b (ix2 (0 : Fin 1) q))

/-- The same, at an index of the array. -/
def Garr (St : S8x2x256.Idx → EReal) (g b : S1x256.Idx → EReal) (Cv : S8x4096x256.Idx → EReal) : S8x4096x256.Idx → EReal :=
  fun i => G St g b Cv (i 0) (i 1) (i 2)

/-- The index maps over the grid of eight images: the statistics, γ and β are read whole at every point; the
    convolution block and the output block of point t are image t. -/
theorem idx_facts : ∀ t : Fin cfg1.N,
    win1_0.index t (0 : Fin 3) = 0 ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- What point t writes back is image t of the array function. -/
theorem flushed_eq (c : Dev nD) (t : Fin cfg1.N) :
    (dat1 V c).flushed 4 t = ((cfg1.win 4).blk t).view.read (Elt Ideal)
      (Garr (V c main_v5_1) (V c main_v8) (V c main_v9) (V c main_v5_0)) := by
  show (cfg1.win 4).cut (grid1.coords t) ((dat1 V c).after 4 t) = _
  rw [after1_4]
  unfold out1_4
  rw [View.canon_unit_zero hz3]
  simp only [View.ld_unit_zero (S := S8x2x256) hz3, View.ld_unit_zero (S := S1x256) hz2, View.ld_unit_zero (S := S1x4096x256) hz3]
  obtain ⟨a0, a1, a2, b0, b1, g0, g1, c0, c1, c2, o0, o1, o2⟩ := idx_facts t
  have hN : cfg1.N = 8 := N_1
  funext j
  obtain ⟨u, p, q, rfl⟩ : ∃ (u : Fin 1) (p : Fin 4096) (q : Fin 256), j = ix3 u p q := ⟨j 0, j 1, j 2, eq_ix3 j⟩
  obtain rfl : u = 0 := Subsingleton.elim _ _
  refine (pay_apply (iblk1 V c 0 t) (iblk1 V c 1 t) (iblk1 V c 2 t) (iblk1 V c 3 t) p q).trans ?_
  have ht : t.val < 8 := hN ▸ t.isLt
  -- each block read where the output's rectangle says
  have e3 : ((cfg1.win 3).blk t).view.emb (ix3 (0 : Fin 1) p q) = (ix3 (⟨t.val, ht⟩ : Fin 8) p q : S8x4096x256.Idx) := by
    funext a; apply Fin.ext
    match a with
    | ⟨0, _⟩ => show win1_3.index t (0 : Fin 3) * 1 + 1 * 0 = t.val; omega
    | ⟨1, _⟩ => show win1_3.index t (1 : Fin 3) * 4096 + 1 * p.val = p.val; omega
    | ⟨2, _⟩ => show win1_3.index t (2 : Fin 3) * 256 + 1 * q.val = q.val; omega
  have e4 : ((cfg1.win 4).blk t).view.emb (ix3 (0 : Fin 1) p q) = (ix3 (⟨t.val, ht⟩ : Fin 8) p q : S8x4096x256.Idx) := by
    funext a; apply Fin.ext
    match a with
    | ⟨0, _⟩ => show win1_4.index t (0 : Fin 3) * 1 + 1 * 0 = t.val; omega
    | ⟨1, _⟩ => show win1_4.index t (1 : Fin 3) * 4096 + 1 * p.val = p.val; omega
    | ⟨2, _⟩ => show win1_4.index t (2 : Fin 3) * 256 + 1 * q.val = q.val; omega
  have e0 : ∀ (k : Fin 8) (r : Fin 2), ((cfg1.win 0).blk t).view.emb (ix3 k r q) = (ix3 k r q : S8x2x256.Idx) := by
    intro k r; funext a; apply Fin.ext
    match a with
    | ⟨0, _⟩ => show win1_0.index t (0 : Fin 3) * 8 + 1 * k.val = k.val; omega
    | ⟨1, _⟩ => show win1_0.index t (1 : Fin 3) * 2 + 1 * r.val = r.val; omega
    | ⟨2, _⟩ => show win1_0.index t (2 : Fin 3) * 256 + 1 * q.val = q.val; omega
  have e1 : ((cfg1.win 1).blk t).view.emb (ix2 (0 : Fin 1) q) = (ix2 (0 : Fin 1) q : S1x256.Idx) := by
    funext a; apply Fin.ext
    match a with
    | ⟨0, _⟩ => show win1_1.index t (0 : Fin 2) * 1 + 1 * 0 = 0; omega
    | ⟨1, _⟩ => show win1_1.index t (1 : Fin 2) * 256 + 1 * q.val = q.val; omega
  have e2 : ((cfg1.win 2).blk t).view.emb (ix2 (0 : Fin 1) q) = (ix2 (0 : Fin 1) q : S1x256.Idx) := by
    funext a; apply Fin.ext
    match a with
    | ⟨0, _⟩ => show win1_2.index t (0 : Fin 2) * 1 + 1 * 0 = 0; omega
    | ⟨1, _⟩ => show win1_2.index t (1 : Fin 2) * 256 + 1 * q.val = q.val; omega
  show bnK (V c main_v5_0 (((cfg1.win 3).blk t).view.emb (ix3 (0 : Fin 1) p q)))
      (∑ k : Fin 8, V c main_v5_1 (((cfg1.win 0).blk t).view.emb (ix3 k (0 : Fin 2) q)))
      (∑ k : Fin 8, V c main_v5_1 (((cfg1.win 0).blk t).view.emb (ix3 k (1 : Fin 2) q)))
      (V c main_v8 (((cfg1.win 1).blk t).view.emb (ix2 (0 : Fin 1) q)))
      (V c main_v9 (((cfg1.win 2).blk t).view.emb (ix2 (0 : Fin 1) q)))
    = Garr (V c main_v5_1) (V c main_v8) (V c main_v9) (V c main_v5_0) (((cfg1.win 4).blk t).view.emb (ix3 (0 : Fin 1) p q))
  rw [e3, e4, e1, e2]
  simp only [e0]
  rfl

/-- An index of the array is in point t's block iff its image coordinate is t. -/
theorem mem_blk (t : Fin cfg1.N) (i : S8x4096x256.Idx) :
    i ∈ ((cfg1.win 4).blk t).view.set ↔ ∀ a : Fin 3, win1_4.index t a * S1x4096x256.size a ≤ (i a).val ∧ (i a).val < win1_4.index t a * S1x4096x256.size a + S1x4096x256.size a := by
  show i ∈ ((View.whole main_v10).slice (win1_4.rect t)).set ↔ _
  rw [View.set_slice_whole, Rect.mem_set_unit]
  exact Iff.rfl

/-- Every index of the output array lies in the block of the point that is its image. -/
theorem cover (i : S8x4096x256.Idx) : ∃ t : Fin cfg1.N, (cfg1.win 4).flush t = true ∧ i ∈ ((cfg1.win 4).blk t).view.set := by
  have hN : cfg1.N = 8 := N_1
  have hi0 : (i 0).val < 8 := (i 0).isLt
  have hi1 : (i 1).val < 4096 := (i 1).isLt
  have hi2 : (i 2).val < 256 := (i 2).isLt
  have hlt : (i 0).val < cfg1.N := by omega
  refine ⟨⟨(i 0).val, hlt⟩, flush1_4 _, ?_⟩
  rw [mem_blk]
  obtain ⟨-, -, -, -, -, -, -, -, -, -, o0, o1, o2⟩ := idx_facts ⟨(i 0).val, hlt⟩
  have o0' : win1_4.index ⟨(i 0).val, hlt⟩ (0 : Fin 3) = (i 0).val := o0
  intro a
  match a with
  | ⟨0, _⟩ => show win1_4.index _ (0 : Fin 3) * 1 ≤ (i 0).val ∧ (i 0).val < win1_4.index _ (0 : Fin 3) * 1 + 1; rw [o0']; omega
  | ⟨1, _⟩ => show win1_4.index _ (1 : Fin 3) * 4096 ≤ (i 1).val ∧ (i 1).val < win1_4.index _ (1 : Fin 3) * 4096 + 4096; rw [o1]; omega
  | ⟨2, _⟩ => show win1_4.index _ (2 : Fin 3) * 256 ≤ (i 2).val ∧ (i 2).val < win1_4.index _ (2 : Fin 3) * 256 + 256; rw [o2]; omega

/-- The second pass's output array after the region, from the four arrays the region finds. -/
theorem final (c : Dev nD) :
    (dat1 V c).arrAt 4 cfg1.N = Garr (V c main_v5_1) (V c main_v8) (V c main_v9) (V c main_v5_0) :=
  (dat1 V c).arrAt_eq_of_cover 4 _ (fun t _ => flushed_eq V c t) cover

end Cert.KernelIdeal.Reg1

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KValue.lean ====
/-
  The kernel program's result, from its first region's two outputs.

  After the first region (the convolution array [8,4096,256] and the per-image statistics [8,2,256]) the host only
  pads γ and β by nothing and sets them as rows; the second region normalises (Proof/KReg1.lean); the host reshapes
  [8,4096,256] to [8,64,64,256] and moves the channel axis to the front. So the result at (image n, channel q,
  row h, column w) is the normalisation of the convolution value at (n, 64·h + w, q) by channel q's statistics
  summed over the eight images, with γ and β as launched.
-/
import proofs.«131269_g2000402634760427_pallasbulk_1319_18_alg».proof.Proof.Gen.KernelIdeal.Frame
import proofs.«131269_g2000402634760427_pallasbulk_1319_18_alg».proof.Proof.Spec
import proofs.«131269_g2000402634760427_pallasbulk_1319_18_alg».proof.Proof.KReg1
import proofs.«131269_g2000402634760427_pallasbulk_1319_18_alg».proof.Proof.LibHostCalls
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section
open Idealize.ShloMosaic Idealize.ShloMosaic.TcCoe Idealize.ShloMosaic.Tactic Idealize.SL.Sem
open Idealize.ShloMosaic.ValueIdx

namespace Cert.KernelIdeal.Value
open Cert.KernelIdeal Cert.KernelIdeal.Gen Cert.Spec Cert.Lib.HostCalls

variable (m : (ℓ : Loc nD τ sig) → Buf (Elt Ideal) ℓ) (ρ : Dev nD → PrngReg)

/-- The convolution array [8,4096,256] the first region leaves (image, position 64·h + w, channel). -/
abbrev Cv (c : Dev nD) : S8x4096x256.Idx → EReal := (dat0 (V3 (F := Ideal) m ρ) c).arrAt 2 cfg0.N
/-- The per-image statistics [8,2,256] the first region leaves (row 0: sums, row 1: sums of squares). -/
abbrev St (c : Dev nD) : S8x2x256.Idx → EReal := (dat0 (V3 (F := Ideal) m ρ) c).arrAt 3 cfg0.N

/-- γ and β reach the first region's exit as launched: no host operation and no window writes them. -/
theorem w4_arg2 (c : Dev nD) : W4 (F := Ideal) m ρ c (Proc.devRef .tc main_arg2) = m ((c : Thread nD τ).loc main_arg2) :=
  (W4_of_ne m ρ c main_arg2 (by decide)).trans (by
    show StableHlo.after hostOps0_2 (StableHlo.after hostOps0_1 (StableHlo.after hostOps0 (W0 m ρ c))) (Proc.devRef .tc main_arg2) = _
    after_results
    all_goals rfl)
theorem w4_arg3 (c : Dev nD) : W4 (F := Ideal) m ρ c (Proc.devRef .tc main_arg3) = m ((c : Thread nD τ).loc main_arg3) :=
  (W4_of_ne m ρ c main_arg3 (by decide)).trans (by
    show StableHlo.after hostOps0_2 (StableHlo.after hostOps0_1 (StableHlo.after hostOps0 (W0 m ρ c))) (Proc.devRef .tc main_arg3) = _
    after_results
    all_goals rfl)

/-- The second region finds the first region's two outputs untouched by the host operations between them. -/
theorem v9_v50 (c : Dev nD) : (V9 (F := Ideal) m ρ c main_v5_0 : S8x4096x256.Idx → EReal) = Cv m ρ c := by
  refine Eq.trans ?_ (W4_arr m ρ c 2)
  show StableHlo.after hostOps1_4 (StableHlo.after hostOps1_3 (StableHlo.after hostOps1_2 (StableHlo.after hostOps1_1 (StableHlo.after hostOps1 (W4 m ρ c))))) (Proc.devRef .tc main_v5_0) = _
  after_results
  all_goals rfl
theorem v9_v51 (c : Dev nD) : (V9 (F := Ideal) m ρ c main_v5_1 : S8x2x256.Idx → EReal) = St m ρ c := by
  refine Eq.trans ?_ (W4_arr m ρ c 3)
  show StableHlo.after hostOps1_4 (StableHlo.after hostOps1_3 (StableHlo.after hostOps1_2 (StableHlo.after hostOps1_1 (StableHlo.after hostOps1 (W4 m ρ c))))) (Proc.devRef .tc main_v5_1) = _
  after_results
  all_goals rfl

/-- A vector padded by nothing and set as a row [1,256] reads, at (u, q), the vector at q. -/
theorem row_of_vec (x : S256.Idx → EReal) (v : S_.Idx → EReal) (u : Fin 1) (q : Fin 256) :
    shapeCast S1x256 (pad S256 ![0] ![0] ![0] x v pads_S256_S256_000 h_S_) shapeCasts_S256_S1x256 (ix2 u q) = x (ix1 q) := by
  refine (shapeCast_a_1a_apply _ _ u q).trans ?_
  refine pad_apply_of_inside _ _ _ x v _ _ (ix1 q) (ix1 q) fun a => ?_
  match a with
  | ⟨0, _⟩ => show q.val = 0 + q.val * (0 + 1); omega

/-- γ as the second region finds it: the row whose entry q is γ at q. -/
theorem v9_v8 (c : Dev nD) :
    (V9 (F := Ideal) m ρ c main_v8 : S1x256.Idx → EReal) = fun i => m ((c : Thread nD τ).loc main_arg2) (ix1 (i 1)) := by
  show StableHlo.after hostOps1_4 (StableHlo.after hostOps1_3 (StableHlo.after hostOps1_2 (StableHlo.after hostOps1_1 (StableHlo.after hostOps1 (W4 m ρ c))))) (Proc.devRef .tc main_v8) = _
  after_results
  simp only [ofBuf_toBuf]
  funext i
  obtain ⟨u, q, rfl⟩ : ∃ (u : Fin 1) (q : Fin 256), i = ix2 u q := ⟨i 0, i 1, eq_ix2 i⟩
  refine (row_of_vec _ _ u q).trans ?_
  exact congrFun (w4_arg2 m ρ c) (ix1 q)

/-- β likewise. -/
theorem v9_v9 (c : Dev nD) :
    (V9 (F := Ideal) m ρ c main_v9 : S1x256.Idx → EReal) = fun i => m ((c : Thread nD τ).loc main_arg3) (ix1 (i 1)) := by
  show StableHlo.after hostOps1_4 (StableHlo.after hostOps1_3 (StableHlo.after hostOps1_2 (StableHlo.after hostOps1_1 (StableHlo.after hostOps1 (W4 m ρ c))))) (Proc.devRef .tc main_v9) = _
  after_results
  simp only [ofBuf_toBuf]
  funext i
  obtain ⟨u, q, rfl⟩ : ∃ (u : Fin 1) (q : Fin 256), i = ix2 u q := ⟨i 0, i 1, eq_ix2 i⟩
  refine (row_of_vec _ _ u q).trans ?_
  exact congrFun (w4_arg3 m ρ c) (ix1 q)

/-- The second region's output array, from the first region's two outputs and the launch's γ and β. -/
theorem w10_v10 (c : Dev nD) :
    (W10 (F := Ideal) m ρ c (Proc.devRef .tc main_v10) : S8x4096x256.Idx → EReal)
      = Reg1.Garr (St m ρ c) (fun i => m ((c : Thread nD τ).loc main_arg2) (ix1 (i 1)))
          (fun i => m ((c : Thread nD τ).loc main_arg3) (ix1 (i 1))) (Cv m ρ c) := by
  refine (W10_arr m ρ c 4).trans ?_
  refine (Reg1.final (V9 m ρ) c).trans ?_
  rw [v9_v51, v9_v8, v9_v9, v9_v50]
  rfl

/-- The closing reshape and transpose. -/
theorem w11_v12 (c : Dev nD) :
    (W11 (F := Ideal) m ρ c (Proc.devRef .tc main_v12) : S8x256x64x64.Idx → EReal)
      = transpose S8x256x64x64 [0, 3, 1, 2] (shapeCast S8x64x64x256 (W10 (F := Ideal) m ρ c (Proc.devRef .tc main_v10) : S8x4096x256.Idx → EReal) shapeCasts_S8x4096x256_S8x64x64x256) transposes_S8x64x64x256_S8x256x64x64_0_3_1_2 := by
  show StableHlo.after hostOps2 (W10 m ρ c) (Proc.devRef .tc main_v12) = _
  after_results
  rfl

/-- THE KERNEL PROGRAM'S RESULT at (image n, channel q, row h, column w): the normalisation of the first
    region's convolution value at (n, 64·h + w, q) by channel q's statistics summed over the images. -/
theorem kernel_value (c : Dev nD) (n : Fin 8) (q : Fin 256) (h w : Fin 64) :
    (W11 (F := Ideal) m ρ c (Proc.devRef .tc main_v12) : S8x256x64x64.Idx → EReal) (ix4 n q h w)
      = bnK (Cv m ρ c (ix3 n (⟨64 * h.val + w.val, by omega⟩ : Fin 4096) q))
          (∑ k : Fin 8, St m ρ c (ix3 k (0 : Fin 2) q)) (∑ k : Fin 8, St m ρ c (ix3 k (1 : Fin 2) q))
          (m ((c : Thread nD τ).loc main_arg2) (ix1 q)) (m ((c : Thread nD τ).loc main_arg3) (ix1 q)) := by
  rw [w11_v12]
  refine (transpose_apply _ _ _ (ix4 n q h w) (ix4 n h w q) fun b => ?_).trans ?_
  · match b with
    | ⟨0, _⟩ => rfl
    | ⟨1, _⟩ => rfl
    | ⟨2, _⟩ => rfl
    | ⟨3, _⟩ => rfl
  refine (shapeCast_apply _ _ (ix4 n h w q) (ix3 n (⟨64 * h.val + w.val, by omega⟩ : Fin 4096) q) ?_).trans ?_
  · rw [Shape.rowMajor_val_three, Shape.rowMajor_val_four]
    show (n.val * 4096 + (64 * h.val + w.val)) * 256 + q.val = ((n.val * 64 + h.val) * 64 + w.val) * 256 + q.val
    omega
  rw [w10_v10]
  rfl

end Cert.KernelIdeal.Value
end
-- ==== Proof.KPre.lean ====
/-
  What the kernel program's first region finds in its two input arrays.

  The host moves the input's channel axis last ([8,256,64,64] to [8,64,64,256]) and lays the weights
  [256,256,3,3] out as the matrix [2304,256] whose row (kh·3 + kw)·256 + ci holds tap (kh, kw), input channel ci
  (a transpose to [3,3,256,256], a padding by nothing, a reshape, and a change of format that is the identity on
  the extended reals).
-/
import proofs.«131269_g2000402634760427_pallasbulk_1319_18_alg».proof.Proof.Gen.KernelIdeal.Frame
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout
import proofs.«131269_g2000402634760427_pallasbulk_1319_18_alg».proof.Proof.LibHostCalls
import proofs.«131269_g2000402634760427_pallasbulk_1319_18_alg».proof.Proof.Conv
import Idealize.ShloMosaic.Lib.KernelVsHost
set_option maxRecDepth 16384

noncomputable section
open Idealize.ShloMosaic Idealize.ShloMosaic.TcCoe Idealize.ShloMosaic.Tactic Idealize.SL.Sem
open Idealize.ShloMosaic.ValueIdx

namespace Cert.KernelIdeal.Pre
open Cert.KernelIdeal Cert.KernelIdeal.Gen Cert.Lib.HostCalls
variable (m : (ℓ : Loc nD τ sig) → Buf (Elt Ideal) ℓ) (ρ : Dev nD → PrngReg)

/-- The input as the first region finds it, at (image, row, column, channel). -/
theorem v3_v0_apply (c : Dev nD) (n : Fin 8) (h w : Fin 64) (ci : Fin 256) :
    (V3 (F := Ideal) m ρ c main_v0 : S8x64x64x256.Idx → EReal) (ix4 n h w ci) = m ((c : Thread nD τ).loc main_arg0) (ix4 n ci h w) := by
  have e : (V3 (F := Ideal) m ρ c main_v0 : S8x64x64x256.Idx → EReal)
      = transpose S8x64x64x256 [0, 2, 3, 1] (m ((c : Thread nD τ).loc main_arg0) : S8x256x64x64.Idx → EReal) transposes_S8x256x64x64_S8x64x64x256_0_2_3_1 := by
    show StableHlo.after hostOps0_2 (StableHlo.after hostOps0_1 (StableHlo.after hostOps0 (W0 m ρ c))) (Proc.devRef .tc main_v0) = _
    after_results_simp
    all_goals rfl
  rw [e]
  refine transpose_apply _ _ _ (ix4 n h w ci) (ix4 n ci h w) fun b => ?_
  match b with
  | ⟨0, _⟩ => rfl
  | ⟨1, _⟩ => rfl
  | ⟨2, _⟩ => rfl
  | ⟨3, _⟩ => rfl

/-- The weight matrix as the first region finds it: row (kh·3 + kw)·256 + ci, column q is the weight of output
    channel q, input channel ci, tap (kh, kw). -/
theorem v3_v4_apply (c : Dev nD) (kh kw : Fin 3) (ci q : Fin 256) :
    (V3 (F := Ideal) m ρ c main_v4 : S2304x256.Idx → EReal) (ix2 (⟨(kh.val * 3 + kw.val) * 256 + ci.val, by omega⟩ : Fin 2304) q)
      = m ((c : Thread nD τ).loc main_arg1) (ix4 q ci kh kw) := by
  have e : (V3 (F := Ideal) m ρ c main_v4 : S2304x256.Idx → EReal)
      = (shapeCast S2304x256 (pad S3x3x256x256 ![0, 0, 0, 0] ![0, 0, 0, 0] ![0, 0, 0, 0]
          (transpose S3x3x256x256 [2, 3, 1, 0] (m ((c : Thread nD τ).loc main_arg1) : S256x256x3x3.Idx → EReal) transposes_S256x256x3x3_S3x3x256x256_2_3_1_0)
          (sitofp (F := Ideal) .f32 (constantI S_ 32 0#32)) pads_S3x3x256x256_S3x3x256x256_000_000_000_000 h_S_) shapeCasts_S3x3x256x256_S2304x256) := by
    show StableHlo.after hostOps0_2 (StableHlo.after hostOps0_1 (StableHlo.after hostOps0 (W0 m ρ c))) (Proc.devRef .tc main_v4) = _
    after_results_simp
    try simp only [ofBuf_toBuf]
    rfl
  rw [e]
  refine (shapeCast_apply _ _ (ix2 (⟨(kh.val * 3 + kw.val) * 256 + ci.val, by omega⟩ : Fin 2304) q) (ix4 kh kw ci q) ?_).trans ?_
  · rw [Shape.rowMajor_val_four, Shape.rowMajor_val_two]
    show ((kh.val * 3 + kw.val) * 256 + ci.val) * 256 + q.val = ((kh.val * 3 + kw.val) * 256 + ci.val) * 256 + q.val
    rfl
  refine (pad_apply_of_inside _ _ _ _ _ _ _ (ix4 kh kw ci q) (ix4 kh kw ci q) fun a => ?_).trans ?_
  · match a with
    | ⟨0, _⟩ => show kh.val = 0 + kh.val * (0 + 1); omega
    | ⟨1, _⟩ => show kw.val = 0 + kw.val * (0 + 1); omega
    | ⟨2, _⟩ => show ci.val = 0 + ci.val * (0 + 1); omega
    | ⟨3, _⟩ => show q.val = 0 + q.val * (0 + 1); omega
  refine transpose_apply _ _ _ (ix4 kh kw ci q) (ix4 q ci kh kw) fun b => ?_
  match b with
  | ⟨0, _⟩ => rfl
  | ⟨1, _⟩ => rfl
  | ⟨2, _⟩ => rfl
  | ⟨3, _⟩ => rfl

end Cert.KernelIdeal.Pre
end
-- ==== Proof.KReg0a.lean ====
/-
  The first pass's scratch array as one function of the image block.

  At an image the body copies the block x [1,64,64,256] into a scratch array [68,64,768] by stores that tile it:
  rows 0-1 and 66-67 are zero; in rows 2-65, lanes 0-255 hold x moved right by two columns (columns 0-1 zero),
  lanes 256-511 hold x, and lanes 512-767 hold x moved left by two columns (columns 62-63 zero). So the scratch at
  (r, j, kw * 256 + ci) is the input padded by two zeros on every side, read at padded row r, padded column
  j + 2 * kw and channel ci. Each store's payload is that function on its rectangle, and the rectangles cover the
  array, so every later load of the scratch reads that function.
-/
import proofs.«131269_g2000402634760427_pallasbulk_1319_18_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.KernelIdeal.Reg0
open Cert.KernelIdeal Cert.KernelIdeal.Gen

/-- The bf16 pattern of all zero bits is the extended real 0. -/
theorem ofBits_zero_bf16 : Ideal.ofBits .bf16 0x0000#16 = 0 := by simp [Ideal.ofBits, Ideal.ieee]

/-- The image block padded by two zero rows and columns on every side, at padded row r, padded column s and
    lane l (whose channel is l mod 256). -/
def Pd (x0 : S1x64x64x256.Idx → EReal) (r s l : ℕ) : EReal :=
  if h : (2 ≤ r ∧ r < 66) ∧ (2 ≤ s ∧ s < 66) then
    x0 (ix4 (0 : Fin 1) (⟨r - 2, by omega⟩ : Fin 64) (⟨s - 2, by omega⟩ : Fin 64) (⟨l % 256, Nat.mod_lt _ (by decide)⟩ : Fin 256))
  else 0

/-- Inside the image the padded block is the block, two rows up and two columns left. -/
theorem Pd_in (x0 : S1x64x64x256.Idx → EReal) (r s l : ℕ) (a b : Fin 64) (ci : Fin 256)
    (hr : r = a.val + 2) (hs : s = b.val + 2) (hl : l % 256 = ci.val) : Pd x0 r s l = x0 (ix4 (0 : Fin 1) a b ci) := by
  have ha := a.isLt
  have hb := b.isLt
  have h : (2 ≤ r ∧ r < 66) ∧ (2 ≤ s ∧ s < 66) := by omega
  unfold Pd
  rw [dif_pos h]
  refine congrArg x0 (funext fun d => Fin.ext ?_)
  match d with
  | ⟨0, _⟩ => rfl
  | ⟨1, _⟩ => show r - 2 = a.val; omega
  | ⟨2, _⟩ => show s - 2 = b.val; omega
  | ⟨3, _⟩ => exact hl

/-- On the border it is zero. -/
theorem Pd_out (x0 : S1x64x64x256.Idx → EReal) (r s l : ℕ) (h : r < 2 ∨ 66 ≤ r ∨ s < 2 ∨ 66 ≤ s) : Pd x0 r s l = 0 := by
  unfold Pd
  rw [dif_neg (by omega)]

/-- The scratch array as a function of the image block: at (r, j, l) the padded block at row r, column
    j + 2 * (l / 256), lane l. -/
def Gs (x0 : S1x64x64x256.Idx → EReal) : S68x64x768.Idx → EReal :=
  fun y => Pd x0 (y 0).val ((y 1).val + 2 * ((y 2).val / 256)) (y 2).val

/-- The cast of the image block to [64,64,256], read at (a, b, ci). -/
theorem pay2_apply (x0 : FVec Ideal S1x64x64x256 .f32) (a b : Fin 64) (ci : Fin 256) :
    k0_pay2 (F := Ideal) x0 (ix3 a b ci) = x0 (ix4 (0 : Fin 1) a b ci) := by
  unfold k0_pay2
  try dsimp only
  simp only [truncf_apply, shapeCast_1abc_abc_apply]

/-- The body's stores into the scratch array, last first. -/
def scr (x0 : FVec Ideal S1x64x64x256 .f32) : List (View.Piece (Elt Ideal) S68x64x768 .bf16) :=
  [⟨Rect.unit ![2, 62, 512] S64x2x256.size inb_S68x64x768_S64x2x256_2_62_512, k0_pay11 (F := Ideal) k0_pay10⟩,
   ⟨Rect.unit ![2, 0, 512] S64x62x256.size inb_S68x64x768_S64x62x256_2_0_512, k0_pay9 (F := Ideal) x0⟩,
   ⟨Rect.unit ![2, 0, 256] S64x64x256.size inb_S68x64x768_S64x64x256_2_0_256, k0_pay8 (F := Ideal) x0⟩,
   ⟨Rect.unit ![2, 0, 0] S64x2x256.size inb_S68x64x768_S64x2x256_2_0_0, k0_pay7 (F := Ideal)⟩,
   ⟨Rect.unit ![2, 2, 0] S64x62x256.size inb_S68x64x768_S64x62x256_2_2_0, k0_pay6 (F := Ideal) x0⟩,
   ⟨Rect.unit ![66, 0, 0] S2x64x768.size inb_S68x64x768_S2x64x768_66_0_0, k0_pay5 (F := Ideal)⟩,
   ⟨Rect.unit ![0, 0, 0] S2x64x768.size inb_S68x64x768_S2x64x768_0_0_0, k0_pay4 (F := Ideal)⟩]

/-- The zero splats the border stores write are zero at every index. -/
theorem pay4_apply (j : S2x64x768.Idx) : (k0_pay4 (F := Ideal) j : EReal) = 0 := by
  unfold k0_pay4 k0_pay3
  try dsimp only
  simp only [shapeCast_self, broadcast_apply]
  exact ofBits_zero_bf16
theorem pay5_apply (j : S2x64x768.Idx) : (k0_pay5 (F := Ideal) j : EReal) = 0 := by
  unfold k0_pay5 k0_pay3
  try dsimp only
  simp only [shapeCast_self, broadcast_apply]
  exact ofBits_zero_bf16
theorem pay7_apply (j : S64x2x256.Idx) : (k0_pay7 (F := Ideal) j : EReal) = 0 := by
  unfold k0_pay7
  try dsimp only
  simp only [shapeCast_self, broadcast_apply]
  exact ofBits_zero_bf16
theorem pay11_apply (j : S64x2x256.Idx) : (k0_pay11 (F := Ideal) k0_pay10 j : EReal) = 0 := by
  unfold k0_pay11 k0_pay10
  try dsimp only
  simp only [shapeCast_self, broadcast_apply]
  exact ofBits_zero_bf16

/-- The three copies of the image block: unshifted, and cut to its first and to its last 62 columns. -/
theorem pay8_apply (x0 : FVec Ideal S1x64x64x256 .f32) (a b : Fin 64) (ci : Fin 256) :
    k0_pay8 (F := Ideal) x0 (ix3 a b ci) = x0 (ix4 (0 : Fin 1) a (⟨b.val + 0, by omega⟩ : Fin 64) ci) := by
  unfold k0_pay8
  try dsimp only
  simp only [shapeCast_self]
  exact pay2_apply x0 a b ci
theorem pay6_apply (x0 : FVec Ideal S1x64x64x256 .f32) (a : Fin 64) (b : Fin 62) (ci : Fin 256) :
    k0_pay6 (F := Ideal) x0 (ix3 a b ci) = x0 (ix4 (0 : Fin 1) a (⟨b.val + 0, by omega⟩ : Fin 64) ci) := by
  unfold k0_pay6
  try dsimp only
  simp only [shapeCast_self]
  refine (slice3_axis1_apply 0 _ _ a b ci (⟨b.val + 0, by omega⟩ : Fin 64) (by show b.val + 0 = 0 + b.val; omega)).trans ?_
  exact pay2_apply x0 a _ ci
theorem pay9_apply (x0 : FVec Ideal S1x64x64x256 .f32) (a : Fin 64) (b : Fin 62) (ci : Fin 256) :
    k0_pay9 (F := Ideal) x0 (ix3 a b ci) = x0 (ix4 (0 : Fin 1) a (⟨b.val + 2, by omega⟩ : Fin 64) ci) := by
  unfold k0_pay9
  try dsimp only
  simp only [shapeCast_self]
  refine (slice3_axis1_apply 2 _ _ a b ci (⟨b.val + 2, by omega⟩ : Fin 64) (by show b.val + 2 = 2 + b.val; omega)).trans ?_
  exact pay2_apply x0 a _ ci

/-! ## Each store's payload is the scratch function on its rectangle -/

theorem pc11 (x0 : S1x64x64x256.Idx → EReal) (x : S64x2x256.Idx) :
    (k0_pay11 (F := Ideal) k0_pay10 x : EReal) = Gs x0 ((Rect.unit (s := S68x64x768) ![2, 62, 512] S64x2x256.size inb_S68x64x768_S64x2x256_2_62_512).emb x) := by
  obtain ⟨a, b, l, rfl⟩ : ∃ (a : Fin 64) (b : Fin 2) (l : Fin 256), x = ix3 a b l := ⟨x 0, x 1, x 2, eq_ix3 x⟩
  have ha := a.isLt
  have hb := b.isLt
  have hl := l.isLt
  refine (pay11_apply _).trans ?_
  symm
  refine Pd_out x0 _ _ _ ?_
  show (2 + 1 * a.val) < 2 ∨ 66 ≤ (2 + 1 * a.val) ∨ (62 + 1 * b.val) + 2 * ((512 + 1 * l.val) / 256) < 2 ∨ 66 ≤ (62 + 1 * b.val) + 2 * ((512 + 1 * l.val) / 256)
  omega

theorem pc7 (x0 : S1x64x64x256.Idx → EReal) (x : S64x2x256.Idx) :
    (k0_pay7 (F := Ideal) x : EReal) = Gs x0 ((Rect.unit (s := S68x64x768) ![2, 0, 0] S64x2x256.size inb_S68x64x768_S64x2x256_2_0_0).emb x) := by
  obtain ⟨a, b, l, rfl⟩ : ∃ (a : Fin 64) (b : Fin 2) (l : Fin 256), x = ix3 a b l := ⟨x 0, x 1, x 2, eq_ix3 x⟩
  have ha := a.isLt
  have hb := b.isLt
  have hl := l.isLt
  refine (pay7_apply _).trans ?_
  symm
  refine Pd_out x0 _ _ _ ?_
  show (2 + 1 * a.val) < 2 ∨ 66 ≤ (2 + 1 * a.val) ∨ (0 + 1 * b.val) + 2 * ((0 + 1 * l.val) / 256) < 2 ∨ 66 ≤ (0 + 1 * b.val) + 2 * ((0 + 1 * l.val) / 256)
  omega

theorem pc5 (x0 : S1x64x64x256.Idx → EReal) (x : S2x64x768.Idx) :
    (k0_pay5 (F := Ideal) x : EReal) = Gs x0 ((Rect.unit (s := S68x64x768) ![66, 0, 0] S2x64x768.size inb_S68x64x768_S2x64x768_66_0_0).emb x) := by
  obtain ⟨a, b, l, rfl⟩ : ∃ (a : Fin 2) (b : Fin 64) (l : Fin 768), x = ix3 a b l := ⟨x 0, x 1, x 2, eq_ix3 x⟩
  have ha := a.isLt
  have hb := b.isLt
  have hl := l.isLt
  refine (pay5_apply _).trans ?_
  symm
  refine Pd_out x0 _ _ _ ?_
  show (66 + 1 * a.val) < 2 ∨ 66 ≤ (66 + 1 * a.val) ∨ (0 + 1 * b.val) + 2 * ((0 + 1 * l.val) / 256) < 2 ∨ 66 ≤ (0 + 1 * b.val) + 2 * ((0 + 1 * l.val) / 256)
  omega

theorem pc4 (x0 : S1x64x64x256.Idx → EReal) (x : S2x64x768.Idx) :
    (k0_pay4 (F := Ideal) x : EReal) = Gs x0 ((Rect.unit (s := S68x64x768) ![0, 0, 0] S2x64x768.size inb_S68x64x768_S2x64x768_0_0_0).emb x) := by
  obtain ⟨a, b, l, rfl⟩ : ∃ (a : Fin 2) (b : Fin 64) (l : Fin 768), x = ix3 a b l := ⟨x 0, x 1, x 2, eq_ix3 x⟩
  have ha := a.isLt
  have hb := b.isLt
  have hl := l.isLt
  refine (pay4_apply _).trans ?_
  symm
  refine Pd_out x0 _ _ _ ?_
  show (0 + 1 * a.val) < 2 ∨ 66 ≤ (0 + 1 * a.val) ∨ (0 + 1 * b.val) + 2 * ((0 + 1 * l.val) / 256) < 2 ∨ 66 ≤ (0 + 1 * b.val) + 2 * ((0 + 1 * l.val) / 256)
  omega

theorem pc9 (x0 : FVec Ideal S1x64x64x256 .f32) (x : S64x62x256.Idx) :
    (k0_pay9 (F := Ideal) x0 x : EReal) = Gs x0 ((Rect.unit (s := S68x64x768) ![2, 0, 512] S64x62x256.size inb_S68x64x768_S64x62x256_2_0_512).emb x) := by
  obtain ⟨a, b, l, rfl⟩ : ∃ (a : Fin 64) (b : Fin 62) (l : Fin 256), x = ix3 a b l := ⟨x 0, x 1, x 2, eq_ix3 x⟩
  have ha := a.isLt
  have hb := b.isLt
  have hl := l.isLt
  refine (pay9_apply x0 a b l).trans ?_
  symm
  refine Pd_in x0 _ _ _ a (⟨b.val + 2, by omega⟩ : Fin 64) l ?_ ?_ ?_
  · show 2 + 1 * a.val = a.val + 2
    omega
  · show (0 + 1 * b.val) + 2 * ((512 + 1 * l.val) / 256) = b.val + 2 + 2
    omega
  · show (512 + 1 * l.val) % 256 = l.val
    omega

theorem pc8 (x0 : FVec Ideal S1x64x64x256 .f32) (x : S64x64x256.Idx) :
    (k0_pay8 (F := Ideal) x0 x : EReal) = Gs x0 ((Rect.unit (s := S68x64x768) ![2, 0, 256] S64x64x256.size inb_S68x64x768_S64x64x256_2_0_256).emb x) := by
  obtain ⟨a, b, l, rfl⟩ : ∃ (a : Fin 64) (b : Fin 64) (l : Fin 256), x = ix3 a b l := ⟨x 0, x 1, x 2, eq_ix3 x⟩
  have ha := a.isLt
  have hb := b.isLt
  have hl := l.isLt
  refine (pay8_apply x0 a b l).trans ?_
  symm
  refine Pd_in x0 _ _ _ a (⟨b.val + 0, by omega⟩ : Fin 64) l ?_ ?_ ?_
  · show 2 + 1 * a.val = a.val + 2
    omega
  · show (0 + 1 * b.val) + 2 * ((256 + 1 * l.val) / 256) = b.val + 0 + 2
    omega
  · show (256 + 1 * l.val) % 256 = l.val
    omega

theorem pc6 (x0 : FVec Ideal S1x64x64x256 .f32) (x : S64x62x256.Idx) :
    (k0_pay6 (F := Ideal) x0 x : EReal) = Gs x0 ((Rect.unit (s := S68x64x768) ![2, 2, 0] S64x62x256.size inb_S68x64x768_S64x62x256_2_2_0).emb x) := by
  obtain ⟨a, b, l, rfl⟩ : ∃ (a : Fin 64) (b : Fin 62) (l : Fin 256), x = ix3 a b l := ⟨x 0, x 1, x 2, eq_ix3 x⟩
  have ha := a.isLt
  have hb := b.isLt
  have hl := l.isLt
  refine (pay6_apply x0 a b l).trans ?_
  symm
  refine Pd_in x0 _ _ _ a (⟨b.val + 0, by omega⟩ : Fin 64) l ?_ ?_ ?_
  · show 2 + 1 * a.val = a.val + 2
    omega
  · show (2 + 1 * b.val) + 2 * ((0 + 1 * l.val) / 256) = b.val + 0 + 2
    omega
  · show (0 + 1 * l.val) % 256 = l.val
    omega

theorem scr_pieces (x0 : FVec Ideal S1x64x64x256 .f32) : ∀ p ∈ scr x0, ∀ x : p.1.shape.Idx, p.2 x = Gs x0 (p.1.emb x) := by
  intro p hp
  unfold scr at hp
  simp only [List.mem_cons, List.mem_nil_iff, or_false] at hp
  rcases hp with rfl | rfl | rfl | rfl | rfl | rfl | rfl
  · exact pc11 x0
  · exact pc9 x0
  · exact pc8 x0
  · exact pc7 x0
  · exact pc6 x0
  · exact pc5 x0
  · exact pc4 x0

/-- The stores' rectangles cover the scratch array. -/
theorem scr_cover (x0 : FVec Ideal S1x64x64x256 .f32) (y : S68x64x768.Idx) : ∃ p ∈ scr x0, y ∈ p.1.set := by
  have h0 : (y 0).val < 68 := (y 0).isLt
  have h1 : (y 1).val < 64 := (y 1).isLt
  have h2 : (y 2).val < 768 := (y 2).isLt
  unfold scr
  by_cases r0 : (y 0).val < 2
  · refine ⟨_, List.Mem.tail _ (List.Mem.tail _ (List.Mem.tail _ (List.Mem.tail _ (List.Mem.tail _ (List.Mem.tail _ (List.Mem.head _)))))), ?_⟩
    show y ∈ (Rect.unit (s := S68x64x768) ![0, 0, 0] S2x64x768.size inb_S68x64x768_S2x64x768_0_0_0).set
    rw [Rect.mem_set_unit]
    intro d
    match d with
    | ⟨0, _⟩ => show 0 ≤ (y 0).val ∧ (y 0).val < 0 + 2; omega
    | ⟨1, _⟩ => show 0 ≤ (y 1).val ∧ (y 1).val < 0 + 64; omega
    | ⟨2, _⟩ => show 0 ≤ (y 2).val ∧ (y 2).val < 0 + 768; omega
  by_cases r1 : 66 ≤ (y 0).val
  · refine ⟨_, List.Mem.tail _ (List.Mem.tail _ (List.Mem.tail _ (List.Mem.tail _ (List.Mem.tail _ (List.Mem.head _))))), ?_⟩
    show y ∈ (Rect.unit (s := S68x64x768) ![66, 0, 0] S2x64x768.size inb_S68x64x768_S2x64x768_66_0_0).set
    rw [Rect.mem_set_unit]
    intro d
    match d with
    | ⟨0, _⟩ => show 66 ≤ (y 0).val ∧ (y 0).val < 66 + 2; omega
    | ⟨1, _⟩ => show 0 ≤ (y 1).val ∧ (y 1).val < 0 + 64; omega
    | ⟨2, _⟩ => show 0 ≤ (y 2).val ∧ (y 2).val < 0 + 768; omega
  by_cases l0 : (y 2).val < 256
  · by_cases c0 : (y 1).val < 2
    · refine ⟨_, List.Mem.tail _ (List.Mem.tail _ (List.Mem.tail _ (List.Mem.head _))), ?_⟩
      show y ∈ (Rect.unit (s := S68x64x768) ![2, 0, 0] S64x2x256.size inb_S68x64x768_S64x2x256_2_0_0).set
      rw [Rect.mem_set_unit]
      intro d
      match d with
      | ⟨0, _⟩ => show 2 ≤ (y 0).val ∧ (y 0).val < 2 + 64; omega
      | ⟨1, _⟩ => show 0 ≤ (y 1).val ∧ (y 1).val < 0 + 2; omega
      | ⟨2, _⟩ => show 0 ≤ (y 2).val ∧ (y 2).val < 0 + 256; omega
    · refine ⟨_, List.Mem.tail _ (List.Mem.tail _ (List.Mem.tail _ (List.Mem.tail _ (List.Mem.head _)))), ?_⟩
      show y ∈ (Rect.unit (s := S68x64x768) ![2, 2, 0] S64x62x256.size inb_S68x64x768_S64x62x256_2_2_0).set
      rw [Rect.mem_set_unit]
      intro d
      match d with
      | ⟨0, _⟩ => show 2 ≤ (y 0).val ∧ (y 0).val < 2 + 64; omega
      | ⟨1, _⟩ => show 2 ≤ (y 1).val ∧ (y 1).val < 2 + 62; omega
      | ⟨2, _⟩ => show 0 ≤ (y 2).val ∧ (y 2).val < 0 + 256; omega
  by_cases l1 : (y 2).val < 512
  · refine ⟨_, List.Mem.tail _ (List.Mem.tail _ (List.Mem.head _)), ?_⟩
    show y ∈ (Rect.unit (s := S68x64x768) ![2, 0, 256] S64x64x256.size inb_S68x64x768_S64x64x256_2_0_256).set
    rw [Rect.mem_set_unit]
    intro d
    match d with
    | ⟨0, _⟩ => show 2 ≤ (y 0).val ∧ (y 0).val < 2 + 64; omega
    | ⟨1, _⟩ => show 0 ≤ (y 1).val ∧ (y 1).val < 0 + 64; omega
    | ⟨2, _⟩ => show 256 ≤ (y 2).val ∧ (y 2).val < 256 + 256; omega
  by_cases c1 : (y 1).val < 62
  · refine ⟨_, List.Mem.tail _ (List.Mem.head _), ?_⟩
    show y ∈ (Rect.unit (s := S68x64x768) ![2, 0, 512] S64x62x256.size inb_S68x64x768_S64x62x256_2_0_512).set
    rw [Rect.mem_set_unit]
    intro d
    match d with
    | ⟨0, _⟩ => show 2 ≤ (y 0).val ∧ (y 0).val < 2 + 64; omega
    | ⟨1, _⟩ => show 0 ≤ (y 1).val ∧ (y 1).val < 0 + 62; omega
    | ⟨2, _⟩ => show 512 ≤ (y 2).val ∧ (y 2).val < 512 + 256; omega
  · refine ⟨_, List.Mem.head _, ?_⟩
    show y ∈ (Rect.unit (s := S68x64x768) ![2, 62, 512] S64x2x256.size inb_S68x64x768_S64x2x256_2_62_512).set
    rw [Rect.mem_set_unit]
    intro d
    match d with
    | ⟨0, _⟩ => show 2 ≤ (y 0).val ∧ (y 0).val < 2 + 64; omega
    | ⟨1, _⟩ => show 62 ≤ (y 1).val ∧ (y 1).val < 62 + 2; omega
    | ⟨2, _⟩ => show 512 ≤ (y 2).val ∧ (y 2).val < 512 + 256; omega

/-- A load of the scratch array after the stores reads the scratch function at the load's indices. -/
theorem scr_read {sig : RefSig} {κ : Kind} {sp : Space} (v : View sig κ sp S68x64x768 .bf16) (x0 : FVec Ideal S1x64x64x256 .f32)
    (B : LoadRect S68x64x768) : v.readCov (scr x0) B = fun j => Gs x0 (B.idx j) := by
  rw [View.readCov_eq_canon']
  funext j
  exact View.canon_apply_of_pieces (Gs x0) (scr x0) (scr_pieces x0) _ (scr_cover x0 _)

end Cert.KernelIdeal.Reg0

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.KReg0b.lean ====
/-
  One row slab of the convolution: three matrix products of a [12,64,768] slab of the scratch array with the
  three weight blocks, read at a position and an output channel.

  For kh = 0, 1, 2 the body takes rows 2 kh .. 2 kh + 7 of the slab, flattens (row, column) to a position
  p = 64 * row + column < 512, multiplies the [512,768] result by the weight block [768,256] of tap row kh, and
  adds the three products as ((0 + D0) + D1) + D2. At (p, q) product kh is the sum over the 768 lanes k of the slab
  at (p / 64 + 2 kh, p mod 64, k) times the weight block at (k, q). The eight slabs of an image are printed as
  differently grouped terms; all of them are this one function of the slab and the three weight blocks.
-/
import proofs.«131269_g2000402634760427_pallasbulk_1319_18_alg».proof.Proof.Gen.KernelIdeal.Frame
import proofs.«131269_g2000402634760427_pallasbulk_1319_18_alg».proof.Proof.LibPlainDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.KernelIdeal.Reg0
open Cert.KernelIdeal Cert.KernelIdeal.Gen

/-- The left operand of product kh (o = 2 kh): rows o .. o + 7 of the slab with (row, column) flattened, at
    position p and lane k, is the slab at row p / 64 + o and column p mod 64. -/
theorem lhs_apply (A : FVec Ideal S12x64x768 .bf16) (o : ℕ) (ho : o ≤ 4) (h : S12x64x768.Slices ![o, 0, 0] S8x64x768)
    (h' : S8x64x768.ShapeCasts S512x768) (p : Fin 512) (k : Fin 768) :
    shapeCast S512x768 (extractStridedSlice S8x64x768 ![o, 0, 0] A h) h' (ix2 p k)
      = A (ix3 (⟨p.val / 64 + o, by have := p.isLt; omega⟩ : Fin 12) (⟨p.val % 64, Nat.mod_lt _ (by decide)⟩ : Fin 64) k) := by
  have hp := p.isLt
  refine (shapeCast_apply _ h' (ix2 p k)
    (ix3 (⟨p.val / 64, by omega⟩ : Fin 8) (⟨p.val % 64, Nat.mod_lt _ (by decide)⟩ : Fin 64) k) ?_).trans ?_
  · rw [Shape.rowMajor_val_three, Shape.rowMajor_val_two]
    show (p.val / 64 * 64 + p.val % 64) * 768 + k.val = p.val * 768 + k.val
    omega
  · refine extractStridedSlice_apply _ _ h _ _ (fun ax => ?_)
    match ax with
    | ⟨0, _⟩ => show p.val / 64 + o = o + p.val / 64; omega
    | ⟨1, _⟩ => show p.val % 64 = 0 + p.val % 64; omega
    | ⟨2, _⟩ => show k.val = 0 + k.val; omega

/-- The slab's value at position p and output channel q. -/
def slabAt (A : S12x64x768.Idx → EReal) (w0 w1 w2 : S768x256.Idx → EReal) (p : Fin 512) (q : Fin 256) : EReal :=
  ((0 + ∑ k : Fin 768, A (ix3 (⟨p.val / 64 + 0, by have := p.isLt; omega⟩ : Fin 12) (⟨p.val % 64, Nat.mod_lt _ (by decide)⟩ : Fin 64) k) * w0 (ix2 k q))
    + ∑ k : Fin 768, A (ix3 (⟨p.val / 64 + 2, by have := p.isLt; omega⟩ : Fin 12) (⟨p.val % 64, Nat.mod_lt _ (by decide)⟩ : Fin 64) k) * w1 (ix2 k q))
    + ∑ k : Fin 768, A (ix3 (⟨p.val / 64 + 4, by have := p.isLt; omega⟩ : Fin 12) (⟨p.val % 64, Nat.mod_lt _ (by decide)⟩ : Fin 64) k) * w2 (ix2 k q)

/-- One product into the zero accumulator, at (p, q). -/
theorem prod_apply (A : FVec Ideal S12x64x768 .bf16) (w : FVec Ideal S768x256 .bf16) (o : ℕ) (ho : o ≤ 4)
    (h : S12x64x768.Slices ![o, 0, 0] S8x64x768) (h' : S8x64x768.ShapeCasts S512x768) (p : Fin 512) (q : Fin 256) :
    matmul (F := Ideal) dot_S512x768_S768x256_S512x256_1_0_0_1_n_n none
        (shapeCast S512x768 (extractStridedSlice S8x64x768 ![o, 0, 0] A h) h') w (constant S512x256 .f32 0x00000000#32) (ix2 p q)
      = ∑ k : Fin 768, A (ix3 (⟨p.val / 64 + o, by have := p.isLt; omega⟩ : Fin 12) (⟨p.val % 64, Nat.mod_lt _ (by decide)⟩ : Fin 64) k) * w (ix2 k q) := by
  refine (Cert.PlainDot.matmul_zero_apply dot_S512x768_S768x256_S512x256_1_0_0_1_n_n rfl _ w p q).trans ?_
  exact Finset.sum_congr rfl fun k _ => congrArg (· * w (ix2 k q)) (lhs_apply A o ho h h' p k)

/-- The first slab's printed value is the slab function. -/
theorem slab_apply (A : FVec Ideal S12x64x768 .bf16) (w0 w1 w2 : FVec Ideal S768x256 .bf16) (p : Fin 512) (q : Fin 256) :
    k0_pay12 (F := Ideal) A w0 w1 w2 (ix2 p q) = slabAt A w0 w1 w2 p q := by
  unfold k0_pay12 slabAt
  try dsimp only
  simp only [addf_apply, broadcast_apply, shapeCast_self]
  refine congrArg₂ (· + ·) (congrArg₂ (· + ·) (congrArg₂ (· + ·) ?_ ?_) ?_) ?_
  · exact Ideal.ofBits_zero_f32
  · exact prod_apply A w0 0 (by omega) _ _ p q
  · exact prod_apply A w1 2 (by omega) _ _ p q
  · exact prod_apply A w2 4 (by omega) _ _ p q

/-! ## The eight printed slabs are the same function -/

theorem slab16 (A : FVec Ideal S12x64x768 .bf16) (w0 w1 w2 : FVec Ideal S768x256 .bf16) :
    k0_pay16 (F := Ideal) A w0 w1 w2 = k0_pay12 A w0 w1 w2 := rfl
theorem slab22 (A : FVec Ideal S12x64x768 .bf16) (w0 w1 w2 : FVec Ideal S768x256 .bf16) :
    k0_pay22 (F := Ideal) A k0_pay20 (k0_pay21 A) w0 w1 w2 = k0_pay12 A w0 w1 w2 := rfl
theorem slab29 (A : FVec Ideal S12x64x768 .bf16) (w0 w1 w2 : FVec Ideal S768x256 .bf16) :
    k0_pay29 (F := Ideal) A (k0_pay26 A w0) (k0_pay27 A) (k0_pay28 w1) w2 = k0_pay12 A w0 w1 w2 := rfl
theorem slab36 (A : FVec Ideal S12x64x768 .bf16) (w0 w1 w2 : FVec Ideal S768x256 .bf16) :
    k0_pay36 (F := Ideal) (k0_pay33 A w0 w1) (k0_pay34 A) (k0_pay35 w2) (constant S512x256 .f32 0x00000000#32) = k0_pay12 A w0 w1 w2 := rfl
theorem slab39 (A : FVec Ideal S12x64x768 .bf16) (w0 w1 w2 : FVec Ideal S768x256 .bf16) :
    k0_pay39 (F := Ideal) A w0 w1 w2 = k0_pay12 A w0 w1 w2 := rfl
theorem slab43 (A : FVec Ideal S12x64x768 .bf16) (w0 w1 w2 : FVec Ideal S768x256 .bf16) :
    k0_pay43 (F := Ideal) A w0 w1 w2 = k0_pay12 A w0 w1 w2 := rfl
theorem slab47 (A : FVec Ideal S12x64x768 .bf16) (w0 w1 w2 : FVec Ideal S768x256 .bf16) :
    k0_pay47 (F := Ideal) A w0 w1 w2 = k0_pay12 A w0 w1 w2 := rfl

/-- A slab's stored block [1,512,256] (the value cast to the output format, a unit axis added) at (u, p, q). -/
theorem out_apply (v : FVec Ideal S512x256 .f32) (u : Fin 1) (p : Fin 512) (q : Fin 256) :
    shapeCast S1x512x256 (truncf .bf16 v bitsLt_bf16_f32) shapeCasts_S512x256_S1x512x256 (ix3 u p q) = v (ix2 p q) := by
  simp only [shapeCast_ab_1ab_apply, truncf_apply]

end Cert.KernelIdeal.Reg0

end
-- ==== Proof.KReg0c.lean ====
/-
  The first pass's convolution block as one function of the image block and the weight matrix.

  The body stores eight row slabs [1,512,256] that tile the output block [1,4096,256]; slab s is the three
  products of rows 8 s .. 8 s + 11 of the scratch array with the three weight blocks. With the scratch array read as
  the padded image block, slab s at position p and channel q is the convolution at flat position P = 512 s + p:
  the sum over the tap rows kh, the tap columns kw and the input channels ci of the padded block at row
  P / 64 + 2 kh, column P mod 64 + 2 kw, channel ci, times the weight at row (kh * 3 + kw) * 256 + ci. The
  products sum over 768 lanes k = kw * 256 + ci; the sum over lanes is regrouped into the double sum. The eight
  grid points write the eight images of the output array.
-/
import proofs.«131269_g2000402634760427_pallasbulk_1319_18_alg».proof.Proof.KReg0a
import proofs.«131269_g2000402634760427_pallasbulk_1319_18_alg».proof.Proof.KReg0b
import proofs.«131269_g2000402634760427_pallasbulk_1319_18_alg».proof.Proof.Conv

set_option maxRecDepth 16384

noncomputable section
open Idealize.ShloMosaic Idealize.ShloMosaic.TcCoe Idealize.ShloMosaic.Tactic Idealize.SL.Sem
open Idealize.ShloMosaic.ValueIdx

namespace Cert.KernelIdeal.Reg0
open Cert.KernelIdeal Cert.KernelIdeal.Gen

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The padded block depends on the lane only through its channel. -/
theorem Pd_congr (x0 : S1x64x64x256.Idx → EReal) {r r' s s' l l' : ℕ} (hr : r = r') (hs : s = s') (hl : l % 256 = l' % 256) :
    Pd x0 r s l = Pd x0 r' s' l' := by
  subst hr hs
  unfold Pd
  by_cases h : (2 ≤ r ∧ r < 66) ∧ (2 ≤ s ∧ s < 66)
  · rw [dif_pos h, dif_pos h]
    refine congrArg x0 (funext fun d => Fin.ext ?_)
    match d with
    | ⟨0, _⟩ => rfl
    | ⟨1, _⟩ => rfl
    | ⟨2, _⟩ => rfl
    | ⟨3, _⟩ => exact hl
  · rw [dif_neg h, dif_neg h]

/-- A sum over the 768 lanes, taken tap column by tap column. -/
theorem sum_lanes768 (f : Fin 768 → EReal) :
    ∑ k : Fin 768, f k = ∑ kw : Fin 3, ∑ ci : Fin 256, f (⟨kw.val * 256 + ci.val, by omega⟩ : Fin 768) := by
  show ∑ k : Fin (3 * 256), f k = _
  rw [← (finProdFinEquiv (m := 3) (n := 256)).sum_comp f, Fintype.sum_prod_type]
  refine Finset.sum_congr rfl fun kw _ => Finset.sum_congr rfl fun ci _ => congrArg f (Fin.ext ?_)
  show ci.val + 256 * kw.val = kw.val * 256 + ci.val
  omega

/-- The convolution of the image block at flat position P = 64 * row + column and output channel q. -/
def convB (x0 : S1x64x64x256.Idx → EReal) (x1 : S2304x256.Idx → EReal) (P : Fin 4096) (q : Fin 256) : EReal :=
  ∑ kh : Fin 3, ∑ kw : Fin 3, ∑ ci : Fin 256,
    Pd x0 (P.val / 64 + 2 * kh.val) (P.val % 64 + 2 * kw.val) ci.val
      * x1 (ix2 (⟨(kh.val * 3 + kw.val) * 256 + ci.val, by omega⟩ : Fin 2304) q)

/-- The three weight blocks the body loads: rows 0-767, 768-1535 and 1536-2303 of the weight matrix. -/
abbrev W0 (x1 : FVec Ideal S2304x256 .bf16) : FVec Ideal S768x256 .bf16 := View.ld (Val := Elt Ideal) (S := S2304x256) (e' := .bf16) x1 (Rect.unit (s := S2304x256) ![0, 0] S768x256.size inb_S2304x256_S768x256_0_0)
abbrev W1 (x1 : FVec Ideal S2304x256 .bf16) : FVec Ideal S768x256 .bf16 := View.ld (Val := Elt Ideal) (S := S2304x256) (e' := .bf16) x1 (Rect.unit (s := S2304x256) ![768, 0] S768x256.size inb_S2304x256_S768x256_768_0)
abbrev W2 (x1 : FVec Ideal S2304x256 .bf16) : FVec Ideal S768x256 .bf16 := View.ld (Val := Elt Ideal) (S := S2304x256) (e' := .bf16) x1 (Rect.unit (s := S2304x256) ![1536, 0] S768x256.size inb_S2304x256_S768x256_1536_0)

/-- One product's sum over the lanes is the tap row's double sum. -/
theorem tap_eq (x0 : S1x64x64x256.Idx → EReal) (x1 : S2304x256.Idx → EReal) (Wk : S768x256.Idx → EReal) (kh : Fin 3) (P : Fin 4096) (q : Fin 256)
    (Y : Fin 768 → S68x64x768.Idx)
    (hrow : ∀ k : Fin 768, (Y k 0).val = P.val / 64 + 2 * kh.val)
    (hcol : ∀ k : Fin 768, (Y k 1).val = P.val % 64)
    (hlane : ∀ k : Fin 768, (Y k 2).val = k.val)
    (hW : ∀ k : Fin 768, Wk (ix2 k q) = x1 (ix2 (⟨768 * kh.val + k.val, by omega⟩ : Fin 2304) q)) :
    ∑ k : Fin 768, Gs x0 (Y k) * Wk (ix2 k q)
      = ∑ kw : Fin 3, ∑ ci : Fin 256, Pd x0 (P.val / 64 + 2 * kh.val) (P.val % 64 + 2 * kw.val) ci.val
          * x1 (ix2 (⟨(kh.val * 3 + kw.val) * 256 + ci.val, by omega⟩ : Fin 2304) q) := by
  rw [sum_lanes768]
  refine Finset.sum_congr rfl fun kw _ => Finset.sum_congr rfl fun ci _ => ?_
  have hkw := kw.isLt
  have hci := ci.isLt
  unfold Gs
  refine congrArg₂ (· * ·) (Pd_congr x0 (hrow _) ?_ ?_) ((hW _).trans (congrArg x1 (congrArg (ix2 · q) (Fin.ext ?_))))
  · rw [hcol, hlane]
    show P.val % 64 + 2 * ((kw.val * 256 + ci.val) / 256) = P.val % 64 + 2 * kw.val
    omega
  · rw [hlane]
    show (kw.val * 256 + ci.val) % 256 = ci.val % 256
    omega
  · show 768 * kh.val + (kw.val * 256 + ci.val) = (kh.val * 3 + kw.val) * 256 + ci.val
    omega

/-- Slab s (scratch rows r = 8 s onward) at position p is the convolution at flat position 64 r + p. -/
theorem slab_conv {sig : RefSig} {κ : Kind} {sp : Space} (v : View sig κ sp S68x64x768 .bf16) (x0 : FVec Ideal S1x64x64x256 .f32)
    (x1 : FVec Ideal S2304x256 .bf16) (r : ℕ) (inb : ∀ a, ![r, 0, 0] a + S12x64x768.size a ≤ S68x64x768.size a) (hr : r + 12 ≤ 68)
    (P : Fin 4096) (p : Fin 512) (q q' : Fin 256) (hP : P.val = 64 * r + p.val) (hq : q'.val = q.val) :
    slabAt (v.readCov (scr x0) (Rect.unit (s := S68x64x768) ![r, 0, 0] S12x64x768.size inb).toLoadRect) (W0 x1) (W1 x1) (W2 x1) p q
      = convB x0 x1 P q' := by
  obtain rfl : q' = q := Fin.ext hq
  have hp := p.isLt
  rw [scr_read]
  unfold slabAt convB
  beta_reduce
  rw [Fin.sum_univ_three, zero_add]
  refine congrArg₂ (· + ·) (congrArg₂ (· + ·) ?_ ?_) ?_
  · refine tap_eq x0 x1 (W0 x1) 0 P q' _ (fun k => ?_) (fun k => ?_) (fun k => ?_) (fun k => ?_)
    · show r + 1 * (p.val / 64 + 0) = P.val / 64 + 2 * 0
      omega
    · show 0 + 1 * (p.val % 64) = P.val % 64
      omega
    · show 0 + 1 * k.val = k.val
      omega
    · refine congrArg x1 (funext fun d => Fin.ext ?_)
      match d with
      | ⟨0, _⟩ => show 0 + 1 * k.val = 768 * 0 + k.val; omega
      | ⟨1, _⟩ => show 0 + 1 * q'.val = q'.val; omega
  · refine tap_eq x0 x1 (W1 x1) 1 P q' _ (fun k => ?_) (fun k => ?_) (fun k => ?_) (fun k => ?_)
    · show r + 1 * (p.val / 64 + 2) = P.val / 64 + 2 * 1
      omega
    · show 0 + 1 * (p.val % 64) = P.val % 64
      omega
    · show 0 + 1 * k.val = k.val
      omega
    · refine congrArg x1 (funext fun d => Fin.ext ?_)
      match d with
      | ⟨0, _⟩ => show 768 + 1 * k.val = 768 * 1 + k.val; omega
      | ⟨1, _⟩ => show 0 + 1 * q'.val = q'.val; omega
  · refine tap_eq x0 x1 (W2 x1) 2 P q' _ (fun k => ?_) (fun k => ?_) (fun k => ?_) (fun k => ?_)
    · show r + 1 * (p.val / 64 + 4) = P.val / 64 + 2 * 2
      omega
    · show 0 + 1 * (p.val % 64) = P.val % 64
      omega
    · show 0 + 1 * k.val = k.val
      omega
    · refine congrArg x1 (funext fun d => Fin.ext ?_)
      match d with
      | ⟨0, _⟩ => show 1536 + 1 * k.val = 768 * 2 + k.val; omega
      | ⟨1, _⟩ => show 0 + 1 * q'.val = q'.val; omega

/-- A stored slab block whose printed value is the first slab's form, at (u, p, q). -/
theorem piece_apply (pay : FVec Ideal S1x512x256 .bf16) (A : FVec Ideal S12x64x768 .bf16) (w0 w1 w2 : FVec Ideal S768x256 .bf16)
    (h : pay = shapeCast S1x512x256 (truncf .bf16 (k0_pay12 A w0 w1 w2) bitsLt_bf16_f32) shapeCasts_S512x256_S1x512x256)
    (u : Fin 1) (p : Fin 512) (q : Fin 256) : pay (ix3 u p q) = slabAt A w0 w1 w2 p q := by
  subst h
  exact (out_apply _ u p q).trans (slab_apply A w0 w1 w2 p q)

/-- The body's stores into the output block, last first, over the scratch loads and the weight blocks. -/
def L2 {sig : RefSig} {κ : Kind} {sp : Space} (v : View sig κ sp S68x64x768 .bf16) (x0 : FVec Ideal S1x64x64x256 .f32)
    (x1 : FVec Ideal S2304x256 .bf16) : List (View.Piece (Elt Ideal) S1x4096x256 .bf16) :=
  [
   ⟨Rect.unit (s := S1x4096x256) ![0, 3584, 0] S1x512x256.size inb_S1x4096x256_S1x512x256_0_3584_0, k0_pay48 (F := Ideal) (v.readCov (scr x0) (Rect.unit (s := S68x64x768) ![56, 0, 0] S12x64x768.size inb_S68x64x768_S12x64x768_56_0_0).toLoadRect) (W0 x1) (W1 x1) (W2 x1)⟩,
   ⟨Rect.unit (s := S1x4096x256) ![0, 3072, 0] S1x512x256.size inb_S1x4096x256_S1x512x256_0_3072_0, k0_pay46 (F := Ideal) (v.readCov (scr x0) (Rect.unit (s := S68x64x768) ![48, 0, 0] S12x64x768.size inb_S68x64x768_S12x64x768_48_0_0).toLoadRect) (W0 x1) (W1 x1) (W2 x1)⟩,
   ⟨Rect.unit (s := S1x4096x256) ![0, 2560, 0] S1x512x256.size inb_S1x4096x256_S1x512x256_0_2560_0, k0_pay42 (F := Ideal) (k0_pay39 (v.readCov (scr x0) (Rect.unit (s := S68x64x768) ![40, 0, 0] S12x64x768.size inb_S68x64x768_S12x64x768_40_0_0).toLoadRect) (W0 x1) (W1 x1) (W2 x1))⟩,
   ⟨Rect.unit (s := S1x4096x256) ![0, 2048, 0] S1x512x256.size inb_S1x4096x256_S1x512x256_0_2048_0, k0_pay38 (F := Ideal) (k0_pay33 (v.readCov (scr x0) (Rect.unit (s := S68x64x768) ![32, 0, 0] S12x64x768.size inb_S68x64x768_S12x64x768_32_0_0).toLoadRect) (W0 x1) (W1 x1)) (k0_pay34 (v.readCov (scr x0) (Rect.unit (s := S68x64x768) ![32, 0, 0] S12x64x768.size inb_S68x64x768_S12x64x768_32_0_0).toLoadRect)) (k0_pay35 (W2 x1)) (constant S512x256 .f32 0x00000000#32)⟩,
   ⟨Rect.unit (s := S1x4096x256) ![0, 1536, 0] S1x512x256.size inb_S1x4096x256_S1x512x256_0_1536_0, k0_pay32 (F := Ideal) (v.readCov (scr x0) (Rect.unit (s := S68x64x768) ![24, 0, 0] S12x64x768.size inb_S68x64x768_S12x64x768_24_0_0).toLoadRect) (k0_pay26 (v.readCov (scr x0) (Rect.unit (s := S68x64x768) ![24, 0, 0] S12x64x768.size inb_S68x64x768_S12x64x768_24_0_0).toLoadRect) (W0 x1)) (k0_pay27 (v.readCov (scr x0) (Rect.unit (s := S68x64x768) ![24, 0, 0] S12x64x768.size inb_S68x64x768_S12x64x768_24_0_0).toLoadRect)) (k0_pay28 (W1 x1)) (W2 x1)⟩,
   ⟨Rect.unit (s := S1x4096x256) ![0, 1024, 0] S1x512x256.size inb_S1x4096x256_S1x512x256_0_1024_0, k0_pay25 (F := Ideal) (v.readCov (scr x0) (Rect.unit (s := S68x64x768) ![16, 0, 0] S12x64x768.size inb_S68x64x768_S12x64x768_16_0_0).toLoadRect) k0_pay20 (k0_pay21 (v.readCov (scr x0) (Rect.unit (s := S68x64x768) ![16, 0, 0] S12x64x768.size inb_S68x64x768_S12x64x768_16_0_0).toLoadRect)) (W0 x1) (W1 x1) (W2 x1)⟩,
   ⟨Rect.unit (s := S1x4096x256) ![0, 512, 0] S1x512x256.size inb_S1x4096x256_S1x512x256_0_512_0, k0_pay19 (F := Ideal) (v.readCov (scr x0) (Rect.unit (s := S68x64x768) ![8, 0, 0] S12x64x768.size inb_S68x64x768_S12x64x768_8_0_0).toLoadRect) (W0 x1) (W1 x1) (W2 x1)⟩,
   ⟨Rect.unit (s := S1x4096x256) ![0, 0, 0] S1x512x256.size inb_S1x4096x256_S1x512x256_0_0_0, k0_pay15 (F := Ideal) (v.readCov (scr x0) (Rect.unit (s := S68x64x768) ![0, 0, 0] S12x64x768.size inb_S68x64x768_S12x64x768_0_0_0).toLoadRect) (W0 x1) (W1 x1) (W2 x1)⟩]

/-- The output block as a function of the image block and the weight matrix. -/
def G2 (x0 : S1x64x64x256.Idx → EReal) (x1 : S2304x256.Idx → EReal) : S1x4096x256.Idx → EReal :=
  fun j => convB x0 x1 (j 1) (j 2)

/-- Each stored slab is that function on its rectangle. -/
theorem L2_pieces {sig : RefSig} {κ : Kind} {sp : Space} (v : View sig κ sp S68x64x768 .bf16) (x0 : FVec Ideal S1x64x64x256 .f32)
    (x1 : FVec Ideal S2304x256 .bf16) : ∀ p ∈ L2 v x0 x1, ∀ x : p.1.shape.Idx, p.2 x = G2 x0 x1 (p.1.emb x) := by
  intro p hp
  unfold L2 at hp
  simp only [List.mem_cons, List.mem_nil_iff, or_false] at hp
  unfold G2
  rcases hp with rfl | rfl | rfl | rfl | rfl | rfl | rfl | rfl
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![56, 0, 0] S12x64x768.size inb_S68x64x768_S12x64x768_56_0_0).toLoadRect) (W0 x1) (W1 x1) (W2 x1) rfl u p q).trans ?_
    exact slab_conv v x0 x1 56 _ (by omega) _ p q _ (by show 3584 + 1 * p.val = 64 * 56 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![48, 0, 0] S12x64x768.size inb_S68x64x768_S12x64x768_48_0_0).toLoadRect) (W0 x1) (W1 x1) (W2 x1) rfl u p q).trans ?_
    exact slab_conv v x0 x1 48 _ (by omega) _ p q _ (by show 3072 + 1 * p.val = 64 * 48 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![40, 0, 0] S12x64x768.size inb_S68x64x768_S12x64x768_40_0_0).toLoadRect) (W0 x1) (W1 x1) (W2 x1) rfl u p q).trans ?_
    exact slab_conv v x0 x1 40 _ (by omega) _ p q _ (by show 2560 + 1 * p.val = 64 * 40 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![32, 0, 0] S12x64x768.size inb_S68x64x768_S12x64x768_32_0_0).toLoadRect) (W0 x1) (W1 x1) (W2 x1) rfl u p q).trans ?_
    exact slab_conv v x0 x1 32 _ (by omega) _ p q _ (by show 2048 + 1 * p.val = 64 * 32 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![24, 0, 0] S12x64x768.size inb_S68x64x768_S12x64x768_24_0_0).toLoadRect) (W0 x1) (W1 x1) (W2 x1) rfl u p q).trans ?_
    exact slab_conv v x0 x1 24 _ (by omega) _ p q _ (by show 1536 + 1 * p.val = 64 * 24 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![16, 0, 0] S12x64x768.size inb_S68x64x768_S12x64x768_16_0_0).toLoadRect) (W0 x1) (W1 x1) (W2 x1) rfl u p q).trans ?_
    exact slab_conv v x0 x1 16 _ (by omega) _ p q _ (by show 1024 + 1 * p.val = 64 * 16 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![8, 0, 0] S12x64x768.size inb_S68x64x768_S12x64x768_8_0_0).toLoadRect) (W0 x1) (W1 x1) (W2 x1) rfl u p q).trans ?_
    exact slab_conv v x0 x1 8 _ (by omega) _ p q _ (by show 512 + 1 * p.val = 64 * 8 + p.val; omega) (by show 0 + 1 * q.val = q.val; omega)
  · intro x
    obtain ⟨u, p, q, rfl⟩ : ∃ (u : Fin 1) (p : Fin 512) (q : Fin 256), x = ix3 u p q := ⟨x 0, x 1, x 2, eq_ix3 x⟩
    have hp := p.isLt
    refine (piece_apply _ (v.readCov (scr x0) (Rect.unit (s := S68x64x768) ![0, 0, 0] S12x64x768.size inb_S68x64x768_S12x64x768_0_0_0).toLoadRect) (W0 x1) (W1 x1) (W2 x1) rfl u p q).trans ?_
    exact slab_conv v x0 x1 0 _ (by omega) _ p q _ (by show 0 + 1 * p.val = 64 * 0 + p.val; omega) (by show 0 + 1 * q.val = q.val; omega)

end Cert.KernelIdeal.Reg0

end
-- ==== Proof.KReg0d.lean ====
/-
  The first pass's convolution output array after the region.

  The run's stores into the output block are the eight slabs over the scratch loads, so the block the body leaves
  at image t is the convolution of image t's block with the weight matrix at every flat position; the input
  block of point t is image t of the input array and the weight block is the whole weight matrix at every point;
  the eight output blocks are the eight images of the output array. So the array after the region is the
  convolution of the padded input with the weights, position by position.
-/
import proofs.«131269_g2000402634760427_pallasbulk_1319_18_alg».proof.Proof.KReg0c

set_option maxRecDepth 16384

noncomputable section
open Idealize.ShloMosaic Idealize.ShloMosaic.TcCoe Idealize.ShloMosaic.Tactic Idealize.SL.Sem
open Idealize.ShloMosaic.ValueIdx

namespace Cert.KernelIdeal.Reg0
open Cert.KernelIdeal Cert.KernelIdeal.Gen

/-- The run's stores into the output block are the eight slabs over the scratch loads and the weight blocks. -/
theorem run2_eq (c : Dev nD) (i : grid0.Coords) (arg1 : Memref sig .tc .vmem S1x64x64x256 .f32) (harg1 : arg1.IsWhole) (arg2 : Memref sig .tc .vmem S2304x256 .bf16) (harg2 : arg2.IsWhole) (arg3 : Memref sig .tc .vmem S1x4096x256 .bf16) (harg3 : arg3.IsWhole) (arg4 : Memref sig .tc .vmem S1x2x256 .f32) (harg4 : arg4.IsWhole) (arg5 : Memref sig .tc .vmem S68x64x768 .bf16) (harg5 : arg5.IsWhole)
    (x0 : Vec Ideal S1x64x64x256 .f32) (x1 : Vec Ideal S2304x256 .bf16) :
    (kernelRun0_A (F := Ideal) c i arg1 harg1 arg2 harg2 arg3 harg3 arg4 harg4 arg5 harg5 x0 x1).1 = L2 arg5.view x0 x1 := by
  unfold kernelRun0_A
  dsimp only
  sl_unfold_words
  simp only [View.readAt_eq_ld, harg1.read_unread, harg2.read_unread, View.ld_unit_zero (S := S1x64x64x256) hz4]
  rfl

/-- What the run leaves in the output block, at an index: the convolution of the image block there. -/
theorem out2_apply (c : Dev nD) (i : grid0.Coords) (arg1 : Memref sig .tc .vmem S1x64x64x256 .f32) (harg1 : arg1.IsWhole) (arg2 : Memref sig .tc .vmem S2304x256 .bf16) (harg2 : arg2.IsWhole) (arg3 : Memref sig .tc .vmem S1x4096x256 .bf16) (harg3 : arg3.IsWhole) (arg4 : Memref sig .tc .vmem S1x2x256 .f32) (harg4 : arg4.IsWhole) (arg5 : Memref sig .tc .vmem S68x64x768 .bf16) (harg5 : arg5.IsWhole)
    (x0 : Vec Ideal S1x64x64x256 .f32) (x1 : Vec Ideal S2304x256 .bf16) (y : S1x4096x256.Idx) :
    out0_A_2 (F := Ideal) c i arg1 harg1 arg2 harg2 arg3 harg3 arg4 harg4 arg5 harg5 x0 x1 y = G2 x0 x1 y := by
  unfold out0_A_2
  rw [View.read_writes_eq_canon _ _ _ (cover0_A_2 c i arg1 harg1 arg2 harg2 arg3 harg3 arg4 harg4 arg5 harg5 x0 x1)]
  have hc := cover0_A_2 c i arg1 harg1 arg2 harg2 arg3 harg3 arg4 harg4 arg5 harg5 x0 x1 y
  rw [run2_eq] at hc ⊢
  exact View.canon_apply_of_pieces (G2 x0 x1) _ (L2_pieces arg5.view x0 x1) y hc

/-- The padded image block is the padded input array at the block's image. -/
theorem Pd_padded (Xn : Cert.Conv.SX.Idx → EReal) (x0 : S1x64x64x256.Idx → EReal) (n : Fin 8)
    (h0 : ∀ (a b : Fin 64) (ci : Fin 256), x0 (ix4 (0 : Fin 1) a b ci) = Xn (ix4 n a b ci)) (r s : ℕ) (ci : Fin 256) :
    Pd x0 r s ci.val = Cert.Conv.padded Xn n r s ci := by
  unfold Cert.Conv.padded
  by_cases h : (2 ≤ r ∧ r < 66) ∧ (2 ≤ s ∧ s < 66)
  · rw [dif_pos h]
    exact (Pd_in x0 r s ci.val (⟨r - 2, by omega⟩ : Fin 64) (⟨s - 2, by omega⟩ : Fin 64) ci (by show r = r - 2 + 2; omega)
      (by show s = s - 2 + 2; omega) (Nat.mod_eq_of_lt ci.isLt)).trans (h0 _ _ _)
  · rw [dif_neg h]
    exact Pd_out x0 r s _ (by omega)

/-- The block's convolution at flat position P is the array's convolution at row P / 64 and column P mod 64. -/
theorem convB_eq (Xn : Cert.Conv.SX.Idx → EReal) (Wm : Cert.Conv.SW.Idx → EReal) (x0 : S1x64x64x256.Idx → EReal)
    (x1 : S2304x256.Idx → EReal) (n : Fin 8)
    (h0 : ∀ (a b : Fin 64) (ci : Fin 256), x0 (ix4 (0 : Fin 1) a b ci) = Xn (ix4 n a b ci))
    (h1 : ∀ (k : Fin 2304) (q : Fin 256), x1 (ix2 k q) = Wm (ix2 k q))
    (P : Fin 4096) (q : Fin 256) (h w : Fin 64) (hh : h.val = P.val / 64) (hw : w.val = P.val % 64) :
    convB x0 x1 P q = Cert.Conv.conv Xn Wm n h w q := by
  unfold convB Cert.Conv.conv Cert.Conv.convOf Cert.Conv.weight
  refine Finset.sum_congr rfl fun kh _ => Finset.sum_congr rfl fun kw _ => Finset.sum_congr rfl fun ci _ => ?_
  rw [hh, hw]
  exact congrArg₂ (· * ·) (Pd_padded Xn x0 n h0 _ _ ci) (h1 _ _)

/-! ## From the blocks to the array -/

variable (V : (c : Dev nD) → (b : Ref sig .tc) → Buf (Elt Ideal) ((c : Thread nD τ).loc b))

/-- The convolution output array [8,4096,256] as a function of the input array and the weight matrix. -/
def Carr (Xn : Cert.Conv.SX.Idx → EReal) (Wm : Cert.Conv.SW.Idx → EReal) : S8x4096x256.Idx → EReal :=
  fun i => Cert.Conv.conv Xn Wm (i 0)
    (⟨(i 1).val / 64, by have := (show (i 1).val < 4096 from (i 1).isLt); omega⟩ : Fin 64)
    (⟨(i 1).val % 64, Nat.mod_lt _ (by decide)⟩ : Fin 64) (i 2)

/-- The index maps over the grid of eight images: the input block and both output blocks of point t are image t;
    the weight matrix is read whole at every point. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The input block of point t is image t of the input array. -/
theorem iblk_in (c : Dev nD) (t : Fin cfg0.N) (ht : t.val < 8) (a b : Fin 64) (ci : Fin 256) :
    (iblk0 V c 0 t (ix4 (0 : Fin 1) a b ci) : EReal) = (V c main_v0 : Cert.Conv.SX.Idx → EReal) (ix4 (⟨t.val, ht⟩ : Fin 8) a b ci) := by
  obtain ⟨a0, a1, a2, a3, -⟩ := idx_facts t
  show (V c main_v0 : Cert.Conv.SX.Idx → EReal) (((cfg0.win 0).blk t).view.emb (ix4 (0 : Fin 1) a b ci)) = _
  refine congrArg _ (funext fun d => Fin.ext ?_)
  match d with
    | ⟨0, _⟩ => show win0_0.index t (0 : Fin 4) * 1 + 1 * 0 = t.val; omega
    | ⟨1, _⟩ => show win0_0.index t (1 : Fin 4) * 64 + 1 * a.val = a.val; omega
    | ⟨2, _⟩ => show win0_0.index t (2 : Fin 4) * 64 + 1 * b.val = b.val; omega
    | ⟨3, _⟩ => show win0_0.index t (3 : Fin 4) * 256 + 1 * ci.val = ci.val; omega

/-- The weight block of every point is the whole weight matrix. -/
theorem iblk_w (c : Dev nD) (t : Fin cfg0.N) (k : Fin 2304) (q : Fin 256) :
    (iblk0 V c 1 t (ix2 k q) : EReal) = (V c main_v4 : Cert.Conv.SW.Idx → EReal) (ix2 k q) := by
  obtain ⟨-, -, -, -, b0, b1, -⟩ := idx_facts t
  show (V c main_v4 : Cert.Conv.SW.Idx → EReal) (((cfg0.win 1).blk t).view.emb (ix2 k q)) = _
  refine congrArg _ (funext fun d => Fin.ext ?_)
  match d with
    | ⟨0, _⟩ => show win0_1.index t (0 : Fin 2) * 2304 + 1 * k.val = k.val; omega
    | ⟨1, _⟩ => show win0_1.index t (1 : Fin 2) * 256 + 1 * q.val = q.val; omega

/-- What point t writes back to the convolution output is image t of the array function. -/
theorem flushed2_eq (c : Dev nD) (t : Fin cfg0.N) :
    (dat0 V c).flushed 2 t = ((cfg0.win 2).blk t).view.read (Elt Ideal) (Carr (V c main_v0) (V c main_v4)) := by
  show (cfg0.win 2).cut (grid0.coords t) ((dat0 V c).after 2 t) = _
  rw [after0_2]
  unfold outsAt0
  have hX : out0_A_2 (F := Ideal) c (grid0.coords t) (ms0_0 t) (hs0_0 t) (ms0_1 t) (hs0_1 t) (ms0_2 t) (hs0_2 t) (ms0_3 t) (hs0_3 t) scM0_0
      (Memref.isWhole_whole _) (iblk0 V c 0 t) (iblk0 V c 1 t) = G2 (iblk0 V c 0 t) (iblk0 V c 1 t) :=
    funext (out2_apply c (grid0.coords t) (ms0_0 t) (hs0_0 t) (ms0_1 t) (hs0_1 t) (ms0_2 t) (hs0_2 t) (ms0_3 t) (hs0_3 t) scM0_0
      (Memref.isWhole_whole _) (iblk0 V c 0 t) (iblk0 V c 1 t))
  rw [hX]
  obtain ⟨-, -, -, -, -, -, o0, o1, o2, -⟩ := idx_facts t
  have hN : cfg0.N = 8 := N_0
  have ht : t.val < 8 := hN ▸ t.isLt
  funext j
  obtain ⟨u, P, q, rfl⟩ : ∃ (u : Fin 1) (P : Fin 4096) (q : Fin 256), j = ix3 u P q := ⟨j 0, j 1, j 2, eq_ix3 j⟩
  have hP := P.isLt
  have e2 : ((cfg0.win 2).blk t).view.emb (ix3 u P q) = (ix3 (⟨t.val, ht⟩ : Fin 8) P q : S8x4096x256.Idx) := by
    funext d; apply Fin.ext
    have hu : u.val = 0 := by omega
    match d with
    | ⟨0, _⟩ => show win0_2.index t (0 : Fin 3) * 1 + 1 * u.val = t.val; omega
    | ⟨1, _⟩ => show win0_2.index t (1 : Fin 3) * 4096 + 1 * P.val = P.val; omega
    | ⟨2, _⟩ => show win0_2.index t (2 : Fin 3) * 256 + 1 * q.val = q.val; omega
  show convB (iblk0 V c 0 t) (iblk0 V c 1 t) P q
    = Carr (V c main_v0) (V c main_v4) (((cfg0.win 2).blk t).view.emb (ix3 u P q))
  rw [e2]
  exact convB_eq (V c main_v0) (V c main_v4) (iblk0 V c 0 t) (iblk0 V c 1 t) (⟨t.val, ht⟩ : Fin 8)
    (iblk_in V c t ht) (iblk_w V c t) P q _ _ rfl rfl

/-- An index of the array is in point t's block iff its image coordinate is t. -/
theorem mem_blk2 (t : Fin cfg0.N) (i : S8x4096x256.Idx) :
    i ∈ ((cfg0.win 2).blk t).view.set ↔ ∀ a : Fin 3, win0_2.index t a * S1x4096x256.size a ≤ (i a).val ∧ (i a).val < win0_2.index t a * S1x4096x256.size a + S1x4096x256.size a := by
  show i ∈ ((View.whole main_v5_0).slice (win0_2.rect t)).set ↔ _
  rw [View.set_slice_whole, Rect.mem_set_unit]
  exact Iff.rfl

/-- Every index of the convolution output lies in the block of the point that is its image. -/
theorem cover2 (i : S8x4096x256.Idx) : ∃ t : Fin cfg0.N, (cfg0.win 2).flush t = true ∧ i ∈ ((cfg0.win 2).blk t).view.set := by
  have hN : cfg0.N = 8 := N_0
  have hi0 : (i 0).val < 8 := (i 0).isLt
  have hi1 : (i 1).val < 4096 := (i 1).isLt
  have hi2 : (i 2).val < 256 := (i 2).isLt
  have hlt : (i 0).val < cfg0.N := by omega
  refine ⟨⟨(i 0).val, hlt⟩, flush0_2 _, ?_⟩
  rw [mem_blk2]
  obtain ⟨-, -, -, -, -, -, o0, o1, o2, -⟩ := idx_facts ⟨(i 0).val, hlt⟩
  have o0' : win0_2.index ⟨(i 0).val, hlt⟩ (0 : Fin 3) = (i 0).val := o0
  intro a
  match a with
  | ⟨0, _⟩ => show win0_2.index _ (0 : Fin 3) * 1 ≤ (i 0).val ∧ (i 0).val < win0_2.index _ (0 : Fin 3) * 1 + 1; rw [o0']; omega
  | ⟨1, _⟩ => show win0_2.index _ (1 : Fin 3) * 4096 ≤ (i 1).val ∧ (i 1).val < win0_2.index _ (1 : Fin 3) * 4096 + 4096; rw [o1]; omega
  | ⟨2, _⟩ => show win0_2.index _ (2 : Fin 3) * 256 ≤ (i 2).val ∧ (i 2).val < win0_2.index _ (2 : Fin 3) * 256 + 256; rw [o2]; omega

/-- The convolution output array after the region, from the input array and the weight matrix. -/
theorem final2 (c : Dev nD) :
    (dat0 V c).arrAt 2 cfg0.N = Carr (V c main_v0) (V c main_v4) :=
  (dat0 V c).arrAt_eq_of_cover 2 _ (fun t _ => flushed2_eq V c t) cover2

/-- The convolution output after the region, at image n, row h, column w and channel q. -/
theorem conv_final (c : Dev nD) (n : Fin 8) (h w : Fin 64) (q : Fin 256) :
    ((dat0 V c).arrAt 2 cfg0.N : S8x4096x256.Idx → EReal) (ix3 n (⟨64 * h.val + w.val, by omega⟩ : Fin 4096) q)
      = Cert.Conv.conv (V c main_v0) (V c main_v4) n h w q := by
  rw [final2]
  have hh := h.isLt
  have hw := w.isLt
  show Cert.Conv.conv (V c main_v0) (V c main_v4) n (⟨(64 * h.val + w.val) / 64, _⟩ : Fin 64) (⟨(64 * h.val + w.val) % 64, _⟩ : Fin 64) q = _
  exact congrArg₂ (fun a b => Cert.Conv.conv (V c main_v0) (V c main_v4) n a b q)
    (Fin.ext (by show (64 * h.val + w.val) / 64 = h.val; omega)) (Fin.ext (by show (64 * h.val + w.val) % 64 = w.val; omega))

end Cert.KernelIdeal.Reg0

end
-- ==== Proof.KReg0e.lean ====
/-
  The first pass's per-image statistics as sums of the convolution over the image.

  After each row slab the body adds to two running rows [1,256] the slab's column sums and the column sums of
  its squares, starting from zero, and finally stores the two rows as [1,2,256]. With slab s at position p the
  convolution at flat position 512 s + p, row 0 is the sum over the 4096 positions of the convolution and row 1
  the sum of its squares, whatever the grouping: eight slabs of 512 positions, or 64 rows of 64 columns.
-/
import proofs.«131269_g2000402634760427_pallasbulk_1319_18_alg».proof.Proof.KReg0c

set_option maxRecDepth 16384

noncomputable section
open Idealize.ShloMosaic Idealize.ShloMosaic.TcCoe Idealize.ShloMosaic.Tactic Idealize.SL.Sem
open Idealize.ShloMosaic.ValueIdx

namespace Cert.KernelIdeal.Reg0
open Cert.KernelIdeal Cert.KernelIdeal.Gen

/-- The column sums of a slab value as a row [1,256], and of its squares. -/
def cs1 (v : FVec Ideal S512x256 .f32) : FVec Ideal S1x256 .f32 :=
  shapeCast S1x256 (multiReduction .add [0] S256 v 0x00000000#32 reduces_S512x256_S256 (.inl rfl) rfl) shapeCasts_S256_S1x256
def cs2 (v : FVec Ideal S512x256 .f32) : FVec Ideal S1x256 .f32 := cs1 (mulf v v)

/-- The zero row the running sums start from. -/
def zrow : FVec Ideal S1x256 .f32 := broadcast S1x256 (Scalar.ofBits .f32 0x00000000#32)

/-- The running sum after the eight slabs. -/
def acc8 (f : FVec Ideal S512x256 .f32 → FVec Ideal S1x256 .f32) (v0 v1 v2 v3 v4 v5 v6 v7 : FVec Ideal S512x256 .f32) : FVec Ideal S1x256 .f32 :=
  addf (addf (addf (addf (addf (addf (addf (addf zrow (f v0)) (f v1)) (f v2)) (f v3)) (f v4)) (f v5)) (f v6)) (f v7)

/-- The stored statistics block over the eight slab values. -/
def statsOf (v0 v1 v2 v3 v4 v5 v6 v7 : FVec Ideal S512x256 .f32) : FVec Ideal S1x2x256 .f32 :=
  shapeCast S1x2x256 (concatenate S2x256 0 [⟨S1x256, acc8 cs1 v0 v1 v2 v3 v4 v5 v6 v7⟩, ⟨S1x256, acc8 cs2 v0 v1 v2 v3 v4 v5 v6 v7⟩]
    concatenates_S1x256_S1x256_S2x256_d0) shapeCasts_S2x256_S1x2x256

/-- The printed chain of running sums over the eight scratch slabs is the statistics block of the eight slab values. -/
theorem stats_eq (A0 A1 A2 A3 A4 A5 A6 A7 : FVec Ideal S12x64x768 .bf16) (w0 w1 w2 : FVec Ideal S768x256 .bf16) :
    k0_pay1 (F := Ideal) (k0_pay49 (k0_pay44 (k0_pay40 (k0_pay30 (k0_pay23 (k0_pay17 (k0_pay13 A0 w0 w1 w2) A1 w0 w1 w2) A2 k0_pay20 (k0_pay21 A2) w0 w1 w2) A3 (k0_pay26 A3 w0) (k0_pay27 A3) (k0_pay28 w1) w2) (k0_pay33 A4 w0 w1) (k0_pay34 A4) (k0_pay35 w2) (constant S512x256 .f32 0x00000000#32) A5 w0 w1 w2) A6 w0 w1 w2) (k0_pay45 (k0_pay37 (k0_pay31 (k0_pay24 (k0_pay18 (k0_pay14 A0 w0 w1 w2) A1 w0 w1 w2) A2 k0_pay20 (k0_pay21 A2) w0 w1 w2) A3 (k0_pay26 A3 w0) (k0_pay27 A3) (k0_pay28 w1) w2) (k0_pay33 A4 w0 w1) (k0_pay34 A4) (k0_pay35 w2) (constant S512x256 .f32 0x00000000#32)) (k0_pay41 A5 w0 w1 w2) A6 w0 w1 w2) A7 w0 w1 w2)
      = statsOf (k0_pay12 A0 w0 w1 w2) (k0_pay12 A1 w0 w1 w2) (k0_pay12 A2 w0 w1 w2) (k0_pay12 A3 w0 w1 w2) (k0_pay12 A4 w0 w1 w2) (k0_pay12 A5 w0 w1 w2) (k0_pay12 A6 w0 w1 w2) (k0_pay12 A7 w0 w1 w2) := rfl

/-- The column sum over the 512 positions of a slab value. -/
theorem colSum_apply (x : FVec Ideal S512x256 .f32) (hφ : FKind.Formats .f32)
    (hacc : (0x00000000#32 : BitVec 32) = FKind.add.neutral .f32 hφ) (q : Fin 256) :
    multiReduction .add [0] S256 x 0x00000000#32 reduces_S512x256_S256 hφ hacc (ix1 q) = ∑ p : Fin 512, x (ix2 p q) := by
  refine (Ideal.multiReduction_add_single x 0x00000000#32 reduces_S512x256_S256 hφ hacc (ix1 q)).trans ?_
  refine Finset.sum_congr rfl fun p _ => congrArg x (funext fun a => ?_)
  match a with
  | ⟨0, _⟩ => rfl
  | ⟨1, _⟩ => rfl

theorem cs1_apply (x : FVec Ideal S512x256 .f32) (u : Fin 1) (q : Fin 256) : cs1 x (ix2 u q) = ∑ p : Fin 512, x (ix2 p q) := by
  unfold cs1
  refine (shapeCast_a_1a_apply _ _ u q).trans ?_
  exact colSum_apply x (.inl rfl) rfl q

theorem cs2_apply (x : FVec Ideal S512x256 .f32) (u : Fin 1) (q : Fin 256) :
    cs2 x (ix2 u q) = ∑ p : Fin 512, x (ix2 p q) * x (ix2 p q) := by
  unfold cs2
  exact cs1_apply (mulf x x) u q

/-- The running sum at a channel: the eight slab terms added in order, from zero. -/
theorem acc8_apply (f : FVec Ideal S512x256 .f32 → FVec Ideal S1x256 .f32) (v0 v1 v2 v3 v4 v5 v6 v7 : FVec Ideal S512x256 .f32)
    (u : Fin 1) (q : Fin 256) :
    acc8 f v0 v1 v2 v3 v4 v5 v6 v7 (ix2 u q)
      = f v0 (ix2 u q) + f v1 (ix2 u q) + f v2 (ix2 u q) + f v3 (ix2 u q) + f v4 (ix2 u q) + f v5 (ix2 u q) + f v6 (ix2 u q) + f v7 (ix2 u q) := by
  have hz : zrow (ix2 u q) = 0 := Ideal.ofBits_zero_f32
  unfold acc8
  simp only [addf_apply]
  rw [hz, zero_add]

/-- The statistics block at row 0 and row 1. -/
theorem statsOf_apply0 (v0 v1 v2 v3 v4 v5 v6 v7 : FVec Ideal S512x256 .f32) (u : Fin 1) (q : Fin 256) :
    statsOf v0 v1 v2 v3 v4 v5 v6 v7 (ix3 u (0 : Fin 2) q) = acc8 cs1 v0 v1 v2 v3 v4 v5 v6 v7 (ix2 (0 : Fin 1) q) := by
  unfold statsOf
  refine (shapeCast_ab_1ab_apply _ _ u (0 : Fin 2) q).trans ?_
  exact concatenate_pair_apply_left 0 _ _ concatenates_S1x256_S1x256_S2x256_d0 (ix2 (0 : Fin 2) q) rfl (ix2 (0 : Fin 1) q)
    (fun b => by
      match b with
      | ⟨0, _⟩ => rfl
      | ⟨1, _⟩ => rfl)
theorem statsOf_apply1 (v0 v1 v2 v3 v4 v5 v6 v7 : FVec Ideal S512x256 .f32) (u : Fin 1) (q : Fin 256) :
    statsOf v0 v1 v2 v3 v4 v5 v6 v7 (ix3 u (1 : Fin 2) q) = acc8 cs2 v0 v1 v2 v3 v4 v5 v6 v7 (ix2 (0 : Fin 1) q) := by
  unfold statsOf
  refine (shapeCast_ab_1ab_apply _ _ u (1 : Fin 2) q).trans ?_
  exact concatenate_pair_apply_right 0 _ _ concatenates_S1x256_S1x256_S2x256_d0 (ix2 (1 : Fin 2) q) rfl rfl (ix2 (0 : Fin 1) q)
    (fun b hb => by
      match b with
      | ⟨0, _⟩ => exact absurd rfl hb
      | ⟨1, _⟩ => rfl)
    (by show 0 + 1 = 1; rfl)

/-- A sum over the 4096 flat positions, slab by slab and row by row. -/
theorem sum4096_slabs (g : Fin 4096 → EReal) :
    ∑ P : Fin 4096, g P = ∑ s : Fin 8, ∑ p : Fin 512, g (⟨512 * s.val + p.val, by omega⟩ : Fin 4096) := by
  show ∑ k : Fin (8 * 512), g k = _
  rw [← (finProdFinEquiv (m := 8) (n := 512)).sum_comp g, Fintype.sum_prod_type]
  refine Finset.sum_congr rfl fun s _ => Finset.sum_congr rfl fun p _ => congrArg g (Fin.ext ?_)
  show p.val + 512 * s.val = 512 * s.val + p.val
  omega
theorem sum4096_hw (g : Fin 4096 → EReal) :
    ∑ P : Fin 4096, g P = ∑ h : Fin 64, ∑ w : Fin 64, g (⟨64 * h.val + w.val, by omega⟩ : Fin 4096) := by
  show ∑ k : Fin (64 * 64), g k = _
  rw [← (finProdFinEquiv (m := 64) (n := 64)).sum_comp g, Fintype.sum_prod_type]
  refine Finset.sum_congr rfl fun h _ => Finset.sum_congr rfl fun w _ => congrArg g (Fin.ext ?_)
  show w.val + 64 * h.val = 64 * h.val + w.val
  omega

/-- A slab value over the scratch rows r onward is the convolution at flat position 64 r + p. -/
theorem sv_conv {sig : RefSig} {κ : Kind} {sp : Space} (v : View sig κ sp S68x64x768 .bf16) (x0 : FVec Ideal S1x64x64x256 .f32)
    (x1 : FVec Ideal S2304x256 .bf16) (r : ℕ) (inb : ∀ a, ![r, 0, 0] a + S12x64x768.size a ≤ S68x64x768.size a) (hr : r + 12 ≤ 68)
    (P : Fin 4096) (p : Fin 512) (q : Fin 256) (hP : P.val = 64 * r + p.val) :
    k0_pay12 (F := Ideal) (v.readCov (scr x0) (Rect.unit (s := S68x64x768) ![r, 0, 0] S12x64x768.size inb).toLoadRect) (W0 x1) (W1 x1) (W2 x1) (ix2 p q)
      = convB x0 x1 P q :=
  (slab_apply _ _ _ _ p q).trans (slab_conv v x0 x1 r inb hr P p q q hP rfl)

/-- The stored statistics block over the scratch loads and the weight blocks, as the body prints it. -/
def P3 {sig : RefSig} {κ : Kind} {sp : Space} (v : View sig κ sp S68x64x768 .bf16) (x0 : FVec Ideal S1x64x64x256 .f32)
    (x1 : FVec Ideal S2304x256 .bf16) : FVec Ideal S1x2x256 .f32 :=
  k0_pay1 (F := Ideal) (k0_pay49 (k0_pay44 (k0_pay40 (k0_pay30 (k0_pay23 (k0_pay17 (k0_pay13 (v.readCov (scr x0) (Rect.unit (s := S68x64x768) ![0, 0, 0] S12x64x768.size inb_S68x64x768_S12x64x768_0_0_0).toLoadRect) (W0 x1) (W1 x1) (W2 x1)) (v.readCov (scr x0) (Rect.unit (s := S68x64x768) ![8, 0, 0] S12x64x768.size inb_S68x64x768_S12x64x768_8_0_0).toLoadRect) (W0 x1) (W1 x1) (W2 x1)) (v.readCov (scr x0) (Rect.unit (s := S68x64x768) ![16, 0, 0] S12x64x768.size inb_S68x64x768_S12x64x768_16_0_0).toLoadRect) k0_pay20 (k0_pay21 (v.readCov (scr x0) (Rect.unit (s := S68x64x768) ![16, 0, 0] S12x64x768.size inb_S68x64x768_S12x64x768_16_0_0).toLoadRect)) (W0 x1) (W1 x1) (W2 x1)) (v.readCov (scr x0) (Rect.unit (s := S68x64x768) ![24, 0, 0] S12x64x768.size inb_S68x64x768_S12x64x768_24_0_0).toLoadRect) (k0_pay26 (v.readCov (scr x0) (Rect.unit (s := S68x64x768) ![24, 0, 0] S12x64x768.size inb_S68x64x768_S12x64x768_24_0_0).toLoadRect) (W0 x1)) (k0_pay27 (v.readCov (scr x0) (Rect.unit (s := S68x64x768) ![24, 0, 0] S12x64x768.size inb_S68x64x768_S12x64x768_24_0_0).toLoadRect)) (k0_pay28 (W1 x1)) (W2 x1)) (k0_pay33 (v.readCov (scr x0) (Rect.unit (s := S68x64x768) ![32, 0, 0] S12x64x768.size inb_S68x64x768_S12x64x768_32_0_0).toLoadRect) (W0 x1) (W1 x1)) (k0_pay34 (v.readCov (scr x0) (Rect.unit (s := S68x64x768) ![32, 0, 0] S12x64x768.size inb_S68x64x768_S12x64x768_32_0_0).toLoadRect)) (k0_pay35 (W2 x1)) (constant S512x256 .f32 0x00000000#32) (v.readCov (scr x0) (Rect.unit (s := S68x64x768) ![40, 0, 0] S12x64x768.size inb_S68x64x768_S12x64x768_40_0_0).toLoadRect) (W0 x1) (W1 x1) (W2 x1)) (v.readCov (scr x0) (Rect.unit (s := S68x64x768) ![48, 0, 0] S12x64x768.size inb_S68x64x768_S12x64x768_48_0_0).toLoadRect) (W0 x1) (W1 x1) (W2 x1)) (k0_pay45 (k0_pay37 (k0_pay31 (k0_pay24 (k0_pay18 (k0_pay14 (v.readCov (scr x0) (Rect.unit (s := S68x64x768) ![0, 0, 0] S12x64x768.size inb_S68x64x768_S12x64x768_0_0_0).toLoadRect) (W0 x1) (W1 x1) (W2 x1)) (v.readCov (scr x0) (Rect.unit (s := S68x64x768) ![8, 0, 0] S12x64x768.size inb_S68x64x768_S12x64x768_8_0_0).toLoadRect) (W0 x1) (W1 x1) (W2 x1)) (v.readCov (scr x0) (Rect.unit (s := S68x64x768) ![16, 0, 0] S12x64x768.size inb_S68x64x768_S12x64x768_16_0_0).toLoadRect) k0_pay20 (k0_pay21 (v.readCov (scr x0) (Rect.unit (s := S68x64x768) ![16, 0, 0] S12x64x768.size inb_S68x64x768_S12x64x768_16_0_0).toLoadRect)) (W0 x1) (W1 x1) (W2 x1)) (v.readCov (scr x0) (Rect.unit (s := S68x64x768) ![24, 0, 0] S12x64x768.size inb_S68x64x768_S12x64x768_24_0_0).toLoadRect) (k0_pay26 (v.readCov (scr x0) (Rect.unit (s := S68x64x768) ![24, 0, 0] S12x64x768.size inb_S68x64x768_S12x64x768_24_0_0).toLoadRect) (W0 x1)) (k0_pay27 (v.readCov (scr x0) (Rect.unit (s := S68x64x768) ![24, 0, 0] S12x64x768.size inb_S68x64x768_S12x64x768_24_0_0).toLoadRect)) (k0_pay28 (W1 x1)) (W2 x1)) (k0_pay33 (v.readCov (scr x0) (Rect.unit (s := S68x64x768) ![32, 0, 0] S12x64x768.size inb_S68x64x768_S12x64x768_32_0_0).toLoadRect) (W0 x1) (W1 x1)) (k0_pay34 (v.readCov (scr x0) (Rect.unit (s := S68x64x768) ![32, 0, 0] S12x64x768.size inb_S68x64x768_S12x64x768_32_0_0).toLoadRect)) (k0_pay35 (W2 x1)) (constant S512x256 .f32 0x00000000#32)) (k0_pay41 (v.readCov (scr x0) (Rect.unit (s := S68x64x768) ![40, 0, 0] S12x64x768.size inb_S68x64x768_S12x64x768_40_0_0).toLoadRect) (W0 x1) (W1 x1) (W2 x1)) (v.readCov (scr x0) (Rect.unit (s := S68x64x768) ![48, 0, 0] S12x64x768.size inb_S68x64x768_S12x64x768_48_0_0).toLoadRect) (W0 x1) (W1 x1) (W2 x1)) (v.readCov (scr x0) (Rect.unit (s := S68x64x768) ![56, 0, 0] S12x64x768.size inb_S68x64x768_S12x64x768_56_0_0).toLoadRect) (W0 x1) (W1 x1) (W2 x1))

/-- Row 0 of the statistics block is the sum of the block's convolution over the 4096 positions; row 1 the sum of its squares. -/
theorem P3_apply0 {sig : RefSig} {κ : Kind} {sp : Space} (v : View sig κ sp S68x64x768 .bf16) (x0 : FVec Ideal S1x64x64x256 .f32)
    (x1 : FVec Ideal S2304x256 .bf16) (u : Fin 1) (q : Fin 256) :
    P3 v x0 x1 (ix3 u (0 : Fin 2) q) = ∑ P : Fin 4096, convB x0 x1 P q := by
  unfold P3
  rw [stats_eq, statsOf_apply0, acc8_apply, sum4096_slabs, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact (cs1_apply _ _ q).trans (Finset.sum_congr rfl fun p _ =>
      sv_conv v x0 x1 0 _ (by omega) _ p q (by show 512 * 0 + p.val = 64 * 0 + p.val; omega))
  · exact (cs1_apply _ _ q).trans (Finset.sum_congr rfl fun p _ =>
      sv_conv v x0 x1 8 _ (by omega) _ p q (by show 512 * 1 + p.val = 64 * 8 + p.val; omega))
  · exact (cs1_apply _ _ q).trans (Finset.sum_congr rfl fun p _ =>
      sv_conv v x0 x1 16 _ (by omega) _ p q (by show 512 * 2 + p.val = 64 * 16 + p.val; omega))
  · exact (cs1_apply _ _ q).trans (Finset.sum_congr rfl fun p _ =>
      sv_conv v x0 x1 24 _ (by omega) _ p q (by show 512 * 3 + p.val = 64 * 24 + p.val; omega))
  · exact (cs1_apply _ _ q).trans (Finset.sum_congr rfl fun p _ =>
      sv_conv v x0 x1 32 _ (by omega) _ p q (by show 512 * 4 + p.val = 64 * 32 + p.val; omega))
  · exact (cs1_apply _ _ q).trans (Finset.sum_congr rfl fun p _ =>
      sv_conv v x0 x1 40 _ (by omega) _ p q (by show 512 * 5 + p.val = 64 * 40 + p.val; omega))
  · exact (cs1_apply _ _ q).trans (Finset.sum_congr rfl fun p _ =>
      sv_conv v x0 x1 48 _ (by omega) _ p q (by show 512 * 6 + p.val = 64 * 48 + p.val; omega))
  · exact (cs1_apply _ _ q).trans (Finset.sum_congr rfl fun p _ =>
      sv_conv v x0 x1 56 _ (by omega) _ p q (by show 512 * 7 + p.val = 64 * 56 + p.val; omega))
theorem P3_apply1 {sig : RefSig} {κ : Kind} {sp : Space} (v : View sig κ sp S68x64x768 .bf16) (x0 : FVec Ideal S1x64x64x256 .f32)
    (x1 : FVec Ideal S2304x256 .bf16) (u : Fin 1) (q : Fin 256) :
    P3 v x0 x1 (ix3 u (1 : Fin 2) q) = ∑ P : Fin 4096, convB x0 x1 P q * convB x0 x1 P q := by
  unfold P3
  rw [stats_eq, statsOf_apply1, acc8_apply, sum4096_slabs (fun P => convB x0 x1 P q * convB x0 x1 P q), Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact (cs2_apply _ _ q).trans (Finset.sum_congr rfl fun p _ =>
      congrArg₂ (· * ·) (sv_conv v x0 x1 0 _ (by omega) _ p q (by show 512 * 0 + p.val = 64 * 0 + p.val; omega))
        (sv_conv v x0 x1 0 _ (by omega) _ p q (by show 512 * 0 + p.val = 64 * 0 + p.val; omega)))
  · exact (cs2_apply _ _ q).trans (Finset.sum_congr rfl fun p _ =>
      congrArg₂ (· * ·) (sv_conv v x0 x1 8 _ (by omega) _ p q (by show 512 * 1 + p.val = 64 * 8 + p.val; omega))
        (sv_conv v x0 x1 8 _ (by omega) _ p q (by show 512 * 1 + p.val = 64 * 8 + p.val; omega)))
  · exact (cs2_apply _ _ q).trans (Finset.sum_congr rfl fun p _ =>
      congrArg₂ (· * ·) (sv_conv v x0 x1 16 _ (by omega) _ p q (by show 512 * 2 + p.val = 64 * 16 + p.val; omega))
        (sv_conv v x0 x1 16 _ (by omega) _ p q (by show 512 * 2 + p.val = 64 * 16 + p.val; omega)))
  · exact (cs2_apply _ _ q).trans (Finset.sum_congr rfl fun p _ =>
      congrArg₂ (· * ·) (sv_conv v x0 x1 24 _ (by omega) _ p q (by show 512 * 3 + p.val = 64 * 24 + p.val; omega))
        (sv_conv v x0 x1 24 _ (by omega) _ p q (by show 512 * 3 + p.val = 64 * 24 + p.val; omega)))
  · exact (cs2_apply _ _ q).trans (Finset.sum_congr rfl fun p _ =>
      congrArg₂ (· * ·) (sv_conv v x0 x1 32 _ (by omega) _ p q (by show 512 * 4 + p.val = 64 * 32 + p.val; omega))
        (sv_conv v x0 x1 32 _ (by omega) _ p q (by show 512 * 4 + p.val = 64 * 32 + p.val; omega)))
  · exact (cs2_apply _ _ q).trans (Finset.sum_congr rfl fun p _ =>
      congrArg₂ (· * ·) (sv_conv v x0 x1 40 _ (by omega) _ p q (by show 512 * 5 + p.val = 64 * 40 + p.val; omega))
        (sv_conv v x0 x1 40 _ (by omega) _ p q (by show 512 * 5 + p.val = 64 * 40 + p.val; omega)))
  · exact (cs2_apply _ _ q).trans (Finset.sum_congr rfl fun p _ =>
      congrArg₂ (· * ·) (sv_conv v x0 x1 48 _ (by omega) _ p q (by show 512 * 6 + p.val = 64 * 48 + p.val; omega))
        (sv_conv v x0 x1 48 _ (by omega) _ p q (by show 512 * 6 + p.val = 64 * 48 + p.val; omega)))
  · exact (cs2_apply _ _ q).trans (Finset.sum_congr rfl fun p _ =>
      congrArg₂ (· * ·) (sv_conv v x0 x1 56 _ (by omega) _ p q (by show 512 * 7 + p.val = 64 * 56 + p.val; omega))
        (sv_conv v x0 x1 56 _ (by omega) _ p q (by show 512 * 7 + p.val = 64 * 56 + p.val; omega)))

end Cert.KernelIdeal.Reg0

end
-- ==== Proof.KReg0f.lean ====
/-
  The first pass's statistics array after the region.

  The run's one store into the statistics block is the two running rows over the eight scratch slabs, so at
  image t the block holds, per channel, the sum of image t's convolution over its 4096 positions and the sum of
  its squares; grouped by rows and columns these are the batch statistics of the convolution. The eight blocks are
  the eight images of the statistics array.
-/
import proofs.«131269_g2000402634760427_pallasbulk_1319_18_alg».proof.Proof.KReg0d
import proofs.«131269_g2000402634760427_pallasbulk_1319_18_alg».proof.Proof.KReg0e

set_option maxRecDepth 16384

noncomputable section
open Idealize.ShloMosaic Idealize.ShloMosaic.TcCoe Idealize.ShloMosaic.Tactic Idealize.SL.Sem
open Idealize.ShloMosaic.ValueIdx

namespace Cert.KernelIdeal.Reg0
open Cert.KernelIdeal Cert.KernelIdeal.Gen

/-- The run's one store into the statistics block is the printed chain over the scratch loads and the weight blocks. -/
theorem run3_eq (c : Dev nD) (i : grid0.Coords) (arg1 : Memref sig .tc .vmem S1x64x64x256 .f32) (harg1 : arg1.IsWhole) (arg2 : Memref sig .tc .vmem S2304x256 .bf16) (harg2 : arg2.IsWhole) (arg3 : Memref sig .tc .vmem S1x4096x256 .bf16) (harg3 : arg3.IsWhole) (arg4 : Memref sig .tc .vmem S1x2x256 .f32) (harg4 : arg4.IsWhole) (arg5 : Memref sig .tc .vmem S68x64x768 .bf16) (harg5 : arg5.IsWhole)
    (x0 : Vec Ideal S1x64x64x256 .f32) (x1 : Vec Ideal S2304x256 .bf16) :
    (kernelRun0_A (F := Ideal) c i arg1 harg1 arg2 harg2 arg3 harg3 arg4 harg4 arg5 harg5 x0 x1).2.1
      = [⟨Rect.unit (s := S1x2x256) ![0, 0, 0] S1x2x256.size inb_S1x2x256_S1x2x256_0_0_0, P3 arg5.view x0 x1⟩] := by
  unfold kernelRun0_A
  dsimp only
  sl_unfold_words
  simp only [View.readAt_eq_ld, harg1.read_unread, harg2.read_unread, View.ld_unit_zero (S := S1x64x64x256) hz4]
  rfl

/-- What the run leaves in the statistics block. -/
theorem out3_eq (c : Dev nD) (i : grid0.Coords) (arg1 : Memref sig .tc .vmem S1x64x64x256 .f32) (harg1 : arg1.IsWhole) (arg2 : Memref sig .tc .vmem S2304x256 .bf16) (harg2 : arg2.IsWhole) (arg3 : Memref sig .tc .vmem S1x4096x256 .bf16) (harg3 : arg3.IsWhole) (arg4 : Memref sig .tc .vmem S1x2x256 .f32) (harg4 : arg4.IsWhole) (arg5 : Memref sig .tc .vmem S68x64x768 .bf16) (harg5 : arg5.IsWhole)
    (x0 : Vec Ideal S1x64x64x256 .f32) (x1 : Vec Ideal S2304x256 .bf16) :
    out0_A_3 (F := Ideal) c i arg1 harg1 arg2 harg2 arg3 harg3 arg4 harg4 arg5 harg5 x0 x1 = P3 arg5.view x0 x1 := by
  unfold out0_A_3
  rw [View.read_writes_eq_canon _ _ _ (cover0_A_3 c i arg1 harg1 arg2 harg2 arg3 harg3 arg4 harg4 arg5 harg5 x0 x1), run3_eq]
  exact View.canon_unit_zero hz3 _ _

/-- The block's sums over the 4096 positions are the image's batch statistics. -/
theorem sumB1 (Xn : Cert.Conv.SX.Idx → EReal) (Wm : Cert.Conv.SW.Idx → EReal) (x0 : S1x64x64x256.Idx → EReal)
    (x1 : S2304x256.Idx → EReal) (n : Fin 8)
    (h0 : ∀ (a b : Fin 64) (ci : Fin 256), x0 (ix4 (0 : Fin 1) a b ci) = Xn (ix4 n a b ci))
    (h1 : ∀ (k : Fin 2304) (q : Fin 256), x1 (ix2 k q) = Wm (ix2 k q)) (q : Fin 256) :
    ∑ P : Fin 4096, convB x0 x1 P q = Cert.Conv.sum1 (Cert.Conv.conv Xn Wm) n q := by
  unfold Cert.Conv.sum1
  rw [sum4096_hw]
  refine Finset.sum_congr rfl fun h _ => Finset.sum_congr rfl fun w _ => ?_
  have hh := h.isLt
  have hw := w.isLt
  exact convB_eq Xn Wm x0 x1 n h0 h1 _ q h w (by show h.val = (64 * h.val + w.val) / 64; omega)
    (by show w.val = (64 * h.val + w.val) % 64; omega)
theorem sumB2 (Xn : Cert.Conv.SX.Idx → EReal) (Wm : Cert.Conv.SW.Idx → EReal) (x0 : S1x64x64x256.Idx → EReal)
    (x1 : S2304x256.Idx → EReal) (n : Fin 8)
    (h0 : ∀ (a b : Fin 64) (ci : Fin 256), x0 (ix4 (0 : Fin 1) a b ci) = Xn (ix4 n a b ci))
    (h1 : ∀ (k : Fin 2304) (q : Fin 256), x1 (ix2 k q) = Wm (ix2 k q)) (q : Fin 256) :
    ∑ P : Fin 4096, convB x0 x1 P q * convB x0 x1 P q = Cert.Conv.sum2 (Cert.Conv.conv Xn Wm) n q := by
  unfold Cert.Conv.sum2
  rw [sum4096_hw]
  refine Finset.sum_congr rfl fun h _ => Finset.sum_congr rfl fun w _ => ?_
  have hh := h.isLt
  have hw := w.isLt
  have e := convB_eq Xn Wm x0 x1 n h0 h1 (⟨64 * h.val + w.val, by omega⟩ : Fin 4096) q h w (by show h.val = (64 * h.val + w.val) / 64; omega)
    (by show w.val = (64 * h.val + w.val) % 64; omega)
  exact congrArg₂ (· * ·) e e

/-! ## From the blocks to the array -/

variable (V : (c : Dev nD) → (b : Ref sig .tc) → Buf (Elt Ideal) ((c : Thread nD τ).loc b))

/-- The statistics array [8,2,256] as a function of the input array and the weight matrix: row 0 the sums of the
    convolution over an image, row 1 the sums of its squares. -/
def Sarr (Xn : Cert.Conv.SX.Idx → EReal) (Wm : Cert.Conv.SW.Idx → EReal) : S8x2x256.Idx → EReal :=
  fun i => match (i 1 : Fin 2) with
    | ⟨0, _⟩ => Cert.Conv.sum1 (Cert.Conv.conv Xn Wm) (i 0) (i 2)
    | ⟨_ + 1, _⟩ => Cert.Conv.sum2 (Cert.Conv.conv Xn Wm) (i 0) (i 2)

/-- What point t writes back to the statistics array is image t of the array function. -/
theorem flushed3_eq (c : Dev nD) (t : Fin cfg0.N) :
    (dat0 V c).flushed 3 t = ((cfg0.win 3).blk t).view.read (Elt Ideal) (Sarr (V c main_v0) (V c main_v4)) := by
  show (cfg0.win 3).cut (grid0.coords t) ((dat0 V c).after 3 t) = _
  rw [after0_3]
  unfold outsAt0
  have hX : out0_A_3 (F := Ideal) c (grid0.coords t) (ms0_0 t) (hs0_0 t) (ms0_1 t) (hs0_1 t) (ms0_2 t) (hs0_2 t) (ms0_3 t) (hs0_3 t) scM0_0
      (Memref.isWhole_whole _) (iblk0 V c 0 t) (iblk0 V c 1 t) = P3 scM0_0.view (iblk0 V c 0 t) (iblk0 V c 1 t) :=
    out3_eq c (grid0.coords t) (ms0_0 t) (hs0_0 t) (ms0_1 t) (hs0_1 t) (ms0_2 t) (hs0_2 t) (ms0_3 t) (hs0_3 t) scM0_0
      (Memref.isWhole_whole _) (iblk0 V c 0 t) (iblk0 V c 1 t)
  rw [hX]
  obtain ⟨-, -, -, -, -, -, -, -, -, s0, s1, s2⟩ := idx_facts t
  have hN : cfg0.N = 8 := N_0
  have ht : t.val < 8 := hN ▸ t.isLt
  funext j
  obtain ⟨u, r, q, rfl⟩ : ∃ (u : Fin 1) (r : Fin 2) (q : Fin 256), j = ix3 u r q := ⟨j 0, j 1, j 2, eq_ix3 j⟩
  have e3 : ((cfg0.win 3).blk t).view.emb (ix3 u r q) = (ix3 (⟨t.val, ht⟩ : Fin 8) r q : S8x2x256.Idx) := by
    funext d; apply Fin.ext
    have hu : u.val = 0 := by omega
    match d with
    | ⟨0, _⟩ => show win0_3.index t (0 : Fin 3) * 1 + 1 * u.val = t.val; omega
    | ⟨1, _⟩ => show win0_3.index t (1 : Fin 3) * 2 + 1 * r.val = r.val; omega
    | ⟨2, _⟩ => show win0_3.index t (2 : Fin 3) * 256 + 1 * q.val = q.val; omega
  show P3 scM0_0.view (iblk0 V c 0 t) (iblk0 V c 1 t) (ix3 u r q)
    = Sarr (V c main_v0) (V c main_v4) (((cfg0.win 3).blk t).view.emb (ix3 u r q))
  rw [e3]
  match r with
  | ⟨0, _⟩ =>
    refine (P3_apply0 scM0_0.view (iblk0 V c 0 t) (iblk0 V c 1 t) u q).trans ?_
    exact sumB1 (V c main_v0) (V c main_v4) (iblk0 V c 0 t) (iblk0 V c 1 t) (⟨t.val, ht⟩ : Fin 8) (iblk_in V c t ht) (iblk_w V c t) q
  | ⟨1, _⟩ =>
    refine (P3_apply1 scM0_0.view (iblk0 V c 0 t) (iblk0 V c 1 t) u q).trans ?_
    exact sumB2 (V c main_v0) (V c main_v4) (iblk0 V c 0 t) (iblk0 V c 1 t) (⟨t.val, ht⟩ : Fin 8) (iblk_in V c t ht) (iblk_w V c t) q

/-- An index of the statistics array is in point t's block iff its image coordinate is t. -/
theorem mem_blk3 (t : Fin cfg0.N) (i : S8x2x256.Idx) :
    i ∈ ((cfg0.win 3).blk t).view.set ↔ ∀ a : Fin 3, win0_3.index t a * S1x2x256.size a ≤ (i a).val ∧ (i a).val < win0_3.index t a * S1x2x256.size a + S1x2x256.size a := by
  show i ∈ ((View.whole main_v5_1).slice (win0_3.rect t)).set ↔ _
  rw [View.set_slice_whole, Rect.mem_set_unit]
  exact Iff.rfl

/-- Every index of the statistics array lies in the block of the point that is its image. -/
theorem cover3 (i : S8x2x256.Idx) : ∃ t : Fin cfg0.N, (cfg0.win 3).flush t = true ∧ i ∈ ((cfg0.win 3).blk t).view.set := by
  have hN : cfg0.N = 8 := N_0
  have hi0 : (i 0).val < 8 := (i 0).isLt
  have hi1 : (i 1).val < 2 := (i 1).isLt
  have hi2 : (i 2).val < 256 := (i 2).isLt
  have hlt : (i 0).val < cfg0.N := by omega
  refine ⟨⟨(i 0).val, hlt⟩, flush0_3 _, ?_⟩
  rw [mem_blk3]
  obtain ⟨-, -, -, -, -, -, -, -, -, s0, s1, s2⟩ := idx_facts ⟨(i 0).val, hlt⟩
  have s0' : win0_3.index ⟨(i 0).val, hlt⟩ (0 : Fin 3) = (i 0).val := s0
  intro a
  match a with
  | ⟨0, _⟩ => show win0_3.index _ (0 : Fin 3) * 1 ≤ (i 0).val ∧ (i 0).val < win0_3.index _ (0 : Fin 3) * 1 + 1; rw [s0']; omega
  | ⟨1, _⟩ => show win0_3.index _ (1 : Fin 3) * 2 ≤ (i 1).val ∧ (i 1).val < win0_3.index _ (1 : Fin 3) * 2 + 2; rw [s1]; omega
  | ⟨2, _⟩ => show win0_3.index _ (2 : Fin 3) * 256 ≤ (i 2).val ∧ (i 2).val < win0_3.index _ (2 : Fin 3) * 256 + 256; rw [s2]; omega

/-- The statistics array after the region, from the input array and the weight matrix. -/
theorem final3 (c : Dev nD) :
    (dat0 V c).arrAt 3 cfg0.N = Sarr (V c main_v0) (V c main_v4) :=
  (dat0 V c).arrAt_eq_of_cover 3 _ (fun t _ => flushed3_eq V c t) cover3

/-- The statistics after the region, at image n and channel q: the sums of the convolution and of its squares. -/
theorem stats_final (c : Dev nD) (n : Fin 8) (q : Fin 256) :
    ((dat0 V c).arrAt 3 cfg0.N : S8x2x256.Idx → EReal) (ix3 n (0 : Fin 2) q) = Cert.Conv.sum1 (Cert.Conv.conv (V c main_v0) (V c main_v4)) n q
    ∧ ((dat0 V c).arrAt 3 cfg0.N : S8x2x256.Idx → EReal) (ix3 n (1 : Fin 2) q) = Cert.Conv.sum2 (Cert.Conv.conv (V c main_v0) (V c main_v4)) n q := by
  rw [final3]
  exact ⟨rfl, rfl⟩

end Cert.KernelIdeal.Reg0

end
-- ==== Proof.RReg1.lean ====
/-
  The reference program's second pass (one grid point per image and 8-row slab), as one function of the arrays
  it reads.

  At point (n, g) the body loads the convolution block [1,8,64,256] of image n, rows 8g … 8g+7, and the folded
  scale and shift as rows [1,256], and stores max(conv · scale + shift, 0) over the block. The 64 blocks tile the
  output array [8,64,64,256], so after the region the array is that function of the three arrays.
-/
import proofs.«131269_g2000402634760427_pallasbulk_1319_18_alg».proof.Proof.Gen.ReferenceIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.ReferenceIdeal.Reg1
open Cert.ReferenceIdeal Cert.ReferenceIdeal.Gen

/-- A row [1,1,c] spread over a block [a,b,c] reads, at (i, j, k), the row at k. -/
theorem broadcastTo_11c_abc_apply {a b c : ℕ} {α : Type} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The affine map followed by the comparison with zero. -/
def pt (v s t : EReal) : EReal := max (v * s + t) (Ideal.ofBits .f32 0x00000000#32)

/-- The stored value at row r, column w, channel q of the block: max(conv · scale + shift, 0). -/
theorem pay_apply (x0 : FVec Ideal S1x8x64x256 .f32) (x1 x2 : FVec Ideal S1x256 .f32) (r : Fin 8) (w : Fin 64) (q : Fin 256) :
    k1_pay1 (F := Ideal) x0 x1 x2 (ix4 (0 : Fin 1) r w q)
      = pt (x0 (ix4 (0 : Fin 1) r w q)) (x1 (ix2 (0 : Fin 1) q)) (x2 (ix2 (0 : Fin 1) q)) := by
  unfold k1_pay1 pt
  try dsimp only
  simp only [shapeCast_abc_1abc_apply, maximumf_apply, addf_apply, mulf_apply, shapeCast_1abc_abc_apply,
    broadcastTo_11c_abc_apply, shapeCast_ab_1ab_apply, shapeCast_self, broadcast_apply, Ideal.ofBits_def]

/-! ## From the blocks to the array -/

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The second pass's output array as one function of the convolution [8,64,64,256] and the folded scale and
    shift rows [1,256]. -/
def G (Cv : S8x64x64x256.Idx → EReal) (sc sh : S1x256.Idx → EReal) (n : Fin 8) (h w : Fin 64) (q : Fin 256) : EReal :=
  pt (Cv (ix4 n h w q)) (sc (ix2 (0 : Fin 1) q)) (sh (ix2 (0 : Fin 1) q))

def Garr (Cv : S8x64x64x256.Idx → EReal) (sc sh : S1x256.Idx → EReal) : S8x64x64x256.Idx → EReal :=
  fun i => G Cv sc sh (i 0) (i 1) (i 2) (i 3)

/-- The index maps over the 8 × 8 grid: point t is image t / 8, slab t % 8; scale and shift are read whole. -/
theorem idx_facts : ∀ t : Fin cfg1.N,
    win1_0.index t (0 : Fin 4) = t.val / 8 ∧ win1_0.index t (1 : Fin 4) = t.val % 8 ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) = t.val / 8 ∧ win1_3.index t (1 : Fin 4) = t.val % 8 ∧ win1_3.index t (2 : Fin 4) = 0 ∧ win1_3.index t (3 : Fin 4) = 0 :=
  (by decide +kernel : ∀ t : Fin grid1.N, _)

/-- What point t writes back is its block of the array function. -/
theorem flushed_eq (c : Dev nD) (t : Fin cfg1.N) :
    (dat1 V c).flushed 3 t = ((cfg1.win 3).blk t).view.read (Elt Ideal)
      (Garr (V c main_v5_0) (V c main_v25) (V c main_v29)) := by
  show (cfg1.win 3).cut (grid1.coords t) ((dat1 V c).after 3 t) = _
  rw [after1_3]
  unfold out1_3
  rw [View.canon_unit_zero hz4]
  simp only [View.ld_unit_zero (S := S1x8x64x256) hz4, View.ld_unit_zero (S := S1x256) hz2]
  obtain ⟨a0, a1, a2, a3, b0, b1, g0, g1, o0, o1, o2, o3⟩ := idx_facts t
  have hN : cfg1.N = 64 := N_1
  have ht : t.val < 64 := hN ▸ t.isLt
  funext j
  obtain ⟨u, r, w, q, rfl⟩ : ∃ (u : Fin 1) (r : Fin 8) (w : Fin 64) (q : Fin 256), j = ix4 u r w q := ⟨j 0, j 1, j 2, j 3, eq_ix4 j⟩
  obtain rfl : u = 0 := Subsingleton.elim _ _
  refine (pay_apply (iblk1 V c 0 t) (iblk1 V c 1 t) (iblk1 V c 2 t) r w q).trans ?_
  have e0 : ((cfg1.win 0).blk t).view.emb (ix4 (0 : Fin 1) r w q)
      = (ix4 (⟨t.val / 8, by omega⟩ : Fin 8) (⟨t.val % 8 * 8 + r.val, by omega⟩ : Fin 64) w q : S8x64x64x256.Idx) := by
    funext a; apply Fin.ext
    match a with
    | ⟨0, _⟩ => show win1_0.index t (0 : Fin 4) * 1 + 1 * 0 = t.val / 8; omega
    | ⟨1, _⟩ => show win1_0.index t (1 : Fin 4) * 8 + 1 * r.val = t.val % 8 * 8 + r.val; omega
    | ⟨2, _⟩ => show win1_0.index t (2 : Fin 4) * 64 + 1 * w.val = w.val; omega
    | ⟨3, _⟩ => show win1_0.index t (3 : Fin 4) * 256 + 1 * q.val = q.val; omega
  have e3 : ((cfg1.win 3).blk t).view.emb (ix4 (0 : Fin 1) r w q)
      = (ix4 (⟨t.val / 8, by omega⟩ : Fin 8) (⟨t.val % 8 * 8 + r.val, by omega⟩ : Fin 64) w q : S8x64x64x256.Idx) := by
    funext a; apply Fin.ext
    match a with
    | ⟨0, _⟩ => show win1_3.index t (0 : Fin 4) * 1 + 1 * 0 = t.val / 8; omega
    | ⟨1, _⟩ => show win1_3.index t (1 : Fin 4) * 8 + 1 * r.val = t.val % 8 * 8 + r.val; omega
    | ⟨2, _⟩ => show win1_3.index t (2 : Fin 4) * 64 + 1 * w.val = w.val; omega
    | ⟨3, _⟩ => show win1_3.index t (3 : Fin 4) * 256 + 1 * q.val = q.val; omega
  have e1 : ((cfg1.win 1).blk t).view.emb (ix2 (0 : Fin 1) q) = (ix2 (0 : Fin 1) q : S1x256.Idx) := by
    funext a; apply Fin.ext
    match a with
    | ⟨0, _⟩ => show win1_1.index t (0 : Fin 2) * 1 + 1 * 0 = 0; omega
    | ⟨1, _⟩ => show win1_1.index t (1 : Fin 2) * 256 + 1 * q.val = q.val; omega
  have e2 : ((cfg1.win 2).blk t).view.emb (ix2 (0 : Fin 1) q) = (ix2 (0 : Fin 1) q : S1x256.Idx) := by
    funext a; apply Fin.ext
    match a with
    | ⟨0, _⟩ => show win1_2.index t (0 : Fin 2) * 1 + 1 * 0 = 0; omega
    | ⟨1, _⟩ => show win1_2.index t (1 : Fin 2) * 256 + 1 * q.val = q.val; omega
  show pt (V c main_v5_0 (((cfg1.win 0).blk t).view.emb (ix4 (0 : Fin 1) r w q)))
        (V c main_v25 (((cfg1.win 1).blk t).view.emb (ix2 (0 : Fin 1) q)))
        (V c main_v29 (((cfg1.win 2).blk t).view.emb (ix2 (0 : Fin 1) q)))
    = Garr (V c main_v5_0) (V c main_v25) (V c main_v29) (((cfg1.win 3).blk t).view.emb (ix4 (0 : Fin 1) r w q))
  rw [e0, e3, e1, e2]
  rfl

/-- An index of the array is in point t's block iff each coordinate is in the block's range on its axis. -/
theorem mem_blk (t : Fin cfg1.N) (i : S8x64x64x256.Idx) :
    i ∈ ((cfg1.win 3).blk t).view.set ↔ ∀ a : Fin 4, win1_3.index t a * S1x8x64x256.size a ≤ (i a).val ∧ (i a).val < win1_3.index t a * S1x8x64x256.size a + S1x8x64x256.size a := by
  show i ∈ ((View.whole main_v30).slice (win1_3.rect t)).set ↔ _
  rw [View.set_slice_whole, Rect.mem_set_unit]
  exact Iff.rfl

/-- Every index of the output array lies in the block of its image and slab. -/
theorem cover (i : S8x64x64x256.Idx) : ∃ t : Fin cfg1.N, (cfg1.win 3).flush t = true ∧ i ∈ ((cfg1.win 3).blk t).view.set := by
  have hN : cfg1.N = 64 := N_1
  have hi0 : (i 0).val < 8 := (i 0).isLt
  have hi1 : (i 1).val < 64 := (i 1).isLt
  have hi2 : (i 2).val < 64 := (i 2).isLt
  have hi3 : (i 3).val < 256 := (i 3).isLt
  have hlt : (i 0).val * 8 + (i 1).val / 8 < cfg1.N := by omega
  refine ⟨⟨(i 0).val * 8 + (i 1).val / 8, hlt⟩, flush1_3 _, ?_⟩
  rw [mem_blk]
  obtain ⟨-, -, -, -, -, -, -, -, o0, o1, o2, o3⟩ := idx_facts ⟨(i 0).val * 8 + (i 1).val / 8, hlt⟩
  have o0' : win1_3.index ⟨(i 0).val * 8 + (i 1).val / 8, hlt⟩ (0 : Fin 4) = ((i 0).val * 8 + (i 1).val / 8) / 8 := o0
  have o1' : win1_3.index ⟨(i 0).val * 8 + (i 1).val / 8, hlt⟩ (1 : Fin 4) = ((i 0).val * 8 + (i 1).val / 8) % 8 := o1
  intro a
  match a with
  | ⟨0, _⟩ => show win1_3.index _ (0 : Fin 4) * 1 ≤ (i 0).val ∧ (i 0).val < win1_3.index _ (0 : Fin 4) * 1 + 1; rw [o0']; omega
  | ⟨1, _⟩ => show win1_3.index _ (1 : Fin 4) * 8 ≤ (i 1).val ∧ (i 1).val < win1_3.index _ (1 : Fin 4) * 8 + 8; rw [o1']; omega
  | ⟨2, _⟩ => show win1_3.index _ (2 : Fin 4) * 64 ≤ (i 2).val ∧ (i 2).val < win1_3.index _ (2 : Fin 4) * 64 + 64; rw [o2]; omega
  | ⟨3, _⟩ => show win1_3.index _ (3 : Fin 4) * 256 ≤ (i 3).val ∧ (i 3).val < win1_3.index _ (3 : Fin 4) * 256 + 256; rw [o3]; omega

/-- The second pass's output array after the region, from the three arrays the region finds. -/
theorem final (c : Dev nD) :
    (dat1 V c).arrAt 3 cfg1.N = Garr (V c main_v5_0) (V c main_v25) (V c main_v29) :=
  (dat1 V c).arrAt_eq_of_cover 3 _ (fun t _ => flushed_eq V c t) cover

end Cert.ReferenceIdeal.Reg1

end
-- ==== Proof.RValue.lean ====
/-
  The reference program's result, from its first region's two outputs.

  After the first region (the convolution array [8,64,64,256] and the per-slab statistics [8,8,2,256]) the host
  sums the statistics over images and slabs, forms mean = total₀ / 32768, var = max(total₁ / 32768 − mean², 0),
  inv = rsqrt(var + ε), the row scale = γ · inv and the row shift = β − (mean · γ) · inv; the second region
  stores max(conv · scale + shift, 0) (Proof/RReg1.lean); the host moves the channel axis to the front. So the
  result at (image n, channel q, row h, column w) is the normalisation, in the reference's grouping, of the
  convolution value at (n, h, w, q) by channel q's totals, with γ and β as launched.
-/
import proofs.«131269_g2000402634760427_pallasbulk_1319_18_alg».proof.Proof.Gen.ReferenceIdeal.Frame
import proofs.«131269_g2000402634760427_pallasbulk_1319_18_alg».proof.Proof.Spec
import proofs.«131269_g2000402634760427_pallasbulk_1319_18_alg».proof.Proof.RReg1
import proofs.«131269_g2000402634760427_pallasbulk_1319_18_alg».proof.Proof.LibHostCalls
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section
open Idealize.ShloMosaic Idealize.ShloMosaic.TcCoe Idealize.ShloMosaic.Tactic Idealize.SL.Sem
open Idealize.ShloMosaic.ValueIdx

namespace Cert.ReferenceIdeal.Value
open Cert.ReferenceIdeal Cert.ReferenceIdeal.Gen Cert.Spec Cert.Lib.HostCalls

/-! ## The host's fold of the statistics, over any totals array -/

/-- A scalar constant spread over a vector reads the constant's value everywhere. -/
theorem splat_apply (b : BitVec 32) (i : S256.Idx) :
    broadcastInDim S256 ![] bcast_S_S256 (constant (F := Ideal) S_ .f32 b) i = Ideal.ofBits .f32 b :=
  (broadcastInDim_apply ![] bcast_S_S256 (constant (F := Ideal) S_ .f32 b) i ix0 fun a => a.elim0).trans rfl

/-- Row j of the totals [2,256] as a vector [256]. -/
def rowVec (TT : S2x256.Idx → EReal) (j : Fin 2) (hs : S2x256.Slices ![j.val, 0] S1x256) : S256.Idx → EReal :=
  shapeCast S256 (extractStridedSlice S1x256 ![j.val, 0] TT hs) shapeCasts_S1x256_S256

theorem rowVec_apply (TT : S2x256.Idx → EReal) (j : Fin 2) (hs : S2x256.Slices ![j.val, 0] S1x256) (q : Fin 256) :
    rowVec TT j hs (ix1 q) = TT (ix2 j q) := by
  unfold rowVec
  refine (shapeCast_1a_a_apply _ _ q).trans ?_
  exact slice2_axis0_apply j.val TT hs (0 : Fin 1) q j (by simp)

/-- The host's mean vector. -/
def meanVec (TT : S2x256.Idx → EReal) : S256.Idx → EReal :=
  Host.divf (F := Ideal) (rowVec TT 0 slices_S2x256_S1x256_0_0)
    (broadcastInDim S256 ![] bcast_S_S256 (constant (F := Ideal) S_ .f32 0x47000000#32))

theorem meanVec_apply (TT : S2x256.Idx → EReal) (q : Fin 256) : meanVec TT (ix1 q) = Spec.mean (TT (ix2 (0 : Fin 2) q)) := by
  unfold meanVec Spec.mean
  show Ideal.div (rowVec TT 0 slices_S2x256_S1x256_0_0 (ix1 q)) (broadcastInDim S256 ![] bcast_S_S256 (constant (F := Ideal) S_ .f32 0x47000000#32) (ix1 q)) = _
  rw [rowVec_apply, splat_apply]

/-- The host's reciprocal-standard-deviation vector. -/
def invVec (TT : S2x256.Idx → EReal) : S256.Idx → EReal :=
  Host.rsqrt (F := Ideal) (addf (maximumf (subf
      (Host.divf (F := Ideal) (rowVec TT 1 slices_S2x256_S1x256_1_0) (broadcastInDim S256 ![] bcast_S_S256 (constant (F := Ideal) S_ .f32 0x47000000#32)))
      (mulf (meanVec TT) (meanVec TT)))
    (broadcastInDim S256 ![] bcast_S_S256 (constant (F := Ideal) S_ .f32 0x00000000#32)))
    (broadcastInDim S256 ![] bcast_S_S256 (constant (F := Ideal) S_ .f32 0x3727C5AC#32)))

theorem invVec_apply (TT : S2x256.Idx → EReal) (q : Fin 256) :
    invVec TT (ix1 q) = Spec.inv (TT (ix2 (0 : Fin 2) q)) (TT (ix2 (1 : Fin 2) q)) := by
  unfold invVec Spec.inv
  show Ideal.rsqrt (max (Ideal.div (rowVec TT 1 slices_S2x256_S1x256_1_0 (ix1 q)) (broadcastInDim S256 ![] bcast_S_S256 (constant (F := Ideal) S_ .f32 0x47000000#32) (ix1 q))
        - meanVec TT (ix1 q) * meanVec TT (ix1 q))
      (broadcastInDim S256 ![] bcast_S_S256 (constant (F := Ideal) S_ .f32 0x00000000#32) (ix1 q))
      + broadcastInDim S256 ![] bcast_S_S256 (constant (F := Ideal) S_ .f32 0x3727C5AC#32) (ix1 q)) = _
  rw [rowVec_apply, meanVec_apply, splat_apply, splat_apply, splat_apply]

/-- A vector padded by nothing reads the vector. -/
theorem pad_none_apply (x : S256.Idx → EReal) (v : S_.Idx → EReal) (q : Fin 256) :
    pad S256 ![0] ![0] ![0] x v pads_S256_S256_000 h_S_ (ix1 q) = x (ix1 q) := by
  refine pad_apply_of_inside _ _ _ x v _ _ (ix1 q) (ix1 q) fun a => ?_
  match a with
  | ⟨0, _⟩ => show q.val = 0 + q.val * (0 + 1); omega

/-- The folded scale γ · inv and shift β − (mean · γ) · inv of a channel, from its totals. -/
def scaleOf (g s1 s2 : EReal) : EReal := g * Spec.inv s1 s2
def shiftOf (b g s1 s2 : EReal) : EReal := b - Spec.mean s1 * g * Spec.inv s1 s2

/-- The scale row: γ · inv. -/
theorem scaleRow_apply (TT : S2x256.Idx → EReal) (g : FVec Ideal S256 .f32) (v : FVec Ideal S_ .f32) (u : Fin 1) (q : Fin 256) :
    (shapeCast S1x256 (mulf (F := Ideal) (pad S256 ![0] ![0] ![0] g v pads_S256_S256_000 h_S_) (invVec TT)) shapeCasts_S256_S1x256 : S1x256.Idx → EReal) (ix2 u q)
      = scaleOf (g (ix1 q)) (TT (ix2 (0 : Fin 2) q)) (TT (ix2 (1 : Fin 2) q)) := by
  refine (shapeCast_a_1a_apply _ _ u q).trans ?_
  show pad S256 ![0] ![0] ![0] g v pads_S256_S256_000 h_S_ (ix1 q) * invVec TT (ix1 q) = _
  rw [pad_none_apply, invVec_apply]
  rfl

/-- The shift row: β − (mean · γ) · inv. -/
theorem shiftRow_apply (TT : S2x256.Idx → EReal) (g b : FVec Ideal S256 .f32) (v v' : FVec Ideal S_ .f32) (u : Fin 1) (q : Fin 256) :
    (shapeCast S1x256 (subf (F := Ideal) (pad S256 ![0] ![0] ![0] b v' pads_S256_S256_000 h_S_)
        (mulf (F := Ideal) (mulf (F := Ideal) (meanVec TT) (pad S256 ![0] ![0] ![0] g v pads_S256_S256_000 h_S_)) (invVec TT))) shapeCasts_S256_S1x256 : S1x256.Idx → EReal) (ix2 u q)
      = shiftOf (b (ix1 q)) (g (ix1 q)) (TT (ix2 (0 : Fin 2) q)) (TT (ix2 (1 : Fin 2) q)) := by
  refine (shapeCast_a_1a_apply _ _ u q).trans ?_
  show pad S256 ![0] ![0] ![0] b v' pads_S256_S256_000 h_S_ (ix1 q)
      - meanVec TT (ix1 q) * pad S256 ![0] ![0] ![0] g v pads_S256_S256_000 h_S_ (ix1 q) * invVec TT (ix1 q) = _
  rw [pad_none_apply, pad_none_apply, meanVec_apply, invVec_apply]
  rfl

/-! ## The program's buffers -/

variable (m : (ℓ : Loc nD τ sig) → Buf (Elt Ideal) ℓ) (ρ : Dev nD → PrngReg)

/-- The convolution array [8,64,64,256] the first region leaves. -/
abbrev Cv (c : Dev nD) : S8x64x64x256.Idx → EReal := (dat0 (V5 (F := Ideal) m ρ) c).arrAt 2 cfg0.N
/-- The per-slab statistics [8,8,2,256] the first region leaves (image, slab, row 0: sums / row 1: sums of squares, channel). -/
abbrev St (c : Dev nD) : S8x8x2x256.Idx → EReal := (dat0 (V5 (F := Ideal) m ρ) c).arrAt 3 cfg0.N

/-- The host's totals [2,256]: the statistics summed over images and slabs, from zero. -/
def totals (c : Dev nD) : S2x256.Idx → EReal :=
  Host.reduceAdd (F := Ideal) (W6 (F := Ideal) m ρ c (Proc.devRef .tc main_v5_1) : S8x8x2x256.Idx → EReal)
    (constant (F := Ideal) S_ .f32 0x00000000#32) reducesTo_S8x8x2x256_S2x256_d0_1 h_S_

/-- The statistics buffer the host sums is the first region's second output. -/
theorem w6_v51 (c : Dev nD) : (W6 (F := Ideal) m ρ c (Proc.devRef .tc main_v5_1) : S8x8x2x256.Idx → EReal) = St m ρ c :=
  W6_arr m ρ c 3

theorem w6_arg2 (c : Dev nD) : W6 (F := Ideal) m ρ c (Proc.devRef .tc main_arg2) = m ((c : Thread nD τ).loc main_arg2) :=
  (W6_of_ne m ρ c main_arg2 (by decide)).trans (by
    show StableHlo.after hostOps0_4 (StableHlo.after hostOps0_3 (StableHlo.after hostOps0_2 (StableHlo.after hostOps0_1 (StableHlo.after hostOps0 (W0 m ρ c))))) (Proc.devRef .tc main_arg2) = _
    after_results
    all_goals rfl)
theorem w6_arg3 (c : Dev nD) : W6 (F := Ideal) m ρ c (Proc.devRef .tc main_arg3) = m ((c : Thread nD τ).loc main_arg3) :=
  (W6_of_ne m ρ c main_arg3 (by decide)).trans (by
    show StableHlo.after hostOps0_4 (StableHlo.after hostOps0_3 (StableHlo.after hostOps0_2 (StableHlo.after hostOps0_1 (StableHlo.after hostOps0 (W0 m ρ c))))) (Proc.devRef .tc main_arg3) = _
    after_results
    all_goals rfl)

/-- The second region finds the first region's convolution array untouched. -/
theorem v11_v50 (c : Dev nD) : (V11 (F := Ideal) m ρ c main_v5_0 : S8x64x64x256.Idx → EReal) = Cv m ρ c := by
  refine Eq.trans ?_ (W6_arr m ρ c 2)
  show StableHlo.after hostOps1_4 (StableHlo.after hostOps1_3 (StableHlo.after hostOps1_2 (StableHlo.after hostOps1_1 (StableHlo.after hostOps1 (W6 m ρ c))))) (Proc.devRef .tc main_v5_0) = _
  after_results
  all_goals rfl

/-- The scale row as the second region finds it. -/
theorem v11_v25 (c : Dev nD) :
    (V11 (F := Ideal) m ρ c main_v25 : S1x256.Idx → EReal)
      = fun i => scaleOf (m ((c : Thread nD τ).loc main_arg2) (ix1 (i 1))) (totals m ρ c (ix2 (0 : Fin 2) (i 1))) (totals m ρ c (ix2 (1 : Fin 2) (i 1))) := by
  show StableHlo.after hostOps1_4 (StableHlo.after hostOps1_3 (StableHlo.after hostOps1_2 (StableHlo.after hostOps1_1 (StableHlo.after hostOps1 (W6 m ρ c))))) (Proc.devRef .tc main_v25) = _
  after_results_simp
  simp only [ofBuf_toBuf]
  funext i
  obtain ⟨u, q, rfl⟩ : ∃ (u : Fin 1) (q : Fin 256), i = ix2 u q := ⟨i 0, i 1, eq_ix2 i⟩
  refine (scaleRow_apply (totals m ρ c) _ _ u q).trans ?_
  exact congrArg (fun z => scaleOf z _ _) (congrFun (w6_arg2 m ρ c) (ix1 q))

/-- The shift row as the second region finds it. -/
theorem v11_v29 (c : Dev nD) :
    (V11 (F := Ideal) m ρ c main_v29 : S1x256.Idx → EReal)
      = fun i => shiftOf (m ((c : Thread nD τ).loc main_arg3) (ix1 (i 1))) (m ((c : Thread nD τ).loc main_arg2) (ix1 (i 1)))
          (totals m ρ c (ix2 (0 : Fin 2) (i 1))) (totals m ρ c (ix2 (1 : Fin 2) (i 1))) := by
  show StableHlo.after hostOps1_4 (StableHlo.after hostOps1_3 (StableHlo.after hostOps1_2 (StableHlo.after hostOps1_1 (StableHlo.after hostOps1 (W6 m ρ c))))) (Proc.devRef .tc main_v29) = _
  after_results_simp
  simp only [ofBuf_toBuf]
  funext i
  obtain ⟨u, q, rfl⟩ : ∃ (u : Fin 1) (q : Fin 256), i = ix2 u q := ⟨i 0, i 1, eq_ix2 i⟩
  refine (shiftRow_apply (totals m ρ c) _ _ _ _ u q).trans ?_
  exact congrArg₂ (fun z z' => shiftOf z z' _ _) (congrFun (w6_arg3 m ρ c) (ix1 q)) (congrFun (w6_arg2 m ρ c) (ix1 q))

/-- THE REFERENCE PROGRAM'S RESULT at (image n, channel q, row h, column w). -/
theorem reference_value (c : Dev nD) (n : Fin 8) (q : Fin 256) (h w : Fin 64) :
    (W13 (F := Ideal) m ρ c (Proc.devRef .tc main_v31) : S8x256x64x64.Idx → EReal) (ix4 n q h w)
      = bnR (Cv m ρ c (ix4 n h w q)) (totals m ρ c (ix2 (0 : Fin 2) q)) (totals m ρ c (ix2 (1 : Fin 2) q))
          (m ((c : Thread nD τ).loc main_arg2) (ix1 q)) (m ((c : Thread nD τ).loc main_arg3) (ix1 q)) := by
  have e : (W13 (F := Ideal) m ρ c (Proc.devRef .tc main_v31) : S8x256x64x64.Idx → EReal)
      = transpose S8x256x64x64 [0, 3, 1, 2] (W12 (F := Ideal) m ρ c (Proc.devRef .tc main_v30) : S8x64x64x256.Idx → EReal) transposes_S8x64x64x256_S8x256x64x64_0_3_1_2 := by
    show StableHlo.after hostOps2 (W12 m ρ c) (Proc.devRef .tc main_v31) = _
    after_results
    all_goals rfl
  rw [e]
  refine (transpose_apply _ _ _ (ix4 n q h w) (ix4 n h w q) fun b => ?_).trans ?_
  · match b with
    | ⟨0, _⟩ => rfl
    | ⟨1, _⟩ => rfl
    | ⟨2, _⟩ => rfl
    | ⟨3, _⟩ => rfl
  have e2 : (W12 (F := Ideal) m ρ c (Proc.devRef .tc main_v30) : S8x64x64x256.Idx → EReal)
      = Reg1.Garr (V11 m ρ c main_v5_0) (V11 m ρ c main_v25) (V11 m ρ c main_v29) :=
    (W12_arr m ρ c 3).trans (Reg1.final (V11 m ρ) c)
  rw [e2, v11_v50, v11_v25, v11_v29]
  unfold Reg1.Garr Reg1.G Reg1.pt Spec.bnR scaleOf shiftOf
  rfl

end Cert.ReferenceIdeal.Value
end
-- ==== Proof.RPre.lean ====
/-
  What the reference program's first region finds in its two input arrays.

  The host moves the input's channel axis last and pads rows and columns by two zeros on each side
  ([8,64,64,256] to [8,68,68,256]); it lays the weights [256,256,3,3] out as the matrix [2304,256] whose row
  (kh·3 + kw)·256 + ci holds tap (kh, kw), input channel ci. So the padded array at (n, r, s, ci) is the
  zero-padding `Conv.padded` of the channel-last input, and the weight matrix is the kernel program's.
-/
import proofs.«131269_g2000402634760427_pallasbulk_1319_18_alg».proof.Proof.Gen.ReferenceIdeal.Frame
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout
import proofs.«131269_g2000402634760427_pallasbulk_1319_18_alg».proof.Proof.LibHostCalls
import proofs.«131269_g2000402634760427_pallasbulk_1319_18_alg».proof.Proof.Conv
import Idealize.ShloMosaic.Lib.KernelVsHost
set_option maxRecDepth 16384

noncomputable section
open Idealize.ShloMosaic Idealize.ShloMosaic.TcCoe Idealize.ShloMosaic.Tactic Idealize.SL.Sem
open Idealize.ShloMosaic.ValueIdx

namespace Cert.ReferenceIdeal.Pre
open Cert.ReferenceIdeal Cert.ReferenceIdeal.Gen Cert.Lib.HostCalls
variable (m : (ℓ : Loc nD τ sig) → Buf (Elt Ideal) ℓ) (ρ : Dev nD → PrngReg)

/-- The integer zero converted to a float is the extended real 0. -/
theorem pad_value (i : S_.Idx) : sitofp (F := Ideal) .f32 (constantI S_ 32 0#32) i = (0 : EReal) := by
  show (((0#32 : BitVec 32).toInt : ℝ) : EReal) = 0
  simp

/-- The channel-last input [8,64,64,256] of the launch's input array. -/
def inputNHWC (A0 : S8x256x64x64.Idx → EReal) : Cert.Conv.SX.Idx → EReal :=
  transpose S8x64x64x256 [0, 2, 3, 1] A0 transposes_S8x256x64x64_S8x64x64x256_0_2_3_1

theorem inputNHWC_apply (A0 : S8x256x64x64.Idx → EReal) (n : Fin 8) (h w : Fin 64) (ci : Fin 256) :
    inputNHWC A0 (ix4 n h w ci) = A0 (ix4 n ci h w) := by
  unfold inputNHWC
  refine transpose_apply _ _ _ (ix4 n h w ci) (ix4 n ci h w) fun b => ?_
  match b with
  | ⟨0, _⟩ => rfl
  | ⟨1, _⟩ => rfl
  | ⟨2, _⟩ => rfl
  | ⟨3, _⟩ => rfl

/-- The padded array as the first region finds it is the zero-padding of the channel-last input. -/
theorem v5_v1_apply (c : Dev nD) (n : Fin 8) (R S : Fin 68) (ci : Fin 256) :
    (V5 (F := Ideal) m ρ c main_v1 : S8x68x68x256.Idx → EReal) (ix4 n R S ci)
      = Cert.Conv.padded (inputNHWC (m ((c : Thread nD τ).loc main_arg0))) n R.val S.val ci := by
  have e : (V5 (F := Ideal) m ρ c main_v1 : S8x68x68x256.Idx → EReal)
      = pad S8x68x68x256 ![0, 2, 2, 0] ![0, 2, 2, 0] ![0, 0, 0, 0] (inputNHWC (m ((c : Thread nD τ).loc main_arg0)))
          (sitofp (F := Ideal) .f32 (constantI S_ 32 0#32)) pads_S8x64x64x256_S8x68x68x256_000_220_220_000 h_S_ := by
    show StableHlo.after hostOps0_4 (StableHlo.after hostOps0_3 (StableHlo.after hostOps0_2 (StableHlo.after hostOps0_1 (StableHlo.after hostOps0 (W0 m ρ c))))) (Proc.devRef .tc main_v1) = _
    after_results_simp
    try simp only [ofBuf_toBuf]
    rfl
  rw [e]
  unfold Cert.Conv.padded
  by_cases hin : (2 ≤ R.val ∧ R.val < 66) ∧ (2 ≤ S.val ∧ S.val < 66)
  · rw [dif_pos hin]
    refine pad_apply_of_inside _ _ _ _ _ _ _ (ix4 n R S ci) (ix4 n (⟨R.val - 2, by omega⟩ : Fin 64) (⟨S.val - 2, by omega⟩ : Fin 64) ci) fun a => ?_
    match a with
    | ⟨0, _⟩ => show n.val = 0 + n.val * (0 + 1); omega
    | ⟨1, _⟩ => show R.val = 2 + (R.val - 2) * (0 + 1); omega
    | ⟨2, _⟩ => show S.val = 2 + (S.val - 2) * (0 + 1); omega
    | ⟨3, _⟩ => show ci.val = 0 + ci.val * (0 + 1); omega
  · rw [dif_neg hin]
    by_cases hR : 2 ≤ R.val ∧ R.val < 66
    · have hS : ¬(2 ≤ S.val ∧ S.val < 66) := fun h => hin ⟨hR, h⟩
      refine (pad_apply_of_not_inside _ _ _ _ _ _ _ (ix4 n R S ci) (2 : Fin 4) ?_).trans (pad_value _)
      show ¬(2 ≤ S.val ∧ (S.val - 2) % (0 + 1) = 0 ∧ (S.val - 2) / (0 + 1) < 64)
      omega
    · refine (pad_apply_of_not_inside _ _ _ _ _ _ _ (ix4 n R S ci) (1 : Fin 4) ?_).trans (pad_value _)
      show ¬(2 ≤ R.val ∧ (R.val - 2) % (0 + 1) = 0 ∧ (R.val - 2) / (0 + 1) < 64)
      omega

/-- The weight matrix as the first region finds it. -/
theorem v5_v4_apply (c : Dev nD) (kh kw : Fin 3) (ci q : Fin 256) :
    (V5 (F := Ideal) m ρ c main_v4 : S2304x256.Idx → EReal) (ix2 (⟨(kh.val * 3 + kw.val) * 256 + ci.val, by omega⟩ : Fin 2304) q)
      = m ((c : Thread nD τ).loc main_arg1) (ix4 q ci kh kw) := by
  have e : (V5 (F := Ideal) m ρ c main_v4 : S2304x256.Idx → EReal)
      = shapeCast S2304x256 (pad S3x3x256x256 ![0, 0, 0, 0] ![0, 0, 0, 0] ![0, 0, 0, 0]
          (transpose S3x3x256x256 [2, 3, 1, 0] (m ((c : Thread nD τ).loc main_arg1) : S256x256x3x3.Idx → EReal) transposes_S256x256x3x3_S3x3x256x256_2_3_1_0)
          (sitofp (F := Ideal) .f32 (constantI S_ 32 0#32)) pads_S3x3x256x256_S3x3x256x256_000_000_000_000 h_S_) shapeCasts_S3x3x256x256_S2304x256 := by
    show StableHlo.after hostOps0_4 (StableHlo.after hostOps0_3 (StableHlo.after hostOps0_2 (StableHlo.after hostOps0_1 (StableHlo.after hostOps0 (W0 m ρ c))))) (Proc.devRef .tc main_v4) = _
    after_results_simp
    try simp only [ofBuf_toBuf]
    rfl
  rw [e]
  refine (shapeCast_apply _ _ (ix2 (⟨(kh.val * 3 + kw.val) * 256 + ci.val, by omega⟩ : Fin 2304) q) (ix4 kh kw ci q) ?_).trans ?_
  · rw [Shape.rowMajor_val_four, Shape.rowMajor_val_two]
    rfl
  refine (pad_apply_of_inside _ _ _ _ _ _ _ (ix4 kh kw ci q) (ix4 kh kw ci q) fun a => ?_).trans ?_
  · match a with
    | ⟨0, _⟩ => show kh.val = 0 + kh.val * (0 + 1); omega
    | ⟨1, _⟩ => show kw.val = 0 + kw.val * (0 + 1); omega
    | ⟨2, _⟩ => show ci.val = 0 + ci.val * (0 + 1); omega
    | ⟨3, _⟩ => show q.val = 0 + q.val * (0 + 1); omega
  refine transpose_apply _ _ _ (ix4 kh kw ci q) (ix4 q ci kh kw) fun b => ?_
  match b with
  | ⟨0, _⟩ => rfl
  | ⟨1, _⟩ => rfl
  | ⟨2, _⟩ => rfl
  | ⟨3, _⟩ => rfl

end Cert.ReferenceIdeal.Pre
end
-- ==== Proof.RReg0Pay.lean ====
/-
  The reference's first pass at one grid point, as pure functions read at an index.

  Nine blocks [1,8,64,256] of the padded image (rows 8g + 2·kh …, columns 2·kw …, for the nine taps) are flattened
  to [512,256] (row 64·r + w) and joined along the lanes into [512,2304], lane (kh·3 + kw)·256 + ci; the product
  with the weight matrix [2304,256] into a zero accumulator is, at (p, q), the sum over the nine taps and the 256
  input channels of the tap's block at (p, ci) times the weight at ((kh·3 + kw)·256 + ci, q). The stored slab is
  that product reshaped to [1,8,64,256]; the stored statistics are its column sums and the column sums of its
  squares over the 512 rows, as the two rows of [1,1,2,256].
-/
import proofs.«131269_g2000402634760427_pallasbulk_1319_18_alg».proof.Proof.Gen.ReferenceIdeal.Frame
import proofs.«131269_g2000402634760427_pallasbulk_1319_18_alg».proof.Proof.LibPlainDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.ReferenceIdeal.Reg0
open Cert.ReferenceIdeal Cert.ReferenceIdeal.Gen

/-- A block [1,8,64,256] flattened to [512,256]: row 64·r + w is (r, w). -/
def flat (L : FVec Ideal S1x8x64x256 .f32) : FVec Ideal S512x256 .f32 :=
  shapeCast S512x256 (shapeCast S8x64x256 L shapeCasts_S1x8x64x256_S8x64x256) shapeCasts_S8x64x256_S512x256

theorem flat_apply (L : FVec Ideal S1x8x64x256 .f32) (r : Fin 8) (w : Fin 64) (ci : Fin 256) :
    flat L (ix2 (⟨64 * r.val + w.val, by omega⟩ : Fin 512) ci) = L (ix4 (0 : Fin 1) r w ci) := by
  unfold flat
  refine (shapeCast_apply _ _ (ix2 (⟨64 * r.val + w.val, by omega⟩ : Fin 512) ci) (ix3 r w ci) ?_).trans ?_
  · rw [Shape.rowMajor_val_three, Shape.rowMajor_val_two]
    show (r.val * 64 + w.val) * 256 + ci.val = (64 * r.val + w.val) * 256 + ci.val
    omega
  exact shapeCast_1abc_abc_apply _ _ r w ci

/-- Nine pieces [512,256] as a list. -/
abbrev nine (pc : Fin 9 → FVec Ideal S512x256 .f32) : List ((s : Shape) × (s.Idx → EReal)) :=
  [⟨S512x256, pc 0⟩, ⟨S512x256, pc 1⟩, ⟨S512x256, pc 2⟩, ⟨S512x256, pc 3⟩, ⟨S512x256, pc 4⟩, ⟨S512x256, pc 5⟩, ⟨S512x256, pc 6⟩, ⟨S512x256, pc 7⟩, ⟨S512x256, pc 8⟩]

/-- Nine pieces [512,256] joined along the lanes: lane kk·256 + ci of the join is lane ci of piece kk. -/
theorem join_apply (pc : Fin 9 → FVec Ideal S512x256 .f32)
    (h : Shape.Concatenates [S512x256, S512x256, S512x256, S512x256, S512x256, S512x256, S512x256, S512x256, S512x256] S512x2304 1)
    (p : Fin 512) (kk : Fin 9) (ci : Fin 256) :
    concatenate S512x2304 1 [⟨S512x256, pc 0⟩, ⟨S512x256, pc 1⟩, ⟨S512x256, pc 2⟩, ⟨S512x256, pc 3⟩, ⟨S512x256, pc 4⟩, ⟨S512x256, pc 5⟩, ⟨S512x256, pc 6⟩, ⟨S512x256, pc 7⟩, ⟨S512x256, pc 8⟩] h
        (ix2 p (⟨kk.val * 256 + ci.val, by omega⟩ : Fin 2304))
      = pc kk (ix2 p ci) := by
  have hi : ∀ b : Fin 2, b.cast (rfl : S512x256.rank = S512x2304.rank) ≠ (1 : Fin 2) →
      ((ix2 p ci : S512x256.Idx) b).val = ((ix2 p (⟨kk.val * 256 + ci.val, by omega⟩ : Fin 2304) : S512x2304.Idx) (b.cast rfl)).val := by
    intro b hb
    match b with
    | ⟨0, _⟩ => rfl
    | ⟨1, _⟩ => exact absurd rfl hb
  fin_cases kk
  · exact concatenate_apply_piece 1 (nine pc) h _ 0 (show (0 : ℕ) < 9 from by omega) S512x256 (pc 0) rfl rfl 0 rfl (ix2 p ci) hi (by show 0 + ci.val = 0 * 256 + ci.val; omega)
  · exact concatenate_apply_piece 1 (nine pc) h _ 1 (show (1 : ℕ) < 9 from by omega) S512x256 (pc 1) rfl rfl 256 rfl (ix2 p ci) hi (by show 256 + ci.val = 1 * 256 + ci.val; omega)
  · exact concatenate_apply_piece 1 (nine pc) h _ 2 (show (2 : ℕ) < 9 from by omega) S512x256 (pc 2) rfl rfl 512 rfl (ix2 p ci) hi (by show 512 + ci.val = 2 * 256 + ci.val; omega)
  · exact concatenate_apply_piece 1 (nine pc) h _ 3 (show (3 : ℕ) < 9 from by omega) S512x256 (pc 3) rfl rfl 768 rfl (ix2 p ci) hi (by show 768 + ci.val = 3 * 256 + ci.val; omega)
  · exact concatenate_apply_piece 1 (nine pc) h _ 4 (show (4 : ℕ) < 9 from by omega) S512x256 (pc 4) rfl rfl 1024 rfl (ix2 p ci) hi (by show 1024 + ci.val = 4 * 256 + ci.val; omega)
  · exact concatenate_apply_piece 1 (nine pc) h _ 5 (show (5 : ℕ) < 9 from by omega) S512x256 (pc 5) rfl rfl 1280 rfl (ix2 p ci) hi (by show 1280 + ci.val = 5 * 256 + ci.val; omega)
  · exact concatenate_apply_piece 1 (nine pc) h _ 6 (show (6 : ℕ) < 9 from by omega) S512x256 (pc 6) rfl rfl 1536 rfl (ix2 p ci) hi (by show 1536 + ci.val = 6 * 256 + ci.val; omega)
  · exact concatenate_apply_piece 1 (nine pc) h _ 7 (show (7 : ℕ) < 9 from by omega) S512x256 (pc 7) rfl rfl 1792 rfl (ix2 p ci) hi (by show 1792 + ci.val = 7 * 256 + ci.val; omega)
  · exact concatenate_apply_piece 1 (nine pc) h _ 8 (show (8 : ℕ) < 9 from by omega) S512x256 (pc 8) rfl rfl 2048 rfl (ix2 p ci) hi (by show 2048 + ci.val = 8 * 256 + ci.val; omega)

/-- A sum over the 2304 lanes, taken piece by piece. -/
theorem sum_lanes (f : Fin 2304 → EReal) :
    ∑ k : Fin 2304, f k = ∑ kk : Fin 9, ∑ ci : Fin 256, f (⟨kk.val * 256 + ci.val, by omega⟩ : Fin 2304) := by
  show ∑ k : Fin (9 * 256), f k = _
  rw [← (finProdFinEquiv (m := 9) (n := 256)).sum_comp f, Fintype.sum_prod_type]
  refine Finset.sum_congr rfl fun kk _ => Finset.sum_congr rfl fun ci _ => congrArg f (Fin.ext ?_)
  show ci.val + 256 * kk.val = kk.val * 256 + ci.val
  omega

/-- The product of the joined pieces with the weight matrix into a zero accumulator. -/
def acc (pc : Fin 9 → FVec Ideal S512x256 .f32) (Wm : FVec Ideal S2304x256 .f32) : FVec Ideal S512x256 .f32 :=
  matmul (F := Ideal) dot_S512x2304_S2304x256_S512x256_1_0_0_1_n_n none
    (concatenate S512x2304 1 [⟨S512x256, pc 0⟩, ⟨S512x256, pc 1⟩, ⟨S512x256, pc 2⟩, ⟨S512x256, pc 3⟩, ⟨S512x256, pc 4⟩, ⟨S512x256, pc 5⟩, ⟨S512x256, pc 6⟩, ⟨S512x256, pc 7⟩, ⟨S512x256, pc 8⟩]
      concatenates_S512x256_S512x256_S512x256_S512x256_S512x256_S512x256_S512x256_S512x256_S512x256_S512x2304_d1)
    Wm (constant S512x256 .f32 0x00000000#32)

theorem acc_apply (pc : Fin 9 → FVec Ideal S512x256 .f32) (Wm : FVec Ideal S2304x256 .f32) (p : Fin 512) (q : Fin 256) :
    acc pc Wm (ix2 p q) = ∑ kk : Fin 9, ∑ ci : Fin 256, pc kk (ix2 p ci) * Wm (ix2 (⟨kk.val * 256 + ci.val, by omega⟩ : Fin 2304) q) := by
  unfold acc
  refine (Cert.PlainDot.matmul_zero_apply dot_S512x2304_S2304x256_S512x256_1_0_0_1_n_n rfl _ Wm p q).trans ?_
  rw [sum_lanes]
  refine Finset.sum_congr rfl fun kk _ => Finset.sum_congr rfl fun ci _ => ?_
  rw [join_apply]

/-- The column sum over the 512 rows. -/
theorem colSum_apply (x : FVec Ideal S512x256 .f32) (hφ : FKind.Formats .f32)
    (hacc : (0x00000000#32 : BitVec 32) = FKind.add.neutral .f32 hφ) (q : Fin 256) :
    multiReduction .add [0] S256 x 0x00000000#32 Gen.reduces_S512x256_S256 hφ hacc (ix1 q) = ∑ p : Fin 512, x (ix2 p q) := by
  refine (Ideal.multiReduction_add_single x 0x00000000#32 Gen.reduces_S512x256_S256 hφ hacc (ix1 q)).trans ?_
  refine Finset.sum_congr rfl fun p _ => congrArg x (funext fun a => ?_)
  match a with
  | ⟨0, _⟩ => rfl
  | ⟨1, _⟩ => rfl

/-- The pieces as the body passes them: seven flattened in the body's first part, two flattened in place. -/
abbrev pieces (v6 v10 v14 v19 v23 v27 v32 : FVec Ideal S512x256 .f32) (v34 v38 : FVec Ideal S1x8x64x256 .f32) : Fin 9 → FVec Ideal S512x256 .f32 :=
  ![v6, v10, v14, v19, v23, v27, v32, flat v34, flat v38]

theorem pay1_eq (v6 v10 v14 v19 v23 v27 v32 : FVec Ideal S512x256 .f32) (v34 v38 : FVec Ideal S1x8x64x256 .f32) (v42 : FVec Ideal S2304x256 .f32) :
    k0_pay1 (F := Ideal) v6 v10 v14 v19 v23 v27 v32 v34 v38 v42 = acc (pieces v6 v10 v14 v19 v23 v27 v32 v34 v38) v42 := by
  unfold k0_pay1 acc
  try dsimp only
  rw [shapeCast_self]
  rfl

/-- The stored slab at (row r, column w, channel q) is the product at (64·r + w, q). -/
theorem pay2_apply (v6 v10 v14 v19 v23 v27 v32 : FVec Ideal S512x256 .f32) (v34 v38 : FVec Ideal S1x8x64x256 .f32) (v42 : FVec Ideal S2304x256 .f32)
    (r : Fin 8) (w : Fin 64) (q : Fin 256) :
    k0_pay2 (F := Ideal) v6 v10 v14 v19 v23 v27 v32 v34 v38 v42 (ix4 (0 : Fin 1) r w q)
      = acc (pieces v6 v10 v14 v19 v23 v27 v32 v34 v38) v42 (ix2 (⟨64 * r.val + w.val, by omega⟩ : Fin 512) q) := by
  unfold k0_pay2
  try dsimp only
  rw [pay1_eq]
  refine (shapeCast_abc_1abc_apply _ _ (0 : Fin 1) r w q).trans ?_
  refine shapeCast_apply _ _ (ix3 r w q) (ix2 (⟨64 * r.val + w.val, by omega⟩ : Fin 512) q) ?_
  rw [Shape.rowMajor_val_three, Shape.rowMajor_val_two]
  show (64 * r.val + w.val) * 256 + q.val = (r.val * 64 + w.val) * 256 + q.val
  omega

end Cert.ReferenceIdeal.Reg0
end
-- ==== Proof.RReg0.lean ====
/-
  The reference program's first pass as functions of the arrays it reads.

  At grid point (n, g) the body reads nine 8 × 64 windows of image n of the padded input [8,68,68,256] — rows
  8g + 2·kh + r, columns 2·kw + w — and the whole weight matrix, and stores the product of the joined windows with
  the weights as the slab (n, 8g + r, w, q) of the convolution array [8,64,64,256], and the slab's column sums and
  column sums of squares as entry (n, g) of the statistics [8,8,2,256]. Read at an index the slab is the dilated
  convolution of the padded array (`Conv.convOf (Conv.ofPadded …)`), the 64 slabs tile the convolution array and the
  64 statistics blocks tile the statistics array.
-/
import proofs.«131269_g2000402634760427_pallasbulk_1319_18_alg».proof.Proof.Gen.ReferenceIdeal.Frame
import proofs.«131269_g2000402634760427_pallasbulk_1319_18_alg».proof.Proof.RReg0Pay
import proofs.«131269_g2000402634760427_pallasbulk_1319_18_alg».proof.Proof.Conv
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.ReferenceIdeal.Reg0
open Cert.ReferenceIdeal Cert.ReferenceIdeal.Gen

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The nine windows' offsets in closed form: row 8·g + 2·kh for slab g = i 1, column 0, 2 or 4. -/
theorem off_eq : ∀ i : grid0.Coords, ∀ r : Fin 3,
    k0_off1 i (BitVec.ofNat 32 (2 * r.val)) = ![0, 8 * (i 1).val + 2 * r.val, 0, 0]
    ∧ k0_off2 i (BitVec.ofNat 32 (2 * r.val)) = ![0, 8 * (i 1).val + 2 * r.val, 2, 0]
    ∧ k0_off3 i (BitVec.ofNat 32 (2 * r.val)) = ![0, 8 * (i 1).val + 2 * r.val, 4, 0] := by decide +kernel

/-- A load of an 8 × 64 window of a [1,68,68,256] block from row a, column b. -/
theorem ld_apply (x0 : Vec Ideal S1x68x68x256 .f32) (off : Fin 4 → Nat) (inb : ∀ a, off a + S1x8x64x256.size a ≤ S1x68x68x256.size a)
    (a b : ℕ) (hoff : off = ![0, a, b, 0]) (ha : a + 8 ≤ 68) (hb : b + 64 ≤ 68) (r : Fin 8) (w : Fin 64) (ci : Fin 256) :
    View.ld x0 (Rect.unit (s := S1x68x68x256) off S1x8x64x256.size inb) (ix4 (0 : Fin 1) r w ci)
      = x0 (ix4 (0 : Fin 1) (⟨a + r.val, by omega⟩ : Fin 68) (⟨b + w.val, by omega⟩ : Fin 68) ci) := by
  subst hoff
  show x0 ((Rect.unit (s := S1x68x68x256) ![0, a, b, 0] S1x8x64x256.size inb).emb (ix4 (0 : Fin 1) r w ci)) = _
  refine congrArg x0 (funext fun ax => Fin.ext ?_)
  match ax with
  | ⟨0, _⟩ => show 0 + 1 * 0 = 0; omega
  | ⟨1, _⟩ => show a + 1 * r.val = a + r.val; omega
  | ⟨2, _⟩ => show b + 1 * w.val = b + w.val; omega
  | ⟨3, _⟩ => show 0 + 1 * ci.val = ci.val; omega

/-- The window of tap (kh, kw) at grid coordinates i, as the body loads it. -/
def tapLd (x0 : Vec Ideal S1x68x68x256 .f32) (i : grid0.Coords) : Fin 3 → Fin 3 → Vec Ideal S1x8x64x256 .f32
  | kh, ⟨0, _⟩ => View.ld x0 (Rect.unit (s := S1x68x68x256) (k0_off1 i (BitVec.ofNat 32 (2 * kh.val))) S1x8x64x256.size (Gen.k0_off1_inb i kh))
  | kh, ⟨1, _⟩ => View.ld x0 (Rect.unit (s := S1x68x68x256) (k0_off2 i (BitVec.ofNat 32 (2 * kh.val))) S1x8x64x256.size (Gen.k0_off2_inb i kh))
  | kh, ⟨2, _⟩ => View.ld x0 (Rect.unit (s := S1x68x68x256) (k0_off3 i (BitVec.ofNat 32 (2 * kh.val))) S1x8x64x256.size (Gen.k0_off3_inb i kh))

theorem tapLd_apply (x0 : Vec Ideal S1x68x68x256 .f32) (i : grid0.Coords) (kh kw : Fin 3) (r : Fin 8) (w : Fin 64) (ci : Fin 256) :
    tapLd x0 i kh kw (ix4 (0 : Fin 1) r w ci)
      = x0 (ix4 (0 : Fin 1) (⟨8 * (i 1).val + 2 * kh.val + r.val, by have := (i 1).isLt; have h8 : (i 1).val < 8 := this; omega⟩ : Fin 68)
          (⟨2 * kw.val + w.val, by omega⟩ : Fin 68) ci) := by
  obtain ⟨e1, e2, e3⟩ := off_eq i kh
  have h8 : (i 1).val < 8 := (i 1).isLt
  match kw with
  | ⟨0, _⟩ => exact ld_apply x0 _ _ _ 0 e1 (by omega) (by omega) r w ci |>.trans (by congr 2 <;> (apply Fin.ext; show _ = _; omega))
  | ⟨1, _⟩ => exact ld_apply x0 _ _ _ 2 e2 (by omega) (by omega) r w ci |>.trans (by congr 2 <;> (apply Fin.ext; show _ = _; omega))
  | ⟨2, _⟩ => exact ld_apply x0 _ _ _ 4 e3 (by omega) (by omega) r w ci |>.trans (by congr 2 <;> (apply Fin.ext; show _ = _; omega))

/-- The pieces the body joins, tap by tap: piece 3·kh + kw is the flattened window of tap (kh, kw). -/
def tapPieces (x0 : Vec Ideal S1x68x68x256 .f32) (i : grid0.Coords) : Fin 9 → FVec Ideal S512x256 .f32 :=
  pieces (k0_pay4 (F := Ideal) (tapLd x0 i 0 0)) (k0_pay5 (F := Ideal) (tapLd x0 i 0 1)) (k0_pay6 (F := Ideal) (tapLd x0 i 0 2))
    (k0_pay7 (F := Ideal) (tapLd x0 i 1 0)) (k0_pay8 (F := Ideal) (tapLd x0 i 1 1)) (k0_pay9 (F := Ideal) (tapLd x0 i 1 2))
    (k0_pay10 (F := Ideal) (tapLd x0 i 2 0)) (tapLd x0 i 2 1) (tapLd x0 i 2 2)

theorem tapPieces_apply (x0 : Vec Ideal S1x68x68x256 .f32) (i : grid0.Coords) (kh kw : Fin 3) :
    tapPieces x0 i (⟨kh.val * 3 + kw.val, by omega⟩ : Fin 9) = flat (tapLd x0 i kh kw) := by
  fin_cases kh <;> fin_cases kw <;> rfl

/-- What the run leaves in the convolution block, from the blocks it loads. -/
theorem out2_eq (c : Dev nD) (i : grid0.Coords) (arg2 : Memref sig .tc .vmem S1x68x68x256 .f32) (harg2 : arg2.IsWhole) (arg3 : Memref sig .tc .vmem S2304x256 .f32) (harg3 : arg3.IsWhole) (arg4 : Memref sig .tc .vmem S1x8x64x256 .f32) (harg4 : arg4.IsWhole) (arg5 : Memref sig .tc .vmem S1x1x2x256 .f32) (harg5 : arg5.IsWhole)
    (x0 : Vec Ideal S1x68x68x256 .f32) (x1 : Vec Ideal S2304x256 .f32) :
    out0_A_2 (F := Ideal) c i arg2 harg2 arg3 harg3 arg4 harg4 arg5 harg5 x0 x1
      = k0_pay2 (F := Ideal) (k0_pay4 (tapLd x0 i 0 0)) (k0_pay5 (tapLd x0 i 0 1)) (k0_pay6 (tapLd x0 i 0 2))
          (k0_pay7 (tapLd x0 i 1 0)) (k0_pay8 (tapLd x0 i 1 1)) (k0_pay9 (tapLd x0 i 1 2))
          (k0_pay10 (tapLd x0 i 2 0)) (tapLd x0 i 2 1) (tapLd x0 i 2 2) x1 := by
  unfold out0_A_2
  rw [View.read_writes_eq_canon _ _ _ (cover0_A_2 c i arg2 harg2 arg3 harg3 arg4 harg4 arg5 harg5 x0 x1)]
  unfold kernelRun0_A
  dsimp only
  sl_unfold_run_names
  rw [View.canon_unit_zero hz4]
  simp only [View.readAt_eq_ld, harg2.read_unread, harg3.read_unread, View.ld_unit_zero (S := S2304x256) hz2]
  rfl

/-- The convolution block at (row r, column w, channel q): the sum over the nine taps and the input channels of
    the padded block at (8·g + 2·kh + r, 2·kw + w, ci) times the weight of the tap and channel. -/
theorem out2_apply (c : Dev nD) (i : grid0.Coords) (arg2 : Memref sig .tc .vmem S1x68x68x256 .f32) (harg2 : arg2.IsWhole) (arg3 : Memref sig .tc .vmem S2304x256 .f32) (harg3 : arg3.IsWhole) (arg4 : Memref sig .tc .vmem S1x8x64x256 .f32) (harg4 : arg4.IsWhole) (arg5 : Memref sig .tc .vmem S1x1x2x256 .f32) (harg5 : arg5.IsWhole)
    (x0 : Vec Ideal S1x68x68x256 .f32) (x1 : Vec Ideal S2304x256 .f32) (r : Fin 8) (w : Fin 64) (q : Fin 256) :
    out0_A_2 (F := Ideal) c i arg2 harg2 arg3 harg3 arg4 harg4 arg5 harg5 x0 x1 (ix4 (0 : Fin 1) r w q)
      = acc (tapPieces x0 i) x1 (ix2 (⟨64 * r.val + w.val, by omega⟩ : Fin 512) q) := by
  rw [out2_eq]
  exact pay2_apply _ _ _ _ _ _ _ _ _ x1 r w q

/-! ## The statistics block -/

/-- A sum over the nine pieces, taken tap by tap. -/
theorem sum_taps (f : Fin 9 → EReal) :
    ∑ kk : Fin 9, f kk = ∑ kh : Fin 3, ∑ kw : Fin 3, f (⟨kh.val * 3 + kw.val, by omega⟩ : Fin 9) := by
  show ∑ kk : Fin (3 * 3), f kk = _
  rw [← (finProdFinEquiv (m := 3) (n := 3)).sum_comp f, Fintype.sum_prod_type]
  refine Finset.sum_congr rfl fun kh _ => Finset.sum_congr rfl fun kw _ => congrArg f (Fin.ext ?_)
  show kw.val + 3 * kh.val = kh.val * 3 + kw.val
  omega

/-- A sum over the slab's 512 rows, taken row by row of the image. -/
theorem sum_rows (f : Fin 512 → EReal) :
    ∑ p : Fin 512, f p = ∑ r : Fin 8, ∑ w : Fin 64, f (⟨64 * r.val + w.val, by omega⟩ : Fin 512) := by
  show ∑ p : Fin (8 * 64), f p = _
  rw [← (finProdFinEquiv (m := 8) (n := 64)).sum_comp f, Fintype.sum_prod_type]
  refine Finset.sum_congr rfl fun r _ => Finset.sum_congr rfl fun w _ => congrArg f (Fin.ext ?_)
  show w.val + 64 * r.val = 64 * r.val + w.val
  omega

/-- Row j of the two joined rows [1,256]. -/
theorem rows2_apply (a b : FVec Ideal S1x256 .f32) (h : Shape.Concatenates [S1x256, S1x256] S2x256 0) (q : Fin 256) :
    concatenate S2x256 0 [⟨S1x256, a⟩, ⟨S1x256, b⟩] h (ix2 (0 : Fin 2) q) = a (ix2 (0 : Fin 1) q)
    ∧ concatenate S2x256 0 [⟨S1x256, a⟩, ⟨S1x256, b⟩] h (ix2 (1 : Fin 2) q) = b (ix2 (0 : Fin 1) q) := by
  have hi : ∀ (j : Fin 2) (bx : Fin 2), bx.cast (rfl : S1x256.rank = S2x256.rank) ≠ (0 : Fin 2) →
      ((ix2 (0 : Fin 1) q : S1x256.Idx) bx).val = ((ix2 j q : S2x256.Idx) (bx.cast rfl)).val := by
    intro j bx hb
    match bx with
    | ⟨0, _⟩ => exact absurd rfl hb
    | ⟨1, _⟩ => rfl
  constructor
  · exact concatenate_apply_piece 0 [⟨S1x256, a⟩, ⟨S1x256, b⟩] h _ 0 (show (0 : ℕ) < 2 from by omega) S1x256 a rfl rfl 0 rfl (ix2 (0 : Fin 1) q) (hi 0) rfl
  · exact concatenate_apply_piece 0 [⟨S1x256, a⟩, ⟨S1x256, b⟩] h _ 1 (show (1 : ℕ) < 2 from by omega) S1x256 b rfl rfl 1 rfl (ix2 (0 : Fin 1) q) (hi 1) rfl

/-- The stored statistics: row 0 the column sums of the product over the slab's 512 rows, row 1 the column sums of
    its squares. -/
theorem pay3_apply (v6 v10 v14 v19 v23 v27 v32 : FVec Ideal S512x256 .f32) (v34 v38 : FVec Ideal S1x8x64x256 .f32) (v42 : FVec Ideal S2304x256 .f32) (q : Fin 256) :
    k0_pay3 (F := Ideal) v6 v10 v14 v19 v23 v27 v32 v34 v38 v42 (ix4 (0 : Fin 1) (0 : Fin 1) (0 : Fin 2) q)
        = ∑ p : Fin 512, acc (pieces v6 v10 v14 v19 v23 v27 v32 v34 v38) v42 (ix2 p q)
    ∧ k0_pay3 (F := Ideal) v6 v10 v14 v19 v23 v27 v32 v34 v38 v42 (ix4 (0 : Fin 1) (0 : Fin 1) (1 : Fin 2) q)
        = ∑ p : Fin 512, acc (pieces v6 v10 v14 v19 v23 v27 v32 v34 v38) v42 (ix2 p q) * acc (pieces v6 v10 v14 v19 v23 v27 v32 v34 v38) v42 (ix2 p q) := by
  unfold k0_pay3
  try dsimp only
  constructor
  · refine (shapeCast_apply _ _ (ix4 (0 : Fin 1) (0 : Fin 1) (0 : Fin 2) q) (ix2 (0 : Fin 2) q) ?_).trans ?_
    · rw [Shape.rowMajor_val_two, Shape.rowMajor_val_four]; rfl
    refine (rows2_apply _ _ _ q).1.trans ?_
    refine (shapeCast_a_1a_apply _ _ (0 : Fin 1) q).trans ?_
    refine (colSum_apply _ _ _ q).trans ?_
    rw [pay1_eq]
  · refine (shapeCast_apply _ _ (ix4 (0 : Fin 1) (0 : Fin 1) (1 : Fin 2) q) (ix2 (1 : Fin 2) q) ?_).trans ?_
    · rw [Shape.rowMajor_val_two, Shape.rowMajor_val_four]; rfl
    refine (rows2_apply _ _ _ q).2.trans ?_
    refine (shapeCast_a_1a_apply _ _ (0 : Fin 1) q).trans ?_
    refine (colSum_apply _ _ _ q).trans ?_
    rw [pay1_eq]
    rfl

/-- What the run leaves in the statistics block, from the blocks it loads. -/
theorem out3_eq (c : Dev nD) (i : grid0.Coords) (arg2 : Memref sig .tc .vmem S1x68x68x256 .f32) (harg2 : arg2.IsWhole) (arg3 : Memref sig .tc .vmem S2304x256 .f32) (harg3 : arg3.IsWhole) (arg4 : Memref sig .tc .vmem S1x8x64x256 .f32) (harg4 : arg4.IsWhole) (arg5 : Memref sig .tc .vmem S1x1x2x256 .f32) (harg5 : arg5.IsWhole)
    (x0 : Vec Ideal S1x68x68x256 .f32) (x1 : Vec Ideal S2304x256 .f32) :
    out0_A_3 (F := Ideal) c i arg2 harg2 arg3 harg3 arg4 harg4 arg5 harg5 x0 x1
      = k0_pay3 (F := Ideal) (k0_pay4 (tapLd x0 i 0 0)) (k0_pay5 (tapLd x0 i 0 1)) (k0_pay6 (tapLd x0 i 0 2))
          (k0_pay7 (tapLd x0 i 1 0)) (k0_pay8 (tapLd x0 i 1 1)) (k0_pay9 (tapLd x0 i 1 2))
          (k0_pay10 (tapLd x0 i 2 0)) (tapLd x0 i 2 1) (tapLd x0 i 2 2) x1 := by
  unfold out0_A_3
  rw [View.read_writes_eq_canon _ _ _ (cover0_A_3 c i arg2 harg2 arg3 harg3 arg4 harg4 arg5 harg5 x0 x1)]
  unfold kernelRun0_A
  dsimp only
  sl_unfold_run_names
  rw [View.canon_unit_zero hz4]
  simp only [View.readAt_eq_ld, harg2.read_unread, harg3.read_unread, View.ld_unit_zero (S := S2304x256) hz2]
  rfl

/-! ## One grid point against the specification -/

/-- The product at the slab's row r, column w is the dilated convolution of the padded array at image n, row
    8·g + r, when the loaded block is image n of the padded array and the loaded weights are the weight matrix. -/
theorem conv_point (Xp : Cert.Conv.SP.Idx → EReal) (W : Cert.Conv.SW.Idx → EReal) (x0 : Vec Ideal S1x68x68x256 .f32) (x1 : Vec Ideal S2304x256 .f32)
    (i : grid0.Coords) (n : Fin 8)
    (hx0 : ∀ (R S : Fin 68) (ci : Fin 256), x0 (ix4 (0 : Fin 1) R S ci) = Xp (ix4 n R S ci))
    (hx1 : ∀ (K : Fin 2304) (q : Fin 256), x1 (ix2 K q) = W (ix2 K q))
    (r : Fin 8) (w : Fin 64) (q : Fin 256) :
    acc (tapPieces x0 i) x1 (ix2 (⟨64 * r.val + w.val, by omega⟩ : Fin 512) q)
      = Cert.Conv.convOf (Cert.Conv.ofPadded Xp) W n (⟨8 * (i 1).val + r.val, by have h8 : (i 1).val < 8 := (i 1).isLt; omega⟩ : Fin 64) w q := by
  have h8 : (i 1).val < 8 := (i 1).isLt
  rw [acc_apply, sum_taps]
  unfold Cert.Conv.convOf
  refine Finset.sum_congr rfl fun kh _ => Finset.sum_congr rfl fun kw _ => Finset.sum_congr rfl fun ci _ => ?_
  rw [tapPieces_apply, flat_apply, tapLd_apply, hx0, hx1]
  unfold Cert.Conv.ofPadded Cert.Conv.weight
  rw [dif_pos (show 8 * (i 1).val + r.val + 2 * kh.val < 68 ∧ w.val + 2 * kw.val < 68 from ⟨by omega, by omega⟩)]
  refine congrArg₂ (· * ·) (congrArg Xp (funext fun ax => Fin.ext ?_)) rfl
  match ax with
  | ⟨0, _⟩ => rfl
  | ⟨1, _⟩ => show 8 * (i 1).val + 2 * kh.val + r.val = 8 * (i 1).val + r.val + 2 * kh.val; omega
  | ⟨2, _⟩ => show 2 * kw.val + w.val = w.val + 2 * kw.val; omega
  | ⟨3, _⟩ => rfl

end Cert.ReferenceIdeal.Reg0
end
-- ==== Proof.RReg0Fin.lean ====
/-
  The reference program's first pass: from the 64 grid points' blocks to the two arrays.

  Point t = 8·n + g writes slab (n, 8g … 8g+7) of the convolution array and entry (n, g) of the statistics array;
  the slabs tile [8,64,64,256] and the entries tile [8,8,2,256]. So after the region the convolution array is the
  dilated convolution of the padded input array, and the statistics array holds, per image and slab, the sums of
  the slab's convolution values and of their squares.
-/
import proofs.«131269_g2000402634760427_pallasbulk_1319_18_alg».proof.Proof.Gen.ReferenceIdeal.Frame
import proofs.«131269_g2000402634760427_pallasbulk_1319_18_alg».proof.Proof.RReg0Pay
import proofs.«131269_g2000402634760427_pallasbulk_1319_18_alg».proof.Proof.RReg0
import proofs.«131269_g2000402634760427_pallasbulk_1319_18_alg».proof.Proof.Conv
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.ReferenceIdeal.Reg0
open Cert.ReferenceIdeal Cert.ReferenceIdeal.Gen

variable (V : (c : Dev nD) → (b : Ref sig .tc) → Buf (Elt Ideal) ((c : Thread nD τ).loc b))

/-- The grid is 8 images × 8 slabs, row-major. -/
theorem coords_facts : ∀ t : Fin cfg0.N, (grid0.coords t 0).val = t.val / 8 ∧ (grid0.coords t 1).val = t.val % 8 :=
  (by decide +kernel : ∀ t : Fin grid0.N, _)

/-- The index maps: the padded image n whole, the weights whole, slab (n, g) of the convolution, entry (n, g) of the statistics. -/
theorem idx_facts : ∀ t : Fin cfg0.N,
    win0_0.index t (0 : Fin 4) = t.val / 8 ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 8 ∧ win0_2.index t (1 : Fin 4) = t.val % 8 ∧ win0_2.index t (2 : Fin 4) = 0 ∧ win0_2.index t (3 : Fin 4) = 0
    ∧ win0_3.index t (0 : Fin 4) = t.val / 8 ∧ win0_3.index t (1 : Fin 4) = t.val % 8 ∧ win0_3.index t (2 : Fin 4) = 0 ∧ win0_3.index t (3 : Fin 4) = 0 :=
  (by decide +kernel : ∀ t : Fin grid0.N, _)

/-- The convolution array as a function of the padded input array and the weight matrix. -/
def GC (Xp : Cert.Conv.SP.Idx → EReal) (W : Cert.Conv.SW.Idx → EReal) : S8x64x64x256.Idx → EReal :=
  fun i => Cert.Conv.convOf (Cert.Conv.ofPadded Xp) W (i 0) (i 1) (i 2) (i 3)

/-- A slab's sum of the convolution values of channel q (j = 0) or of their squares (j = 1). -/
def slabStat (C : Fin 8 → Fin 64 → Fin 64 → Fin 256 → EReal) (n g : Fin 8) (j : Fin 2) (q : Fin 256) : EReal :=
  ∑ r : Fin 8, ∑ w : Fin 64,
    if j = 0 then C n (⟨8 * g.val + r.val, by omega⟩ : Fin 64) w q
    else C n (⟨8 * g.val + r.val, by omega⟩ : Fin 64) w q * C n (⟨8 * g.val + r.val, by omega⟩ : Fin 64) w q

/-- The statistics array as a function of the padded input array and the weight matrix. -/
def GS (Xp : Cert.Conv.SP.Idx → EReal) (W : Cert.Conv.SW.Idx → EReal) : S8x8x2x256.Idx → EReal :=
  fun i => slabStat (Cert.Conv.convOf (Cert.Conv.ofPadded Xp) W) (i 0) (i 1) (i 2) (i 3)

/-- The blocks the body loads at point t: image t / 8 of the padded array, and the weight matrix. -/
theorem blk0_apply (c : Dev nD) (t : Fin cfg0.N) (ht : t.val / 8 < 8) (R S : Fin 68) (ci : Fin 256) :
    iblk0 V c 0 t (ix4 (0 : Fin 1) R S ci) = (V c main_v1 : Cert.Conv.SP.Idx → EReal) (ix4 (⟨t.val / 8, ht⟩ : Fin 8) R S ci) := by
  obtain ⟨a0, a1, a2, a3, -⟩ := idx_facts t
  show V c main_v1 (((cfg0.win 0).blk t).view.emb (ix4 (0 : Fin 1) R S ci)) = _
  refine congrArg (V c main_v1) (funext fun ax => Fin.ext ?_)
  match ax with
  | ⟨0, _⟩ => show win0_0.index t (0 : Fin 4) * 1 + 1 * 0 = t.val / 8; omega
  | ⟨1, _⟩ => show win0_0.index t (1 : Fin 4) * 68 + 1 * R.val = R.val; omega
  | ⟨2, _⟩ => show win0_0.index t (2 : Fin 4) * 68 + 1 * S.val = S.val; omega
  | ⟨3, _⟩ => show win0_0.index t (3 : Fin 4) * 256 + 1 * ci.val = ci.val; omega

theorem blk1_apply (c : Dev nD) (t : Fin cfg0.N) (K : Fin 2304) (q : Fin 256) :
    iblk0 V c 1 t (ix2 K q) = (V c main_v4 : Cert.Conv.SW.Idx → EReal) (ix2 K q) := by
  obtain ⟨-, -, -, -, b0, b1, -⟩ := idx_facts t
  show V c main_v4 (((cfg0.win 1).blk t).view.emb (ix2 K q)) = _
  refine congrArg (V c main_v4) (funext fun ax => Fin.ext ?_)
  match ax with
  | ⟨0, _⟩ => show win0_1.index t (0 : Fin 2) * 2304 + 1 * K.val = K.val; omega
  | ⟨1, _⟩ => show win0_1.index t (1 : Fin 2) * 256 + 1 * q.val = q.val; omega

/-- What point t writes back of the convolution is its slab of the array function. -/
theorem flushed2_eq (c : Dev nD) (t : Fin cfg0.N) :
    (dat0 V c).flushed 2 t = ((cfg0.win 2).blk t).view.read (Elt Ideal) (GC (V c main_v1) (V c main_v4)) := by
  show (cfg0.win 2).cut (grid0.coords t) ((dat0 V c).after 2 t) = _
  rw [after0_2]
  unfold outsAt0
  dsimp only
  have hN : cfg0.N = 64 := N_0
  have ht : t.val < 64 := hN ▸ t.isLt
  obtain ⟨-, -, -, -, -, -, o0, o1, o2, o3, -⟩ := idx_facts t
  obtain ⟨c0, c1⟩ := coords_facts t
  funext j
  obtain ⟨u, r, w, q, rfl⟩ : ∃ (u : Fin 1) (r : Fin 8) (w : Fin 64) (q : Fin 256), j = ix4 u r w q := ⟨j 0, j 1, j 2, j 3, eq_ix4 j⟩
  obtain rfl : u = 0 := Subsingleton.elim _ _
  refine (out2_apply c (grid0.coords t) (ms0_0 t) (hs0_0 t) (ms0_1 t) (hs0_1 t) (ms0_2 t) (hs0_2 t) (ms0_3 t) (hs0_3 t) (iblk0 V c 0 t) (iblk0 V c 1 t) r w q).trans ?_
  refine (conv_point (V c main_v1) (V c main_v4) (iblk0 V c 0 t) (iblk0 V c 1 t) (grid0.coords t) (⟨t.val / 8, by omega⟩ : Fin 8)
    (blk0_apply V c t (by omega)) (blk1_apply V c t) r w q).trans ?_
  have e2 : ((cfg0.win 2).blk t).view.emb (ix4 (0 : Fin 1) r w q)
      = (ix4 (⟨t.val / 8, by omega⟩ : Fin 8) (⟨t.val % 8 * 8 + r.val, by omega⟩ : Fin 64) w q : S8x64x64x256.Idx) := by
    funext a; apply Fin.ext
    match a with
    | ⟨0, _⟩ => show win0_2.index t (0 : Fin 4) * 1 + 1 * 0 = t.val / 8; omega
    | ⟨1, _⟩ => show win0_2.index t (1 : Fin 4) * 8 + 1 * r.val = t.val % 8 * 8 + r.val; omega
    | ⟨2, _⟩ => show win0_2.index t (2 : Fin 4) * 64 + 1 * w.val = w.val; omega
    | ⟨3, _⟩ => show win0_2.index t (3 : Fin 4) * 256 + 1 * q.val = q.val; omega
  show _ = GC (V c main_v1) (V c main_v4) (((cfg0.win 2).blk t).view.emb (ix4 (0 : Fin 1) r w q))
  rw [e2]
  unfold GC
  refine congrArg (fun z => Cert.Conv.convOf (Cert.Conv.ofPadded (V c main_v1)) (V c main_v4) _ z w q) (Fin.ext ?_)
  show 8 * (grid0.coords t 1).val + r.val = t.val % 8 * 8 + r.val
  omega

/-- An index of the convolution array is in point t's slab iff each coordinate is in the slab's range. -/
theorem mem_blk2 (t : Fin cfg0.N) (i : S8x64x64x256.Idx) :
    i ∈ ((cfg0.win 2).blk t).view.set ↔ ∀ a : Fin 4, win0_2.index t a * S1x8x64x256.size a ≤ (i a).val ∧ (i a).val < win0_2.index t a * S1x8x64x256.size a + S1x8x64x256.size a := by
  show i ∈ ((View.whole main_v5_0).slice (win0_2.rect t)).set ↔ _
  rw [View.set_slice_whole, Rect.mem_set_unit]
  exact Iff.rfl

theorem cover2 (i : S8x64x64x256.Idx) : ∃ t : Fin cfg0.N, (cfg0.win 2).flush t = true ∧ i ∈ ((cfg0.win 2).blk t).view.set := by
  have hN : cfg0.N = 64 := N_0
  have hi0 : (i 0).val < 8 := (i 0).isLt
  have hi1 : (i 1).val < 64 := (i 1).isLt
  have hi2 : (i 2).val < 64 := (i 2).isLt
  have hi3 : (i 3).val < 256 := (i 3).isLt
  have hlt : (i 0).val * 8 + (i 1).val / 8 < cfg0.N := by omega
  refine ⟨⟨(i 0).val * 8 + (i 1).val / 8, hlt⟩, flush0_2 _, ?_⟩
  rw [mem_blk2]
  obtain ⟨-, -, -, -, -, -, o0, o1, o2, o3, -⟩ := idx_facts ⟨(i 0).val * 8 + (i 1).val / 8, hlt⟩
  have o0' : win0_2.index ⟨(i 0).val * 8 + (i 1).val / 8, hlt⟩ (0 : Fin 4) = ((i 0).val * 8 + (i 1).val / 8) / 8 := o0
  have o1' : win0_2.index ⟨(i 0).val * 8 + (i 1).val / 8, hlt⟩ (1 : Fin 4) = ((i 0).val * 8 + (i 1).val / 8) % 8 := o1
  intro a
  match a with
  | ⟨0, _⟩ => show win0_2.index _ (0 : Fin 4) * 1 ≤ (i 0).val ∧ (i 0).val < win0_2.index _ (0 : Fin 4) * 1 + 1; rw [o0']; omega
  | ⟨1, _⟩ => show win0_2.index _ (1 : Fin 4) * 8 ≤ (i 1).val ∧ (i 1).val < win0_2.index _ (1 : Fin 4) * 8 + 8; rw [o1']; omega
  | ⟨2, _⟩ => show win0_2.index _ (2 : Fin 4) * 64 ≤ (i 2).val ∧ (i 2).val < win0_2.index _ (2 : Fin 4) * 64 + 64; rw [o2]; omega
  | ⟨3, _⟩ => show win0_2.index _ (3 : Fin 4) * 256 ≤ (i 3).val ∧ (i 3).val < win0_2.index _ (3 : Fin 4) * 256 + 256; rw [o3]; omega

/-- THE CONVOLUTION ARRAY after the region. -/
theorem final2 (c : Dev nD) : (dat0 V c).arrAt 2 cfg0.N = GC (V c main_v1) (V c main_v4) :=
  (dat0 V c).arrAt_eq_of_cover 2 _ (fun t _ => flushed2_eq V c t) cover2

/-! ## The statistics array -/

/-- What point t writes back of the statistics is its entry of the array function. -/
theorem flushed3_eq (c : Dev nD) (t : Fin cfg0.N) :
    (dat0 V c).flushed 3 t = ((cfg0.win 3).blk t).view.read (Elt Ideal) (GS (V c main_v1) (V c main_v4)) := by
  show (cfg0.win 3).cut (grid0.coords t) ((dat0 V c).after 3 t) = _
  rw [after0_3]
  unfold outsAt0
  dsimp only
  have hN : cfg0.N = 64 := N_0
  have ht : t.val < 64 := hN ▸ t.isLt
  obtain ⟨-, -, -, -, -, -, -, -, -, -, s0, s1, s2, s3⟩ := idx_facts t
  obtain ⟨c0, c1⟩ := coords_facts t
  funext j
  obtain ⟨u, u', jj, q, rfl⟩ : ∃ (u u' : Fin 1) (jj : Fin 2) (q : Fin 256), j = ix4 u u' jj q := ⟨j 0, j 1, j 2, j 3, eq_ix4 j⟩
  obtain rfl : u = 0 := Subsingleton.elim _ _
  obtain rfl : u' = 0 := Subsingleton.elim _ _
  refine (congrFun (out3_eq c (grid0.coords t) (ms0_0 t) (hs0_0 t) (ms0_1 t) (hs0_1 t) (ms0_2 t) (hs0_2 t) (ms0_3 t) (hs0_3 t) (iblk0 V c 0 t) (iblk0 V c 1 t)) _).trans ?_
  have e3 : ((cfg0.win 3).blk t).view.emb (ix4 (0 : Fin 1) (0 : Fin 1) jj q)
      = (ix4 (⟨t.val / 8, by omega⟩ : Fin 8) (⟨t.val % 8, by omega⟩ : Fin 8) jj q : S8x8x2x256.Idx) := by
    funext a; apply Fin.ext
    match a with
    | ⟨0, _⟩ => show win0_3.index t (0 : Fin 4) * 1 + 1 * 0 = t.val / 8; omega
    | ⟨1, _⟩ => show win0_3.index t (1 : Fin 4) * 1 + 1 * 0 = t.val % 8; omega
    | ⟨2, _⟩ => show win0_3.index t (2 : Fin 4) * 2 + 1 * jj.val = jj.val; omega
    | ⟨3, _⟩ => show win0_3.index t (3 : Fin 4) * 256 + 1 * q.val = q.val; omega
  show _ = GS (V c main_v1) (V c main_v4) (((cfg0.win 3).blk t).view.emb (ix4 (0 : Fin 1) (0 : Fin 1) jj q))
  rw [e3]
  have P := pay3_apply (k0_pay4 (F := Ideal) (tapLd (iblk0 V c 0 t) (grid0.coords t) 0 0)) (k0_pay5 (F := Ideal) (tapLd (iblk0 V c 0 t) (grid0.coords t) 0 1))
    (k0_pay6 (F := Ideal) (tapLd (iblk0 V c 0 t) (grid0.coords t) 0 2)) (k0_pay7 (F := Ideal) (tapLd (iblk0 V c 0 t) (grid0.coords t) 1 0))
    (k0_pay8 (F := Ideal) (tapLd (iblk0 V c 0 t) (grid0.coords t) 1 1)) (k0_pay9 (F := Ideal) (tapLd (iblk0 V c 0 t) (grid0.coords t) 1 2))
    (k0_pay10 (F := Ideal) (tapLd (iblk0 V c 0 t) (grid0.coords t) 2 0)) (tapLd (iblk0 V c 0 t) (grid0.coords t) 2 1) (tapLd (iblk0 V c 0 t) (grid0.coords t) 2 2)
    (iblk0 V c 1 t) q
  have hpt : ∀ (r : Fin 8) (w : Fin 64),
      acc (tapPieces (iblk0 V c 0 t) (grid0.coords t)) (iblk0 V c 1 t) (ix2 (⟨64 * r.val + w.val, by omega⟩ : Fin 512) q)
        = Cert.Conv.convOf (Cert.Conv.ofPadded (V c main_v1)) (V c main_v4) (⟨t.val / 8, by omega⟩ : Fin 8)
            (⟨8 * (⟨t.val % 8, by omega⟩ : Fin 8).val + r.val, by show 8 * (t.val % 8) + r.val < 64; omega⟩ : Fin 64) w q := by
    intro r w
    refine (conv_point (V c main_v1) (V c main_v4) (iblk0 V c 0 t) (iblk0 V c 1 t) (grid0.coords t) (⟨t.val / 8, by omega⟩ : Fin 8)
      (blk0_apply V c t (by omega)) (blk1_apply V c t) r w q).trans ?_
    refine congrArg (fun z => Cert.Conv.convOf (Cert.Conv.ofPadded (V c main_v1)) (V c main_v4) _ z w q) (Fin.ext ?_)
    show 8 * (grid0.coords t 1).val + r.val = 8 * (t.val % 8) + r.val
    omega
  unfold GS slabStat
  match jj with
  | ⟨0, _⟩ =>
    refine P.1.trans ?_
    show ∑ p : Fin 512, acc (tapPieces (iblk0 V c 0 t) (grid0.coords t)) (iblk0 V c 1 t) (ix2 p q) = _
    rw [sum_rows]
    refine Finset.sum_congr rfl fun r _ => Finset.sum_congr rfl fun w _ => ?_
    rw [hpt r w]
    exact (if_pos rfl).symm
  | ⟨1, _⟩ =>
    refine P.2.trans ?_
    show ∑ p : Fin 512, acc (tapPieces (iblk0 V c 0 t) (grid0.coords t)) (iblk0 V c 1 t) (ix2 p q)
        * acc (tapPieces (iblk0 V c 0 t) (grid0.coords t)) (iblk0 V c 1 t) (ix2 p q) = _
    rw [sum_rows]
    refine Finset.sum_congr rfl fun r _ => Finset.sum_congr rfl fun w _ => ?_
    rw [hpt r w]
    exact (if_neg (fun h => Nat.one_ne_zero (congrArg Fin.val h))).symm

theorem mem_blk3 (t : Fin cfg0.N) (i : S8x8x2x256.Idx) :
    i ∈ ((cfg0.win 3).blk t).view.set ↔ ∀ a : Fin 4, win0_3.index t a * S1x1x2x256.size a ≤ (i a).val ∧ (i a).val < win0_3.index t a * S1x1x2x256.size a + S1x1x2x256.size a := by
  show i ∈ ((View.whole main_v5_1).slice (win0_3.rect t)).set ↔ _
  rw [View.set_slice_whole, Rect.mem_set_unit]
  exact Iff.rfl

theorem cover3 (i : S8x8x2x256.Idx) : ∃ t : Fin cfg0.N, (cfg0.win 3).flush t = true ∧ i ∈ ((cfg0.win 3).blk t).view.set := by
  have hN : cfg0.N = 64 := N_0
  have hi0 : (i 0).val < 8 := (i 0).isLt
  have hi1 : (i 1).val < 8 := (i 1).isLt
  have hi2 : (i 2).val < 2 := (i 2).isLt
  have hi3 : (i 3).val < 256 := (i 3).isLt
  have hlt : (i 0).val * 8 + (i 1).val < cfg0.N := by omega
  refine ⟨⟨(i 0).val * 8 + (i 1).val, hlt⟩, flush0_3 _, ?_⟩
  rw [mem_blk3]
  obtain ⟨-, -, -, -, -, -, -, -, -, -, s0, s1, s2, s3⟩ := idx_facts ⟨(i 0).val * 8 + (i 1).val, hlt⟩
  have s0' : win0_3.index ⟨(i 0).val * 8 + (i 1).val, hlt⟩ (0 : Fin 4) = ((i 0).val * 8 + (i 1).val) / 8 := s0
  have s1' : win0_3.index ⟨(i 0).val * 8 + (i 1).val, hlt⟩ (1 : Fin 4) = ((i 0).val * 8 + (i 1).val) % 8 := s1
  intro a
  match a with
  | ⟨0, _⟩ => show win0_3.index _ (0 : Fin 4) * 1 ≤ (i 0).val ∧ (i 0).val < win0_3.index _ (0 : Fin 4) * 1 + 1; rw [s0']; omega
  | ⟨1, _⟩ => show win0_3.index _ (1 : Fin 4) * 1 ≤ (i 1).val ∧ (i 1).val < win0_3.index _ (1 : Fin 4) * 1 + 1; rw [s1']; omega
  | ⟨2, _⟩ => show win0_3.index _ (2 : Fin 4) * 2 ≤ (i 2).val ∧ (i 2).val < win0_3.index _ (2 : Fin 4) * 2 + 2; rw [s2]; omega
  | ⟨3, _⟩ => show win0_3.index _ (3 : Fin 4) * 256 ≤ (i 3).val ∧ (i 3).val < win0_3.index _ (3 : Fin 4) * 256 + 256; rw [s3]; omega

/-- THE STATISTICS ARRAY after the region. -/
theorem final3 (c : Dev nD) : (dat0 V c).arrAt 3 cfg0.N = GS (V c main_v1) (V c main_v4) :=
  (dat0 V c).arrAt_eq_of_cover 3 _ (fun t _ => flushed3_eq V c t) cover3

end Cert.ReferenceIdeal.Reg0
end
-- ==== Proof.RTotals.lean ====
/-
  The host's sum of the per-slab statistics over images and slabs.

  A reduce-add of an [8,8,2,256] array over its first two axes, from an initial value, is at (j, q) the initial
  value plus the sum over the 8 × 8 (image, slab) pairs of the array at (n, g, j, q): the indices that drop to
  (j, q) are exactly those with last two coordinates (j, q).
-/
import proofs.«131269_g2000402634760427_pallasbulk_1319_18_alg».proof.Proof.Gen.ReferenceIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section
open Idealize.ShloMosaic Idealize.ShloMosaic.TcCoe Idealize.ShloMosaic.Tactic Idealize.SL.Sem
open Idealize.ShloMosaic.ValueIdx

namespace Cert.ReferenceIdeal.Totals
open Cert.ReferenceIdeal Cert.ReferenceIdeal.Gen

/-- An index drops to (j, q) exactly when its last two coordinates are j and q. -/
theorem drop_iff (h : S8x8x2x256.ReducesTo [0, 1] S2x256) (i : S8x8x2x256.Idx) (j : Fin 2) (q : Fin 256) :
    h.drop i = ix2 j q ↔ i = ix4 (i 0) (i 1) j q := by
  constructor
  · intro e
    have e0 : (i 2).val = j.val := congrArg Fin.val (congrFun e 0)
    have e1 : (i 3).val = q.val := congrArg Fin.val (congrFun e 1)
    funext a
    match a with
    | ⟨0, _⟩ => rfl
    | ⟨1, _⟩ => rfl
    | ⟨2, _⟩ => exact Fin.ext e0
    | ⟨3, _⟩ => exact Fin.ext e1
  · intro e
    rw [e]
    funext b
    match b with
    | ⟨0, _⟩ => rfl
    | ⟨1, _⟩ => rfl

/-- The host's sum over images and slabs, read at (j, q). -/
theorem hostSum2_apply (X : FVec Ideal S8x8x2x256 .f32) (init : FVec Ideal S_ .f32) (j : Fin 2) (q : Fin 256) :
    Host.reduceAdd (F := Ideal) X init reducesTo_S8x8x2x256_S2x256_d0_1 h_S_ (ix2 j q)
      = init (Shape.Idx.first h_S_) + ∑ n : Fin 8, ∑ g : Fin 8, X (ix4 n g j q) := by
  show init (Shape.Idx.first h_S_) + ∑ i ∈ Finset.univ.filter (fun i : S8x8x2x256.Idx => reducesTo_S8x8x2x256_S2x256_d0_1.drop i = ix2 j q), X i = _
  congr 1
  rw [← Fintype.sum_prod_type' (f := fun (n g : Fin 8) => X (ix4 n g j q))]
  symm
  refine Finset.sum_bij (fun (p : Fin 8 × Fin 8) _ => (ix4 p.1 p.2 j q : S8x8x2x256.Idx)) ?_ ?_ ?_ ?_
  · intro p _
    rw [Finset.mem_filter]
    exact ⟨Finset.mem_univ _, (drop_iff _ _ j q).mpr rfl⟩
  · intro p _ p' _ e
    have e0 : p.1 = p'.1 := congrFun e 0
    have e1 : p.2 = p'.2 := congrFun e 1
    exact Prod.ext e0 e1
  · intro i hi
    rw [Finset.mem_filter] at hi
    exact ⟨(i 0, i 1), Finset.mem_univ _, ((drop_iff _ i j q).mp hi.2).symm⟩
  · intro p _
    rfl

end Cert.ReferenceIdeal.Totals
end
-- ==== Proof.Bridge.lean ====
/-
  The bridge: at the extended reals the two programs leave the same array in their result buffers.

  Both compute a 3×3 convolution with dilation 2 over a zero-padded 64×64 image of 256 channels, the batch
  statistics of its output per channel (sum and sum of squares over 8·64·64 positions, divided by 32768), and
  max(conv · (γ · rsqrt(var + ε)) + (β − mean · γ · rsqrt(var + ε)), 0). They differ in how the sums are
  grouped — three products over 768 = 3·256 (kw, ci) pairs per kernel row against one over 2304 = 9·256;
  partial statistics per image against per 8-row slab — and in β − mean · (γ · inv) against β − (mean · γ) · inv:
  regrouping of finite sums and associativity of the product, both of which hold on all of the extended reals.

  Each side has been read down to the convolution specification (Proof/Conv.lean): the reference through its padded
  array, the kernel program through the unpadded input; the two padded-input functions agree wherever the
  convolution reads them, the weight matrices are the same function of the launch's weights, and a sum over an
  image's 64 rows is the sum over its 8 slabs of the sums over the slab's 8 rows.
-/
import proofs.«131269_g2000402634760427_pallasbulk_1319_18_alg».proof.Proof.KernelRun
import proofs.«131269_g2000402634760427_pallasbulk_1319_18_alg».proof.Proof.RefRun
import proofs.«131269_g2000402634760427_pallasbulk_1319_18_alg».proof.Proof.Spec
import proofs.«131269_g2000402634760427_pallasbulk_1319_18_alg».proof.Proof.Conv
import proofs.«131269_g2000402634760427_pallasbulk_1319_18_alg».proof.Proof.KValue
import proofs.«131269_g2000402634760427_pallasbulk_1319_18_alg».proof.Proof.KPre
import proofs.«131269_g2000402634760427_pallasbulk_1319_18_alg».proof.Proof.KReg0f
import proofs.«131269_g2000402634760427_pallasbulk_1319_18_alg».proof.Proof.RValue
import proofs.«131269_g2000402634760427_pallasbulk_1319_18_alg».proof.Proof.RPre
import proofs.«131269_g2000402634760427_pallasbulk_1319_18_alg».proof.Proof.RReg0Fin
import proofs.«131269_g2000402634760427_pallasbulk_1319_18_alg».proof.Proof.RTotals
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.Conv

/-- A sum over an image's 64 rows, taken slab by slab. -/
theorem sum_slabs (f : Fin 64 → EReal) :
    ∑ h : Fin 64, f h = ∑ g : Fin 8, ∑ r : Fin 8, f (⟨8 * g.val + r.val, by omega⟩ : Fin 64) := by
  show ∑ h : Fin (8 * 8), f h = _
  rw [← (finProdFinEquiv (m := 8) (n := 8)).sum_comp f, Fintype.sum_prod_type]
  refine Finset.sum_congr rfl fun g _ => Finset.sum_congr rfl fun r _ => congrArg f (Fin.ext ?_)
  show r.val + 8 * g.val = 8 * g.val + r.val
  omega

/-- Two convolutions agree when their padded-input functions agree wherever they are read and their weights agree. -/
theorem convOf_congr (P P' : Fin 8 → ℕ → ℕ → Fin 256 → EReal) (W W' : SW.Idx → EReal)
    (hP : ∀ n r s ci, r < 68 → s < 68 → P n r s ci = P' n r s ci)
    (hW : ∀ kh kw ci q, weight W kh kw ci q = weight W' kh kw ci q) (n : Fin 8) (h w : Fin 64) (q : Fin 256) :
    convOf P W n h w q = convOf P' W' n h w q := by
  unfold convOf
  refine Finset.sum_congr rfl fun kh _ => Finset.sum_congr rfl fun kw _ => Finset.sum_congr rfl fun ci _ => ?_
  rw [hP n _ _ ci (by omega) (by omega), hW]

/-- The per-slab sums of an image, summed over its slabs, are the image's sums. -/
theorem slab_sums (C : Fin 8 → Fin 64 → Fin 64 → Fin 256 → EReal) (n : Fin 8) (q : Fin 256) :
    ∑ g : Fin 8, Cert.ReferenceIdeal.Reg0.slabStat C n g (0 : Fin 2) q = sum1 C n q
    ∧ ∑ g : Fin 8, Cert.ReferenceIdeal.Reg0.slabStat C n g (1 : Fin 2) q = sum2 C n q := by
  unfold Cert.ReferenceIdeal.Reg0.slabStat sum1 sum2
  constructor
  · rw [sum_slabs]
    refine Finset.sum_congr rfl fun g _ => Finset.sum_congr rfl fun r _ => Finset.sum_congr rfl fun w _ => ?_
    exact if_pos rfl
  · rw [sum_slabs]
    refine Finset.sum_congr rfl fun g _ => Finset.sum_congr rfl fun r _ => Finset.sum_congr rfl fun w _ => ?_
    exact if_neg (fun h => Nat.one_ne_zero (congrArg Fin.val h))

section
variable
  (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

/-- The kernel program's convolution function: of the arrays its first region finds. -/
abbrev CK (c : Dev Cert.KernelIdeal.nD) : Fin 8 → Fin 64 → Fin 64 → Fin 256 → EReal :=
  conv (Cert.KernelIdeal.Gen.V3 (F := Ideal) m ρ c Cert.KernelIdeal.main_v0) (Cert.KernelIdeal.Gen.V3 (F := Ideal) m ρ c Cert.KernelIdeal.main_v4)

/-- The reference's convolution function: of the padded array and the weights its first region finds. -/
abbrev CR (c : Dev Cert.ReferenceIdeal.nD) : Fin 8 → Fin 64 → Fin 64 → Fin 256 → EReal :=
  convOf (ofPadded (Cert.ReferenceIdeal.Gen.V5 (F := Ideal) m' ρ' c Cert.ReferenceIdeal.main_v1)) (Cert.ReferenceIdeal.Gen.V5 (F := Ideal) m' ρ' c Cert.ReferenceIdeal.main_v4)

/-- From launch memories that agree on the input and the weights, the two convolution functions agree. -/
theorem conv_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (n : Fin 8) (h w : Fin 64) (q : Fin 256) : CR m' ρ' c n h w q = CK m ρ c n h w q := by
  refine convOf_congr _ _ _ _ (fun n r s ci hr hs => ?_) (fun kh kw ci q => ?_) n h w q
  · unfold ofPadded
    rw [dif_pos ⟨hr, hs⟩]
    refine (Cert.ReferenceIdeal.Pre.v5_v1_apply m' ρ' c n ⟨r, hr⟩ ⟨s, hs⟩ ci).trans ?_
    unfold padded
    by_cases hin : (2 ≤ r ∧ r < 66) ∧ (2 ≤ s ∧ s < 66)
    · rw [dif_pos hin, dif_pos hin, Cert.ReferenceIdeal.Pre.inputNHWC_apply, Cert.KernelIdeal.Pre.v3_v0_apply, h0]
    · rw [dif_neg hin, dif_neg hin]
  · unfold weight
    rw [Cert.ReferenceIdeal.Pre.v5_v4_apply, Cert.KernelIdeal.Pre.v3_v4_apply, h1]

end

section
variable
  (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

/-- The two results agree, GIVEN that the kernel program's first region leaves the convolution of the arrays it
    finds and, per image, the sums of the outputs and of their squares. -/
theorem result_eq_of
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD)
    (hconv : ∀ (n : Fin 8) (h w : Fin 64) (q : Fin 256),
      Cert.KernelIdeal.Value.Cv m ρ c (ix3 n (⟨64 * h.val + w.val, by omega⟩ : Fin 4096) q) = CK m ρ c n h w q)
    (hstats : ∀ (n : Fin 8) (q : Fin 256),
      Cert.KernelIdeal.Value.St m ρ c (ix3 n (0 : Fin 2) q) = sum1 (CK m ρ c) n q
      ∧ Cert.KernelIdeal.Value.St m ρ c (ix3 n (1 : Fin 2) q) = sum2 (CK m ρ c) n q) :
    (Cert.ReferenceIdeal.Gen.W13 (F := Ideal) m' ρ' c (Proc.devRef .tc Cert.ReferenceIdeal.main_v31) : Cert.KernelIdeal.S8x256x64x64.Idx → EReal)
      = Cert.KernelIdeal.Gen.W11 (F := Ideal) m ρ c (Proc.devRef .tc Cert.KernelIdeal.main_v12) := by
  obtain ⟨h0, h1, h2, h3⟩ := hagree c
  have hC : ∀ n h w q, CR m' ρ' c n h w q = CK m ρ c n h w q := conv_agree m ρ m' ρ' c h0 h1
  have hCfun : CR m' ρ' c = CK m ρ c := funext fun n => funext fun h => funext fun w => funext fun q => hC n h w q
  funext i
  obtain ⟨n, q, h, w, rfl⟩ : ∃ (n : Fin 8) (q : Fin 256) (h w : Fin 64), i = ix4 n q h w := ⟨i 0, i 1, i 2, i 3, eq_ix4 i⟩
  refine (Cert.ReferenceIdeal.Value.reference_value m' ρ' c n q h w).trans ?_
  refine Eq.trans ?_ (Cert.KernelIdeal.Value.kernel_value m ρ c n q h w).symm
  rw [Cert.Spec.bnK_eq_bnR]
  -- the convolution value
  have e1 : Cert.ReferenceIdeal.Value.Cv m' ρ' c (ix4 n h w q)
      = Cert.KernelIdeal.Value.Cv m ρ c (ix3 n (⟨64 * h.val + w.val, by omega⟩ : Fin 4096) q) :=
    (congrFun (Cert.ReferenceIdeal.Reg0.final2 (Cert.ReferenceIdeal.Gen.V5 (F := Ideal) m' ρ') c) (ix4 n h w q)).trans
      ((hC n h w q).trans (hconv n h w q).symm)
  -- the channel's totals
  have e2 : ∀ j : Fin 2, Cert.ReferenceIdeal.Value.totals m' ρ' c (ix2 j q) = ∑ k : Fin 8, Cert.KernelIdeal.Value.St m ρ c (ix3 k j q) := by
    intro j
    have hX : (Cert.ReferenceIdeal.Gen.W6 (F := Ideal) m' ρ' c (Proc.devRef .tc Cert.ReferenceIdeal.main_v5_1) : Cert.ReferenceIdeal.S8x8x2x256.Idx → EReal)
        = Cert.ReferenceIdeal.Reg0.GS (Cert.ReferenceIdeal.Gen.V5 (F := Ideal) m' ρ' c Cert.ReferenceIdeal.main_v1) (Cert.ReferenceIdeal.Gen.V5 (F := Ideal) m' ρ' c Cert.ReferenceIdeal.main_v4) :=
      (Cert.ReferenceIdeal.Value.w6_v51 m' ρ' c).trans (Cert.ReferenceIdeal.Reg0.final3 (Cert.ReferenceIdeal.Gen.V5 (F := Ideal) m' ρ') c)
    refine (Cert.ReferenceIdeal.Totals.hostSum2_apply (Cert.ReferenceIdeal.Gen.W6 (F := Ideal) m' ρ' c (Proc.devRef .tc Cert.ReferenceIdeal.main_v5_1)) (constant (F := Ideal) Cert.ReferenceIdeal.S_ .f32 0x00000000#32) j q).trans ?_
    rw [hX, show (constant (F := Ideal) Cert.ReferenceIdeal.S_ .f32 0x00000000#32) (Shape.Idx.first Cert.ReferenceIdeal.Gen.h_S_) = (0 : EReal) from Ideal.ofBits_zero_f32, zero_add]
    refine Finset.sum_congr rfl fun k _ => ?_
    show ∑ g : Fin 8, Cert.ReferenceIdeal.Reg0.slabStat (CR m' ρ' c) k g j q = _
    rw [hCfun]
    match j with
    | ⟨0, _⟩ => exact (slab_sums _ k q).1.trans (hstats k q).1.symm
    | ⟨1, _⟩ => exact (slab_sums _ k q).2.trans (hstats k q).2.symm
  rw [e1, e2 0, e2 1, show m' ((c.tc : Thread Cert.ReferenceIdeal.nD Cert.ReferenceIdeal.τ).loc Cert.ReferenceIdeal.main_arg2) (ix1 q) = m ((c.tc : Thread Cert.KernelIdeal.nD Cert.KernelIdeal.τ).loc Cert.KernelIdeal.main_arg2) (ix1 q) from congrFun h2 (ix1 q),
    show m' ((c.tc : Thread Cert.ReferenceIdeal.nD Cert.ReferenceIdeal.τ).loc Cert.ReferenceIdeal.main_arg3) (ix1 q) = m ((c.tc : Thread Cert.KernelIdeal.nD Cert.KernelIdeal.τ).loc Cert.KernelIdeal.main_arg3) (ix1 q) from congrFun h3 (ix1 q)]

end

/-- From launch memories that agree on the four arguments, the reference's result buffer at its last boundary
    holds what the kernel program's does. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    (Cert.ReferenceIdeal.Gen.W13 (F := Ideal) m' ρ' c (Proc.devRef .tc Cert.ReferenceIdeal.main_v31) : Cert.KernelIdeal.S8x256x64x64.Idx → EReal)
      = Cert.KernelIdeal.Gen.W11 (F := Ideal) m ρ c (Proc.devRef .tc Cert.KernelIdeal.main_v12) :=
  result_eq_of m ρ m' ρ' hagree c
    (fun n h w q => Cert.KernelIdeal.Reg0.conv_final (Cert.KernelIdeal.Gen.V3 (F := Ideal) m ρ) c n h w q)
    (fun n q => Cert.KernelIdeal.Reg0.stats_final (Cert.KernelIdeal.Gen.V3 (F := Ideal) m ρ) c n q)

end Cert.Bridge

end
-- ==== Proof.lean ====
/-
  The certificate's five claims.

  The three frames are the generated frame certificates of the three programs (each a program of two kernel
  regions among host operations). The idealization rewrote nothing, so `preserves` is `True`. For the
  algebraic claim both programs are run with their result buffers named (Proof/KernelRun.lean,
  Proof/RefRun.lean: every execution ends with each buffer at the last boundary's contents), and the two
  contents are one array (Proof/Bridge.lean).
-/
import proofs.«131269_g2000402634760427_pallasbulk_1319_18_alg».proof.Defs
import proofs.«131269_g2000402634760427_pallasbulk_1319_18_alg».proof.Proof.Gen.Kernel
import proofs.«131269_g2000402634760427_pallasbulk_1319_18_alg».proof.Proof.Gen.Kernel.Frame
import proofs.«131269_g2000402634760427_pallasbulk_1319_18_alg».proof.Proof.Gen.KernelIdeal
import proofs.«131269_g2000402634760427_pallasbulk_1319_18_alg».proof.Proof.Gen.KernelIdeal.Frame
import proofs.«131269_g2000402634760427_pallasbulk_1319_18_alg».proof.Proof.Gen.ReferenceIdeal
import proofs.«131269_g2000402634760427_pallasbulk_1319_18_alg».proof.Proof.Gen.ReferenceIdeal.Frame
import proofs.«131269_g2000402634760427_pallasbulk_1319_18_alg».proof.Proof.Gen.Pre_finite_inputs
import proofs.«131269_g2000402634760427_pallasbulk_1319_18_alg».proof.Proof.KernelRun
import proofs.«131269_g2000402634760427_pallasbulk_1319_18_alg».proof.Proof.RefRun
import proofs.«131269_g2000402634760427_pallasbulk_1319_18_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => Cert.ReferenceIdeal.Gen.frame m ρ

/-- Both programs run to their last boundary's contents; from agreeing arguments those agree on the result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W11 (F := Ideal) m ρ c (Proc.devRef .tc Cert.KernelIdeal.main_v12),
    Cert.KernelIdeal.Run.run_value (F := Ideal) m ρ, ?_⟩
  refine (θ_run Cert.ReferenceIdeal.defs _ _).mono (fun r h c => ⟨(h c).1.trans ?_, (h c).2⟩)
    (Cert.ReferenceIdeal.Run.run_value (F := Ideal) m' ρ')
  exact Cert.Bridge.result_eq m ρ m' ρ' hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
